-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16x16384x1 : S_.BroadcastsInDim S4x16x16384x1 (![] : Fin 0 → Fin S4x16x16384x1.rank)
  reducesTo_S4x16x16384x1_S_d0_1_2_3 : S4x16x16384x1.ReducesTo [0, 1, 2, 3] S_
  bcast_S_S4x16384x16 : S_.BroadcastsInDim S4x16384x16 (![] : Fin 0 → Fin S4x16384x16.rank)
  reducesTo_S4x16384x16_S_d0_1_2 : S4x16384x16.ReducesTo [0, 1, 2] S_
  bcast_S_S16x10 : S_.BroadcastsInDim S16x10 (![] : Fin 0 → Fin S16x10.rank)
  reducesTo_S16x10_S_d0_1 : S16x10.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S16 .f32) (main_arg7 : FVec F S16 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S4x16384x3 .f32) (main_arg1 : FVec F S4x16x16384x1 .f32) (main_arg2 : IVec S4x16384x16 32) (main_arg3 : FVec F S4x16384x16 .f32) (main_arg4 : FVec F S16x10 .f32) (main_arg5 : FVec F S16 .f32) (main_arg6 : FVec F S16 .f32) (main_arg7 : FVec F S16 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16x16384x1 .f32 := Host.absf main_arg1
  let main_cst_0 : FVec F S_ .f32 := constant S_ .f32 0x7F800000#32
  let main_v5 : FVec F S4x16x16384x1 .f32 := broadcastInDim S4x16x16384x1 ![] bcast_S_S4x16x16384x1 main_cst_0
  let main_v6 : IVec S4x16x16384x1 1 := cmpf .olt main_v4 main_v5
  let main_c_1 : IVec S_ 1 := constantI S_ 1 1#1
  let main_v7 : IVec S_ 1 := (fun x v => Host.reduce IntOp.andi x v reducesTo_S4x16x16384x1_S_d0_1_2_3 h_S_) main_v6 main_c_1
  let main_v8 : IVec S_ 1 := andi main_v3 main_v7
  let main_v9 : FVec F S4x16384x16 .f32 := Host.absf main_arg3
  let main_cst_2 : FVec F S_ .f32 := constant S_ .f32 0x7F800000#32
  let main_v10 : FVec F S4x16384x16 .f32 := broadcastInDim S4x16384x16 ![] bcast_S_S4x16384x16 main_cst_2
  let main_v11 : IVec S4x16384x16 1 := cmpf .olt main_v9 main_v10
  let main_c_3 : IVec S_ 1 := constantI S_ 1 1#1
  let main_v12 : IVec S_ 1 := (fun x v => Host.reduce IntOp.andi x v reducesTo_S4x16384x16_S_d0_1_2 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_arg6 main_arg7 main_v13 main_v16
-- ==== Kernel.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩
abbrev S4x16384x16x1 : Shape := ⟨4, ![4, 16384, 16, 1]⟩
abbrev S4x16384x16x3 : Shape := ⟨4, ![4, 16384, 16, 3]⟩
abbrev S4x16x3x16384 : Shape := ⟨4, ![4, 16, 3, 16384]⟩
abbrev S4x3x16384 : Shape := ⟨3, ![4, 3, 16384]⟩
abbrev S4x16x16384 : Shape := ⟨3, ![4, 16, 16384]⟩
abbrev S16x1 : Shape := ⟨2, ![16, 1]⟩
abbrev S4x16x1 : Shape := ⟨3, ![4, 16, 1]⟩
abbrev S1x3x1024 : Shape := ⟨3, ![1, 3, 1024]⟩
abbrev S1x16x3x1024 : Shape := ⟨4, ![1, 16, 3, 1024]⟩
abbrev S1x16x1024 : Shape := ⟨3, ![1, 16, 1024]⟩
abbrev S1x16x1 : Shape := ⟨3, ![1, 16, 1]⟩
abbrev S3x1024 : Shape := ⟨2, ![3, 1024]⟩
abbrev S1x1x3x1024 : Shape := ⟨4, ![1, 1, 3, 1024]⟩
abbrev S1x1x1024 : Shape := ⟨3, ![1, 1, 1024]⟩
abbrev S1024 : Shape := ⟨1, ![1024]⟩
abbrev S1x1024 : Shape := ⟨2, ![1, 1024]⟩
abbrev S10x1024 : Shape := ⟨2, ![10, 1024]⟩
abbrev S16x1024 : Shape := ⟨2, ![16, 1024]⟩
abbrev S4x32x262144 : Shape := ⟨3, ![4, 32, 262144]⟩
abbrev S1x32x16384 : Shape := ⟨3, ![1, 32, 16384]⟩
abbrev S32x1024 : Shape := ⟨2, ![32, 1024]⟩
abbrev S32x1x1024 : Shape := ⟨3, ![32, 1, 1024]⟩
abbrev S32x16x1024 : Shape := ⟨3, ![32, 16, 1024]⟩
abbrev S32x1024x16 : Shape := ⟨3, ![32, 1024, 16]⟩
abbrev S32x16384 : Shape := ⟨2, ![32, 16384]⟩
abbrev S4x32x16384x16 : Shape := ⟨4, ![4, 32, 16384, 16]⟩

abbrev nBuf : Space → Nat
  | .hbm => 40
  | .vmem => 28
  | .smem => 0
  | _ => 0

abbrev bufTy : (tb : Table) → Fin (tcTables nBuf tb) → BufTy
  | .hbm, ⟨0, _⟩ => ⟨S4x16384x3, .f32⟩
  | .hbm, ⟨1, _⟩ => ⟨S4x16x16384x1, .f32⟩
  | .hbm, ⟨2, _⟩ => ⟨S4x16384x16, .i32⟩
  | .hbm, ⟨3, _⟩ => ⟨S4x16384x16, .f32⟩
  | .hbm, ⟨4, _⟩ => ⟨S16x10, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .i32⟩
  | .hbm, ⟨9, _⟩ => ⟨S4x16384x16, .i32⟩
  | .hbm, ⟨10, _⟩ => ⟨S4x16384x16, .i1⟩
  | .hbm, ⟨11, _⟩ => ⟨S_, .i32⟩
  | .hbm, ⟨12, _⟩ => ⟨S4x16384x16, .i32⟩
  | .hbm, ⟨13, _⟩ => ⟨S4x16384x16, .i32⟩
  | .hbm, ⟨14, _⟩ => ⟨S4x16384x16, .i32⟩
  | .hbm, ⟨15, _⟩ => ⟨S4x16384x16x1, .i32⟩
  | .hbm, ⟨16, _⟩ => ⟨S4x16384x16x3, .f32⟩
  | .hbm, ⟨17, _⟩ => ⟨S4x16x3x16384, .f32⟩
  | .hbm, ⟨18, _⟩ => ⟨S4x3x16384, .f32⟩
  | .hbm, ⟨19, _⟩ => ⟨S4x16x16384, .f32⟩
  | .hbm, ⟨20, _⟩ => ⟨S4x16x16384, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S4x16x1, .f32⟩
  | .hbm, ⟨25, _⟩ => ⟨S4x16x1, .f32⟩
  | .hbm, ⟨26, _⟩ => ⟨S_, .f32⟩
  | .hbm, ⟨27, _⟩ => ⟨S16x1, .f32⟩
  | .hbm, ⟨28, _⟩ => ⟨S_, .f32⟩
  | .hbm, ⟨29, _⟩ => ⟨S16x1, .f32⟩
  | .hbm, ⟨30, _⟩ => ⟨S_, .f32⟩
  | .hbm, ⟨31, _⟩ => ⟨S16x1, .f32⟩
  | .hbm, ⟨32, _⟩ => ⟨S16x1, .f32⟩
  | .hbm, ⟨33, _⟩ => ⟨S_, .f32⟩
  | .hbm, ⟨34, _⟩ => ⟨S16x1, .f32⟩
  | .hbm, ⟨35, _⟩ => ⟨S16x1, .f32⟩
  | .hbm, ⟨36, _⟩ => ⟨S16x1, .f32⟩
  | .hbm, ⟨37, _⟩ => ⟨S16x1, .f32⟩
  | .hbm, ⟨38, _⟩ => ⟨S4x32x262144, .f32⟩
  | .hbm, ⟨39, _⟩ => ⟨S4x32x16384x16, .f32⟩
  | .local _ .vmem, ⟨0, _⟩ => ⟨S1x3x1024, .f32⟩
  | .local _ .vmem, ⟨1, _⟩ => ⟨S1x3x1024, .f32⟩
  | .local _ .vmem, ⟨2, _⟩ => ⟨S1x16x3x1024, .f32⟩
  | .local _ .vmem, ⟨3, _⟩ => ⟨S1x16x3x1024, .f32⟩
  | .local _ .vmem, ⟨4, _⟩ => ⟨S1x16x1024, .f32⟩
  | .local _ .vmem, ⟨5, _⟩ => ⟨S1x16x1024, .f32⟩
  | .local _ .vmem, ⟨6, _⟩ => ⟨S16x10, .f32⟩
  | .local _ .vmem, ⟨7, _⟩ => ⟨S16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | .local _ .vmem, ⟨11, _⟩ => ⟨S1x16x1, .f32⟩
  | .local _ .vmem, ⟨12, _⟩ => ⟨S1x3x1024, .f32⟩
  | .local _ .vmem, ⟨13, _⟩ => ⟨S1x3x1024, .f32⟩
  | .local _ .vmem, ⟨14, _⟩ => ⟨S1x16x3x1024, .f32⟩
  | .local _ .vmem, ⟨15, _⟩ => ⟨S1x16x3x1024, .f32⟩
  | .local _ .vmem, ⟨16, _⟩ => ⟨S1x16x1024, .f32⟩
  | .local _ .vmem, ⟨17, _⟩ => ⟨S1x16x1024, .f32⟩
  | .local _ .vmem, ⟨18, _⟩ => ⟨S1x16x1024, .f32⟩
  | .local _ .vmem, ⟨19, _⟩ => ⟨S1x16x1024, .f32⟩
  | .local _ .vmem, ⟨20, _⟩ => ⟨S16x10, .f32⟩
  | .local _ .vmem, ⟨21, _⟩ => ⟨S16x1, .f32⟩
  | .local _ .vmem, ⟨22, _⟩ => ⟨S16x1, .f32⟩
  | .local _ .vmem, ⟨23, _⟩ => ⟨S16x1, .f32⟩
  | .local _ .vmem, ⟨24, _⟩ => ⟨S16x1, .f32⟩
  | .local _ .vmem, ⟨25, _⟩ => ⟨S16x1, .f32⟩
  | .local _ .vmem, ⟨26, _⟩ => ⟨S1x32x16384, .f32⟩
  | .local _ .vmem, ⟨27, _⟩ => ⟨S1x32x16384, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_cst : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S16x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S16x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x32x16384 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  transposes_S4x16384x16x3_S4x16x3x16384_0_2_3_1 : S4x16384x16x3.Transposes [0, 2, 3, 1] S4x16x3x16384
  transposes_S4x16384x3_S4x3x16384_0_2_1 : S4x16384x3.Transposes [0, 2, 1] S4x3x16384
  transposes_S4x16384x16_S4x16x16384_0_2_1 : S4x16384x16.Transposes [0, 2, 1] S4x16x16384
  shapeCasts_S4x16x16384x1_S4x16x16384 : S4x16x16384x1.ShapeCasts S4x16x16384
  shapeCasts_S16_S16x1 : S16.ShapeCasts S16x1
  inb_S1x16x1_S1x16x1_0_0_0 : ∀ a, (![0, 0, 0] : Fin 3 → Nat) a + S1x16x1.size a ≤ S1x16x1.size a
  h_S1x16x1 : 0 < S1x16x1.numel
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S16x10_S16x10_0_0 : ∀ a, (![0, 0] : Fin 2 → Nat) a + S16x10.size a ≤ S16x10.size a
  h_S16x10 : 0 < S16x10.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x16x3x1024_S1x1x3x1024_0_0_0_0 : ∀ a, (![0, 0, 0, 0] : Fin 4 → Nat) a + S1x1x3x1024.size a ≤ S1x16x3x1024.size a
  h_S1x1x3x1024 : 0 < S1x1x3x1024.numel
  shapeCasts_S1x1x3x1024_S3x1024 : S1x1x3x1024.ShapeCasts S3x1024
  inb_S1x16x1024_S1x1x1024_0_0_0 : ∀ a, (![0, 0, 0] : Fin 3 → Nat) a + S1x1x1024.size a ≤ S1x16x1024.size a
  h_S1x1x1024 : 0 < S1x1x1024.numel
  shapeCasts_S1x1x1024_S1024 : S1x1x1024.ShapeCasts S1024
  shapeCasts_S1024_S1x1024 : S1024.ShapeCasts S1x1024
  concatenates_S3x1024_S3x1024_S3x1024_S1x1024_S10x1024_d0 : Shape.Concatenates [S3x1024, S3x1024, S3x1024, S1x1024] S10x1024 0
  broadcasts_S16x1_S16x1024 : S16x1.Broadcasts S16x1024
  reduces_S16x1024_S16 : S16x1024.Reduces [1] S16
  inb_S1x16x3x1024_S1x1x3x1024_0_1_0_0 : ∀ a, (![0, 1, 0, 0] : Fin 4 → Nat) a + S1x1x3x1024.size a ≤ S1x16x3x1024.size a
  inb_S1x16x1024_S1x1x1024_0_1_0 : ∀ a, (![0, 1, 0] : Fin 3 → Nat) a + S1x1x1024.size a ≤ S1x16x1024.size a
  inb_S1x16x3x1024_S1x1x3x1024_0_2_0_0 : ∀ a, (![0, 2, 0, 0] : Fin 4 → Nat) a + S1x1x3x1024.size a ≤ S1x16x3x1024.size a
  inb_S1x16x1024_S1x1x1024_0_2_0 : ∀ a, (![0, 2, 0] : Fin 3 → Nat) a + S1x1x1024.size a ≤ S1x16x1024.size a
  inb_S1x16x3x1024_S1x1x3x1024_0_3_0_0 : ∀ a, (![0, 3, 0, 0] : Fin 4 → Nat) a + S1x1x3x1024.size a ≤ S1x16x3x1024.size a
  inb_S1x16x1024_S1x1x1024_0_3_0 : ∀ a, (![0, 3, 0] : Fin 3 → Nat) a + S1x1x1024.size a ≤ S1x16x1024.size a
  inb_S1x16x3x1024_S1x1x3x1024_0_4_0_0 : ∀ a, (![0, 4, 0, 0] : Fin 4 → Nat) a + S1x1x3x1024.size a ≤ S1x16x3x1024.size a
  inb_S1x16x1024_S1x1x1024_0_4_0 : ∀ a, (![0, 4, 0] : Fin 3 → Nat) a + S1x1x1024.size a ≤ S1x16x1024.size a
  inb_S1x16x3x1024_S1x1x3x1024_0_5_0_0 : ∀ a, (![0, 5, 0, 0] : Fin 4 → Nat) a + S1x1x3x1024.size a ≤ S1x16x3x1024.size a
  inb_S1x16x1024_S1x1x1024_0_5_0 : ∀ a, (![0, 5, 0] : Fin 3 → Nat) a + S1x1x1024.size a ≤ S1x16x1024.size a
  inb_S1x16x3x1024_S1x1x3x1024_0_6_0_0 : ∀ a, (![0, 6, 0, 0] : Fin 4 → Nat) a + S1x1x3x1024.size a ≤ S1x16x3x1024.size a
  inb_S1x16x1024_S1x1x1024_0_6_0 : ∀ a, (![0, 6, 0] : Fin 3 → Nat) a + S1x1x1024.size a ≤ S1x16x1024.size a
  inb_S1x16x3x1024_S1x1x3x1024_0_7_0_0 : ∀ a, (![0, 7, 0, 0] : Fin 4 → Nat) a + S1x1x3x1024.size a ≤ S1x16x3x1024.size a
  inb_S1x16x1024_S1x1x1024_0_7_0 : ∀ a, (![0, 7, 0] : Fin 3 → Nat) a + S1x1x1024.size a ≤ S1x16x1024.size a
  inb_S1x16x3x1024_S1x1x3x1024_0_8_0_0 : ∀ a, (![0, 8, 0, 0] : Fin 4 → Nat) a + S1x1x3x1024.size a ≤ S1x16x3x1024.size a
  inb_S1x16x1024_S1x1x1024_0_8_0 : ∀ a, (![0, 8, 0] : Fin 3 → Nat) a + S1x1x1024.size a ≤ S1x16x1024.size a
  inb_S1x16x3x1024_S1x1x3x1024_0_9_0_0 : ∀ a, (![0, 9, 0, 0] : Fin 4 → Nat) a + S1x1x3x1024.size a ≤ S1x16x3x1024.size a
  inb_S1x16x1024_S1x1x1024_0_9_0 : ∀ a, (![0, 9, 0] : Fin 3 → Nat) a + S1x1x1024.size a ≤ S1x16x1024.size a
  inb_S1x16x3x1024_S1x1x3x1024_0_10_0_0 : ∀ a, (![0, 10, 0, 0] : Fin 4 → Nat) a + S1x1x3x1024.size a ≤ S1x16x3x1024.size a
  inb_S1x16x1024_S1x1x1024_0_10_0 : ∀ a, (![0, 10, 0] : Fin 3 → Nat) a + S1x1x1024.size a ≤ S1x16x1024.size a
  inb_S1x16x3x1024_S1x1x3x1024_0_11_0_0 : ∀ a, (![0, 11, 0, 0] : Fin 4 → Nat) a + S1x1x3x1024.size a ≤ S1x16x3x1024.size a
  inb_S1x16x1024_S1x1x1024_0_11_0 : ∀ a, (![0, 11, 0] : Fin 3 → Nat) a + S1x1x1024.size a ≤ S1x16x1024.size a
  inb_S1x16x3x1024_S1x1x3x1024_0_12_0_0 : ∀ a, (![0, 12, 0, 0] : Fin 4 → Nat) a + S1x1x3x1024.size a ≤ S1x16x3x1024.size a
  inb_S1x16x1024_S1x1x1024_0_12_0 : ∀ a, (![0, 12, 0] : Fin 3 → Nat) a + S1x1x1024.size a ≤ S1x16x1024.size a
  inb_S1x16x3x1024_S1x1x3x1024_0_13_0_0 : ∀ a, (![0, 13, 0, 0] : Fin 4 → Nat) a + S1x1x3x1024.size a ≤ S1x16x3x1024.size a
  inb_S1x16x1024_S1x1x1024_0_13_0 : ∀ a, (![0, 13, 0] : Fin 3 → Nat) a + S1x1x1024.size a ≤ S1x16x1024.size a
  inb_S1x16x3x1024_S1x1x3x1024_0_14_0_0 : ∀ a, (![0, 14, 0, 0] : Fin 4 → Nat) a + S1x1x3x1024.size a ≤ S1x16x3x1024.size a
  inb_S1x16x1024_S1x1x1024_0_14_0 : ∀ a, (![0, 14, 0] : Fin 3 → Nat) a + S1x1x1024.size a ≤ S1x16x1024.size a
  inb_S1x16x3x1024_S1x1x3x1024_0_15_0_0 : ∀ a, (![0, 15, 0, 0] : Fin 4 → Nat) a + S1x1x3x1024.size a ≤ S1x16x3x1024.size a
  inb_S1x16x1024_S1x1x1024_0_15_0 : ∀ a, (![0, 15, 0] : Fin 3 → Nat) a + S1x1x1024.size a ≤ S1x16x1024.size a
  shapeCasts_S1x16x1_S16x1 : S1x16x1.ShapeCasts S16x1
  shapeCasts_S16x1_S1x16x1 : S16x1.ShapeCasts S1x16x1
  reducesTo_S4x16x1_S16x1_d0 : S4x16x1.ReducesTo [0] S16x1
  h_S_ : 0 < S_.numel
  bcast_S_S16x1 : S_.BroadcastsInDim S16x1 (![] : Fin 0 → Fin S16x1.rank)
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  concatenates_S16x1024_S16x1024_S32x1024_d0 : Shape.Concatenates [S16x1024, S16x1024] S32x1024 0
  shapeCasts_S32x1024_S32x1x1024 : S32x1024.ShapeCasts S32x1x1024
  concatenates_S32x1x1024_S32x1x1024_S32x1x1024_S32x1x1024_S32x1x1024_S32x1x1024_S32x1x1024_S32x1x1024_S32x1x1024_S32x1x1024_S32x1x1024_S32x1x1024_S32x1x1024_S32x1x1024_S32x1x1024_S32x1x1024_S32x16x1024_d1 : Shape.Concatenates [S32x1x1024, S32x1x1024, S32x1x1024, S32x1x1024, S32x1x1024, S32x1x1024, S32x1x1024, S32x1x1024, S32x1x1024, S32x1x1024, S32x1x1024, S32x1x1024, S32x1x1024, S32x1x1024, S32x1x1024, S32x1x1024] S32x16x1024 1
  transposes_S32x16x1024_p0_2_1_S32x1024x16 : S32x16x1024.Transposes [0, 2, 1] S32x1024x16
  shapeCasts_S32x1024x16_S32x16384 : S32x1024x16.ShapeCasts S32x16384
  inb_S1x32x16384_S1x32x16384_0_0_0 : ∀ a, (![0, 0, 0] : Fin 3 → Nat) a + S1x32x16384.size a ≤ S1x32x16384.size a
  h_S1x32x16384 : 0 < S1x32x16384.numel
  shapeCasts_S1x32x16384_S32x16384 : S1x32x16384.ShapeCasts S32x16384
  shapeCasts_S32x16384_S1x32x16384 : S32x16384.ShapeCasts S1x32x16384
  shapeCasts_S4x32x262144_S4x32x16384x16 : S4x32x262144.ShapeCasts S4x32x16384x16
  gather_S4x16384x3_S4x16384x16x1_S4x16384x16x3_3_1_0_0_1_3_113_wf : GatherDims.WF S4x16384x3 S4x16384x16x1 S4x16384x16x3 [3] [1] [0] [1] [0] 3 ![1, 1, 3]
  dot_S16x10_S10x1024_S16x1024_1_0_0_1_n_n_wf : DotDims.WF S16x10 S10x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x16384.size a
  hwx0_0 : ∀ i : grid0.Coords, EltTy.bits .f32 = 32 ∨ (Rect.block (s := S4x3x16384) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x3x1024.size a ≤ S4x16x3x16384.size a
  hwx0_1 : ∀ i : grid0.Coords, EltTy.bits .f32 = 32 ∨ (Rect.block (s := S4x16x3x16384) S1x16x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S4x16x16384.size a
  hwx0_2 : ∀ i : grid0.Coords, EltTy.bits .f32 = 32 ∨ (Rect.block (s := S4x16x16384) S1x16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x10.size a ≤ S16x10.size a
  hwx0_3 : ∀ i : grid0.Coords, EltTy.bits .f32 = 32 ∨ (Rect.block (s := S16x10) S16x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S4x16x1.size a
  hwx0_5 : ∀ i : grid0.Coords, EltTy.bits .f32 = 32 ∨ (Rect.block (s := S4x16x1) S1x16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S4x16x1.size a
  hwx0_6 : ∀ i : grid0.Coords, EltTy.bits .f32 = 32 ∨ (Rect.block (s := S4x16x1) S1x16x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x1024.size a ≤ S4x3x16384.size a
  hwx1_0 : ∀ i : grid1.Coords, EltTy.bits .f32 = 32 ∨ (Rect.block (s := S4x3x16384) S1x3x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x3x1024.size a ≤ S4x16x3x16384.size a
  hwx1_1 : ∀ i : grid1.Coords, EltTy.bits .f32 = 32 ∨ (Rect.block (s := S4x16x3x16384) S1x16x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x1024.size a ≤ S4x16x16384.size a
  hwx1_2 : ∀ i : grid1.Coords, EltTy.bits .f32 = 32 ∨ (Rect.block (s := S4x16x16384) S1x16x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x1024.size a ≤ S4x16x16384.size a
  hwx1_3 : ∀ i : grid1.Coords, EltTy.bits .f32 = 32 ∨ (Rect.block (s := S4x16x16384) S1x16x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x10.size a ≤ S16x10.size a
  hwx1_4 : ∀ i : grid1.Coords, EltTy.bits .f32 = 32 ∨ (Rect.block (s := S16x10) S16x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x1.size a ≤ S16x1.size a
  hwx1_7 : ∀ i : grid1.Coords, EltTy.bits .f32 = 32 ∨ (Rect.block (s := S16x1) S16x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x1.size a ≤ S16x1.size a
  hwx1_8 : ∀ i : grid1.Coords, EltTy.bits .f32 = 32 ∨ (Rect.block (s := S16x1) S16x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x1.size a ≤ S16x1.size a
  hwx1_9 : ∀ i : grid1.Coords, EltTy.bits .f32 = 32 ∨ (Rect.block (s := S16x1) S16x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x32x16384.size a ≤ S4x32x262144.size a
  hwx1_10 : ∀ i : grid1.Coords, EltTy.bits .f32 = 32 ∨ (Rect.block (s := S4x32x262144) S1x32x16384.size (cc1_transform_10 i) (hinb1_10 i)).WholeWords (EltTy.packing .f32)

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S16x10_S10x1024_S16x1024_1_0_0_1_n_n : DotDims S16x10 S10x1024 S16x1024 where
  lhsContracting := [1]
  rhsContracting := [0]
  lhsNonContracting := [0]
  rhsNonContracting := [1]
  lhsBatch := []
  rhsBatch := []
  wf := dot_S16x10_S10x1024_S16x1024_1_0_0_1_n_n_wf

abbrev win0_0 : Pipeline.Window sig grid0 :=
  Pipeline.Window.ofSpec (Memref.whole main_v8) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x16x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S1x16x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x16x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x16x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x16x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x16x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S16x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S16x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S16x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S1x32x16384.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4x16384x3 : Shape := ⟨3, ![4, 16384, 3]⟩
abbrev S4x16x16384x1 : Shape := ⟨4, ![4, 16, 16384, 1]⟩
abbrev S4x16384x16 : Shape := ⟨3, ![4, 16384, 16]⟩
abbrev S16x10 : Shape := ⟨2, ![16, 10]⟩
abbrev S16 : Shape := ⟨1, ![16]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x1x3 : Shape := ⟨4, ![4, 16384, 1, 3]⟩
abbrev S4x16384x16x10 : Shape := ⟨4, ![4, 16384, 16, 10]⟩
abbrev S16x4x16384x16 : Shape := ⟨4, ![16, 4, 16384, 16]⟩
abbrev S4x16x16384x16 : Shape := ⟨4, ![4, 16, 16384, 16]⟩
abbrev S1x16x1x1 : Shape := ⟨4, ![1, 16, 1, 1]⟩
abbrev S4x32x16384x16 : Shape := ⟨4, ![4, 32, 16384, 16]⟩

abbrev nBuf : Space → Nat
  | .hbm => 61
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16x16384x1, .f32⟩
  | .hbm, ⟨2, _⟩ => ⟨S4x16384x16, .i32⟩
  | .hbm, ⟨3, _⟩ => ⟨S4x16384x16, .f32⟩
  | .hbm, ⟨4, _⟩ => ⟨S16x10, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S_, .i32⟩
  | .hbm, ⟨9, _⟩ => ⟨S4x16384x16, .i32⟩
  | .hbm, ⟨10, _⟩ => ⟨S4x16384x16, .i1⟩
  | .hbm, ⟨11, _⟩ => ⟨S_, .i32⟩
  | .hbm, ⟨12, _⟩ => ⟨S4x16384x16, .i32⟩
  | .hbm, ⟨13, _⟩ => ⟨S4x16384x16, .i32⟩
  | .hbm, ⟨14, _⟩ => ⟨S4x16384x16, .i32⟩
  | .hbm, ⟨15, _⟩ => ⟨S4x16384x16x1, .i32⟩
  | .hbm, ⟨16, _⟩ => ⟨S4x16384x16x3, .f32⟩
  | .hbm, ⟨17, _⟩ => ⟨S4x16384x1x3, .f32⟩
  | .hbm, ⟨18, _⟩ => ⟨S4x16384x16x3, .f32⟩
  | .hbm, ⟨19, _⟩ => ⟨S4x16384x16x3, .f32⟩
  | .hbm, ⟨20, _⟩ => ⟨S4x16384x16x1, .f32⟩
  | .hbm, ⟨21, _⟩ => ⟨S4x16384x16x10, .f32⟩
  | .hbm, ⟨22, _⟩ => ⟨S16x4x16384x16, .f32⟩
  | .hbm, ⟨23, _⟩ => ⟨S4x16x16384x16, .f32⟩
  | .hbm, ⟨24, _⟩ => ⟨S1x16x1x1, .f32⟩
  | .hbm, ⟨25, _⟩ => ⟨S4x16x16384x16, .f32⟩
  | .hbm, ⟨26, _⟩ => ⟨S4x16x16384x16, .f32⟩
  | .hbm, ⟨27, _⟩ => ⟨S_, .f32⟩
  | .hbm, ⟨28, _⟩ => ⟨S16, .f32⟩
  | .hbm, ⟨29, _⟩ => ⟨S1x16x1x1, .f32⟩
  | .hbm, ⟨30, _⟩ => ⟨S_, .f32⟩
  | .hbm, ⟨31, _⟩ => ⟨S1x16x1x1, .f32⟩
  | .hbm, ⟨32, _⟩ => ⟨S1x16x1x1, .f32⟩
  | .hbm, ⟨33, _⟩ => ⟨S4x16x16384x16, .f32⟩
  | .hbm, ⟨34, _⟩ => ⟨S4x16x16384x16, .f32⟩
  | .hbm, ⟨35, _⟩ => ⟨S4x16x16384x16, .f32⟩
  | .hbm, ⟨36, _⟩ => ⟨S_, .f32⟩
  | .hbm, ⟨37, _⟩ => ⟨S16, .f32⟩
  | .hbm, ⟨38, _⟩ => ⟨S1x16x1x1, .f32⟩
  | .hbm, ⟨39, _⟩ => ⟨S_, .f32⟩
  | .hbm, ⟨40, _⟩ => ⟨S1x16x1x1, .f32⟩
  | .hbm, ⟨41, _⟩ => ⟨S1x16x1x1, .f32⟩
  | .hbm, ⟨42, _⟩ => ⟨S4x16x16384x16, .f32⟩
  | .hbm, ⟨43, _⟩ => ⟨S4x16x16384x16, .f32⟩
  | .hbm, ⟨44, _⟩ => ⟨S_, .f32⟩
  | .hbm, ⟨45, _⟩ => ⟨S1x16x1x1, .f32⟩
  | .hbm, ⟨46, _⟩ => ⟨S1x16x1x1, .f32⟩
  | .hbm, ⟨47, _⟩ => ⟨S1x16x1x1, .f32⟩
  | .hbm, ⟨48, _⟩ => ⟨S4x16x16384x16, .f32⟩
  | .hbm, ⟨49, _⟩ => ⟨S4x16x16384x16, .f32⟩
  | .hbm, ⟨50, _⟩ => ⟨S1x16x1x1, .f32⟩
  | .hbm, ⟨51, _⟩ => ⟨S4x16x16384x16, .f32⟩
  | .hbm, ⟨52, _⟩ => ⟨S4x16x16384x16, .f32⟩
  | .hbm, ⟨53, _⟩ => ⟨S1x16x1x1, .f32⟩
  | .hbm, ⟨54, _⟩ => ⟨S4x16x16384x16, .f32⟩
  | .hbm, ⟨55, _⟩ => ⟨S4x16x16384x16, .f32⟩
  | .hbm, ⟨56, _⟩ => ⟨S_, .f32⟩
  | .hbm, ⟨57, _⟩ => ⟨S4x16x16384x16, .f32⟩
  | .hbm, ⟨58, _⟩ => ⟨S4x16x16384x16, .f32⟩
  | .hbm, ⟨59, _⟩ => ⟨S4x16x16384x16, .f32⟩
  | .hbm, ⟨60, _⟩ => ⟨S4x32x16384x16, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  concatenates_S4x16384x16x3_S4x16384x16x3_S4x16384x16x3_S4x16384x16x1_S4x16384x16x10_d3 : Shape.Concatenates [S4x16384x16x3, S4x16384x16x3, S4x16384x16x3, S4x16384x16x1] S4x16384x16x10 3
  transposes_S16x4x16384x16_S4x16x16384x16_1_0_2_3 : S16x4x16384x16.Transposes [1, 0, 2, 3] S4x16x16384x16
  bcast_S16_S1x16x1x1_1 : S16.BroadcastsInDim S1x16x1x1 (![1] : Fin 1 → Fin S1x16x1x1.rank)
  bcast_S1x16x1x1_S4x16x16384x16_0_1_2_3 : S1x16x1x1.BroadcastsInDim S4x16x16384x16 (![0, 1, 2, 3] : Fin 4 → Fin S4x16x16384x16.rank)
  reducesTo_S4x16x16384x16_S16_d0_2_3 : S4x16x16384x16.ReducesTo [0, 2, 3] S16
  h_S_ : 0 < S_.numel
  bcast_S_S1x16x1x1 : S_.BroadcastsInDim S1x16x1x1 (![] : Fin 0 → Fin S1x16x1x1.rank)
  bcast_S_S4x16x16384x16 : S_.BroadcastsInDim S4x16x16384x16 (![] : Fin 0 → Fin S4x16x16384x16.rank)
  bcast_S4x16x16384x1_S4x16x16384x16_0_1_2_3 : S4x16x16384x1.BroadcastsInDim S4x16x16384x16 (![0, 1, 2, 3] : Fin 4 → Fin S4x16x16384x16.rank)
  concatenates_S4x16x16384x16_S4x16x16384x16_S4x32x16384x16_d1 : Shape.Concatenates [S4x16x16384x16, S4x16x16384x16] S4x32x16384x16 1
  gather_S4x16384x3_S4x16384x16x1_S4x16384x16x3_3_1_0_0_1_3_113_wf : GatherDims.WF S4x16384x3 S4x16384x16x1 S4x16384x16x3 [3] [1] [0] [1] [0] 3 ![1, 1, 3]
  dot_S16x10_S4x16384x16x10_S16x4x16384x16_1_3_0_012_n_n_wf : DotDims.WF S16x10 S4x16384x16x10 S16x4x16384x16 [1] [3] [0] [0, 1, 2] [] []

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S16x10_S4x16384x16x10_S16x4x16384x16_1_3_0_012_n_n : DotDims S16x10 S4x16384x16x10 S16x4x16384x16 where
  lhsContracting := [1]
  rhsContracting := [3]
  lhsNonContracting := [0]
  rhsNonContracting := [0, 1, 2]
  lhsBatch := []
  rhsBatch := []
  wf := dot_S16x10_S4x16384x16x10_S16x4x16384x16_1_3_0_012_n_n_wf

class Facts : Prop extends Facts₀ where

variable [Facts]
-- ==== Proof.KernelRun.lean ====
/-
  The kernel program's run with its RESULT named: every weakly fair execution of @main terminates, nothing faulting, and
  ends with the result buffer at the contents the last stretch of host operations leaves (`W5`: the fold of the
  program's five segments — host operations, the first kernel, host operations, the second kernel, the final
  reshape — over the launch memory), and with the eight arguments as launched. The frame certificate states the
  arguments only; its post-condition already holds every unscoped buffer at `W5`, so the result is read from the same
  final state.
-/
import proofs.«107703_j12592844112371_2_alg».proof.Proof.Gen.KernelIdeal.Frame

set_option maxRecDepth 16384

noncomputable section

namespace Cert.KernelIdeal.RunOut

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer `main_v24` at `W5` and the arguments unchanged. -/
theorem run_out : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunOut

end
-- ==== Proof.Spec.lean ====
/-
  The mathematics both programs compute, stated once over plain index functions on the extended reals.

  A point cloud of 4 batches of 16384 points in ℝ³; every point has 16 neighbours (their coordinates are
  `nb`) and a distance to each (`di`).  For a (point, neighbour) pair the ten features are the point's three
  coordinates, the neighbour's three, their three differences and the distance (`feat10`); a 1×1 convolution
  maps them to 16 channels (`conv`, `X`); each channel is normalised by its mean and variance over all
  4·16384·16 pairs (`mean`, `varC` — the centred form — and `varM`, the moment form E[x²] − mean²), scaled,
  shifted and clamped below at zero (`norm`); the 16 input feature channels of the point are appended
  (`Out`: 32 channels).
-/
import Idealize.ShloMosaic.PureOps.Ideal
import Idealize.ShloMosaic.Lib.ValueIdx

noncomputable section

open scoped BigOperators

namespace Cert.Spec

open Idealize.ShloMosaic Idealize.ShloMosaic.ValueIdx

/-- The ten features of a (point, neighbour) pair: centre, neighbour, centre − neighbour, distance. -/
def feat10 (ce nb : Fin 3 → EReal) (di : EReal) (c : Fin 10) : EReal :=
  if h : c.val < 3 then ce ⟨c.val, h⟩
  else if h6 : c.val < 6 then nb ⟨c.val - 3, by omega⟩
  else if h9 : c.val < 9 then ce ⟨c.val - 6, by omega⟩ - nb ⟨c.val - 6, by omega⟩
  else di

/-- One output channel of the 1×1 convolution: the weights' row against the features, plus the bias. -/
def conv (w : Fin 10 → EReal) (bias : EReal) (f : Fin 10 → EReal) : EReal :=
  (∑ c : Fin 10, w c * f c) + bias

/-- The convolution's value at (batch, channel, point, neighbour), from the arrays in the layout the
    reference reads them in: coordinates [4,16384,3], neighbour coordinates [4,16384,16,3], distances
    [4,16384,16], weights [16,10], bias [16]. -/
def X (co : (⟨3, ![4, 16384, 3]⟩ : Shape).Idx → EReal) (nb : (⟨4, ![4, 16384, 16, 3]⟩ : Shape).Idx → EReal)
    (di : (⟨3, ![4, 16384, 16]⟩ : Shape).Idx → EReal) (w : (⟨2, ![16, 10]⟩ : Shape).Idx → EReal)
    (bi : (⟨1, ![16]⟩ : Shape).Idx → EReal) (b : Fin 4) (d : Fin 16) (n : Fin 16384) (k : Fin 16) : EReal :=
  conv (fun c => w (ix2 d c)) (bi (ix1 d))
    (feat10 (fun c => co (ix3 b n c)) (fun c => nb (ix4 b n k c)) (di (ix3 b n k)))

/-- The same value from the channel-major arrays the kernels are handed: coordinates [4,3,16384], neighbour
    coordinates [4,16,3,16384], distances [4,16,16384], weights [16,10], bias as a column [16,1]. -/
def Xcm (A0 : (⟨3, ![4, 3, 16384]⟩ : Shape).Idx → EReal) (A1 : (⟨4, ![4, 16, 3, 16384]⟩ : Shape).Idx → EReal)
    (A2 : (⟨3, ![4, 16, 16384]⟩ : Shape).Idx → EReal) (A3 : (⟨2, ![16, 10]⟩ : Shape).Idx → EReal)
    (A4 : (⟨2, ![16, 1]⟩ : Shape).Idx → EReal) (b : Fin 4) (d : Fin 16) (n : Fin 16384) (k : Fin 16) : EReal :=
  conv (fun c => A3 (ix2 d c)) (A4 (ix2 d 0))
    (feat10 (fun c => A0 (ix3 b c n)) (fun c => A1 (ix4 b k c n)) (A2 (ix3 b k n)))

/-- The number of (batch, point, neighbour) triples, 4·16384·16 = 2²⁰, as the float both programs divide by. -/
def cnt : EReal := Ideal.ofBits .f32 0x49800000#32
/-- The variance's guard, the float nearest 10⁻⁶, the same word in both programs. -/
def eps : EReal := Ideal.ofBits .f32 0x358637BD#32

/-- A channel's total over every batch, point and neighbour. -/
def tot (Y : Fin 4 → Fin 16 → Fin 16384 → Fin 16 → EReal) (d : Fin 16) : EReal :=
  ∑ b : Fin 4, ∑ n : Fin 16384, ∑ k : Fin 16, Y b d n k

/-- A channel's mean. -/
def mean (Y : Fin 4 → Fin 16 → Fin 16384 → Fin 16 → EReal) (d : Fin 16) : EReal :=
  Ideal.div (tot Y d) cnt

/-- A channel's variance, centred form: the mean of the squared deviations. -/
def varC (Y : Fin 4 → Fin 16 → Fin 16384 → Fin 16 → EReal) (d : Fin 16) : EReal :=
  Ideal.div (tot (fun b d n k => (Y b d n k - mean Y d) * (Y b d n k - mean Y d)) d) cnt

/-- A channel's variance, moment form: the mean of the squares less the squared mean. -/
def varM (Y : Fin 4 → Fin 16 → Fin 16384 → Fin 16 → EReal) (d : Fin 16) : EReal :=
  Ideal.div (tot (fun b d n k => Y b d n k * Y b d n k) d) cnt - mean Y d * mean Y d

/-- Normalise, scale, shift, clamp below at zero. -/
def norm (x mu va g be : EReal) : EReal :=
  max ((x - mu) * Ideal.rsqrt (va + eps) * g + be) (Ideal.ofBits .f32 0x00000000#32)

/-- The result at (batch, channel, point, neighbour): channels 0–15 the normalised convolution, channels 16–31
    the point's input features (array [4,16,16384,1]) repeated for every neighbour. -/
def Out (Y : Fin 4 → Fin 16 → Fin 16384 → Fin 16 → EReal) (mu va : Fin 16 → EReal)
    (ga be : (⟨1, ![16]⟩ : Shape).Idx → EReal) (fe : (⟨4, ![4, 16, 16384, 1]⟩ : Shape).Idx → EReal)
    (b : Fin 4) (ch : Fin 32) (n : Fin 16384) (k : Fin 16) : EReal :=
  if h : ch.val < 16 then
    norm (Y b ⟨ch.val, h⟩ n k) (mu ⟨ch.val, h⟩) (va ⟨ch.val, h⟩) (ga (ix1 ⟨ch.val, h⟩)) (be (ix1 ⟨ch.val, h⟩))
  else fe (ix4 b ⟨ch.val - 16, by omega⟩ n 0)

/-! ## The same mathematics per block and per array, in the layouts the two kernels work in -/

/-- The convolution's value inside one tile of 1024 points: channel `d`, neighbour `k`, point `l` of the tile, from the
    tile's blocks — centre coordinates [1,3,1024], neighbour coordinates [1,16,3,1024], distances [1,16,1024] —
    and the weights [16,10] and bias column [16,1]. -/
def convBlk (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨2, ![16, 10]⟩ : Shape).Idx → EReal)
    (x4 : (⟨2, ![16, 1]⟩ : Shape).Idx → EReal) (d : Fin 16) (k : Fin 16) (l : Fin 1024) : EReal :=
  conv (fun c => x3 (ix2 d c)) (x4 (ix2 d 0))
    (feat10 (fun c => x0 (ix3 0 c l)) (fun c => x1 (ix4 0 k c l)) (x2 (ix3 0 k l)))

/-- A tile's contribution to a channel's total: the sum over the 16 neighbours and the tile's 1024 points. -/
def tileSum (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨2, ![16, 10]⟩ : Shape).Idx → EReal)
    (x4 : (⟨2, ![16, 1]⟩ : Shape).Idx → EReal) : (⟨3, ![1, 16, 1]⟩ : Shape).Idx → EReal :=
  fun j => ∑ k : Fin 16, ∑ l : Fin 1024, convBlk x0 x1 x2 x3 x4 (j 1) k l

/-- A tile's contribution to a channel's total of squares. -/
def tileSq (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨2, ![16, 10]⟩ : Shape).Idx → EReal)
    (x4 : (⟨2, ![16, 1]⟩ : Shape).Idx → EReal) : (⟨3, ![1, 16, 1]⟩ : Shape).Idx → EReal :=
  fun j => ∑ k : Fin 16, ∑ l : Fin 1024, convBlk x0 x1 x2 x3 x4 (j 1) k l * convBlk x0 x1 x2 x3 x4 (j 1) k l

/-- Per batch and channel, the total over the 16 tiles of 1024 points and the 16 neighbours: the [4,16,1] array the
    first kernel leaves (point `n` is point `l` of tile `nt`, `n = 1024·nt + l`). -/
def sumArr (Y : Fin 4 → Fin 16 → Fin 16384 → Fin 16 → EReal) : (⟨3, ![4, 16, 1]⟩ : Shape).Idx → EReal :=
  fun j => ∑ nt : Fin 16, ∑ k : Fin 16, ∑ l : Fin 1024, Y (j 0) (j 1) ⟨nt.val * 1024 + l.val, by omega⟩ k

/-- One entry of a tile's block of the second kernel's result, [1,32,16·1024]: position `p = 16·l + k` of row `ch` is
    neighbour `k` of the tile's point `l`; rows 0–15 the normalised convolution (mean, variance, scale and shift as
    columns [16,1]), rows 16–31 the tile's feature block [1,16,1024]. -/
def blkOutAt (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨3, ![1, 16, 1024]⟩ : Shape).Idx → EReal)
    (x4 : (⟨2, ![16, 10]⟩ : Shape).Idx → EReal) (x5 x6 x7 x8 x9 : (⟨2, ![16, 1]⟩ : Shape).Idx → EReal)
    (ch : Fin 32) (p : Fin 16384) : EReal :=
  if h : ch.val < 16 then
    norm (convBlk x0 x1 x2 x4 x5 ⟨ch.val, h⟩ ⟨p.val % 16, Nat.mod_lt _ (by norm_num)⟩ ⟨p.val / 16, by omega⟩)
      (x8 (ix2 ⟨ch.val, h⟩ 0)) (x9 (ix2 ⟨ch.val, h⟩ 0)) (x6 (ix2 ⟨ch.val, h⟩ 0)) (x7 (ix2 ⟨ch.val, h⟩ 0))
  else x3 (ix3 0 ⟨ch.val - 16, by omega⟩ ⟨p.val / 16, by omega⟩)

/-- The tile's block as an array. -/
def blkOut (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨3, ![1, 16, 1024]⟩ : Shape).Idx → EReal)
    (x4 : (⟨2, ![16, 10]⟩ : Shape).Idx → EReal) (x5 x6 x7 x8 x9 : (⟨2, ![16, 1]⟩ : Shape).Idx → EReal) :
    (⟨3, ![1, 32, 16384]⟩ : Shape).Idx → EReal :=
  fun j => blkOutAt x0 x1 x2 x3 x4 x5 x6 x7 x8 x9 (j 1) (j 2)

/-- One entry of the second kernel's whole result, [4,32,16·16384]: position `p = 16·n + k` of row `ch` of batch `b` is
    neighbour `k` of point `n`; mean, variance, scale and shift as columns [16,1], the features as [4,16,16384]. -/
def outArrAt (Y : Fin 4 → Fin 16 → Fin 16384 → Fin 16 → EReal) (mu va ga be : (⟨2, ![16, 1]⟩ : Shape).Idx → EReal)
    (fe : (⟨3, ![4, 16, 16384]⟩ : Shape).Idx → EReal) (b : Fin 4) (ch : Fin 32) (p : Fin 262144) : EReal :=
  if h : ch.val < 16 then
    norm (Y b ⟨ch.val, h⟩ ⟨p.val / 16, by omega⟩ ⟨p.val % 16, Nat.mod_lt _ (by norm_num)⟩)
      (mu (ix2 ⟨ch.val, h⟩ 0)) (va (ix2 ⟨ch.val, h⟩ 0)) (ga (ix2 ⟨ch.val, h⟩ 0)) (be (ix2 ⟨ch.val, h⟩ 0))
  else fe (ix3 b ⟨ch.val - 16, by omega⟩ ⟨p.val / 16, by omega⟩)

/-- The whole result as an array. -/
def outArr (Y : Fin 4 → Fin 16 → Fin 16384 → Fin 16 → EReal) (mu va ga be : (⟨2, ![16, 1]⟩ : Shape).Idx → EReal)
    (fe : (⟨3, ![4, 16, 16384]⟩ : Shape).Idx → EReal) : (⟨3, ![4, 32, 262144]⟩ : Shape).Idx → EReal :=
  fun j => outArrAt Y mu va ga be fe (j 0) (j 1) (j 2)

end Cert.Spec

end
-- ==== Proof.ConvChunk.lean ====
/-
  The chunk both kernel bodies compute for one neighbour: the ten features of every (point, neighbour) pair of a
  tile stacked as rows, multiplied by the weights and shifted by the bias column.  Read at (channel, point) it is
  the specification's 1×1 convolution of the pair's features.
-/
import proofs.«107703_j12592844112371_2_alg».proof.Proof.Gen.KernelIdeal.Skeleton
import proofs.«107703_j12592844112371_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ConvChunk

open Idealize.ShloMosaic Idealize.ShloMosaic.ValueIdx Idealize.SL.Sem
open Cert.KernelIdeal Cert.KernelIdeal.Gen

/-- The convolution chunk for one neighbour: centre coordinates [3,1024], weights [16,10], bias column [16,1], the
    neighbour's coordinates [1,1,3,1024] and distances [1,1,1024]; the result is [16,1024]. -/
def convTerm (v1 : FVec Ideal S3x1024 .f32) (w : Vec Ideal S16x10 .f32) (v4 : FVec Ideal S16x1 .f32)
    (nk : Vec Ideal S1x1x3x1024 .f32) (dk : Vec Ideal S1x1x1024 .f32) : FVec Ideal S16x1024 .f32 :=
  have v19 : FVec Ideal S3x1024 .f32 := shapeCast S3x1024 nk shapeCasts_S1x1x3x1024_S3x1024
  have v21 : FVec Ideal S1024 .f32 := shapeCast S1024 dk shapeCasts_S1x1x1024_S1024
  have v22 : FVec Ideal S3x1024 .f32 := subf v1 v19
  have v23 : FVec Ideal S1x1024 .f32 := shapeCast S1x1024 v21 shapeCasts_S1024_S1x1024
  have v24 : FVec Ideal S10x1024 .f32 := concatenate S10x1024 0 [⟨S3x1024, v1⟩, ⟨S3x1024, v19⟩, ⟨S3x1024, v22⟩, ⟨S1x1024, v23⟩] concatenates_S3x1024_S3x1024_S3x1024_S1x1024_S10x1024_d0
  have cst : FVec Ideal S16x1024 .f32 := constant S16x1024 .f32 0x00000000#32
  have v25 : FVec Ideal S16x1024 .f32 := matmul (φ₁ := .f32) dot_S16x10_S10x1024_S16x1024_1_0_0_1_n_n none w v24 cst
  have v26 : FVec Ideal S16x1024 .f32 := broadcastTo S16x1024 v4 broadcasts_S16x1_S16x1024
  have v27 : FVec Ideal S16x1024 .f32 := addf v25 v26
  v27

/-- A [1,1,3,1024] array cast to [3,1024] reads, at (c, l), the operand at (0, 0, c, l). -/
theorem cast_nbr {α : Type} (x : (⟨4, ![1, 1, 3, 1024]⟩ : Shape).Idx → α)
    (h : (⟨4, ![1, 1, 3, 1024]⟩ : Shape).ShapeCasts ⟨2, ![3, 1024]⟩) (c : Fin 3) (l : Fin 1024) :
    shapeCast ⟨2, ![3, 1024]⟩ x h (ix2 c l) = x (ix4 (0 : Fin 1) (0 : Fin 1) c l) :=
  shapeCast_apply x h _ _ (by
    rw [Shape.rowMajor_val_four, Shape.rowMajor_val_two]
    show ((0 * 1 + 0) * 3 + c.val) * 1024 + l.val = c.val * 1024 + l.val
    omega)

/-- A [1,1,1024] array cast to [1024] reads, at l, the operand at (0, 0, l). -/
theorem cast_dist {α : Type} (x : (⟨3, ![1, 1, 1024]⟩ : Shape).Idx → α)
    (h : (⟨3, ![1, 1, 1024]⟩ : Shape).ShapeCasts ⟨1, ![1024]⟩) (l : Fin 1024) :
    shapeCast ⟨1, ![1024]⟩ x h (ix1 l) = x (ix3 (0 : Fin 1) (0 : Fin 1) l) :=
  shapeCast_apply x h _ _ (by
    rw [Shape.rowMajor_val_three, Shape.rowMajor_val_one]
    show (0 * 1 + 0) * 1024 + l.val = l.val
    omega)

/-- Four blocks of 3, 3, 3 and 1 rows stacked: row r is a row of the block whose span holds it. -/
theorem stack_apply {α : Type} (a b c : (⟨2, ![3, 1024]⟩ : Shape).Idx → α) (e : (⟨2, ![1, 1024]⟩ : Shape).Idx → α)
    (h : Shape.Concatenates [S3x1024, S3x1024, S3x1024, S1x1024] S10x1024 0)
    (r : Fin 10) (l : Fin 1024) :
    concatenate S10x1024 0 [⟨S3x1024, a⟩, ⟨S3x1024, b⟩, ⟨S3x1024, c⟩, ⟨S1x1024, e⟩] h (ix2 r l)
      = if h3 : r.val < 3 then a (ix2 ⟨r.val, h3⟩ l)
        else if h6 : r.val < 6 then b (ix2 ⟨r.val - 3, by omega⟩ l)
        else if h9 : r.val < 9 then c (ix2 ⟨r.val - 6, by omega⟩ l)
        else e (ix2 (0 : Fin 1) l) := by
  have hi : ∀ (n : Nat) (i : (⟨2, ![n, 1024]⟩ : Shape).Idx), (i 1).val = l.val →
      ∀ b' : Fin 2, b'.cast rfl ≠ (0 : Fin S10x1024.rank) → (i b').val = ((ix2 r l : S10x1024.Idx) (b'.cast rfl)).val := by
    intro n i hl b' hb
    match b', hb with
    | ⟨0, _⟩, hb => exact absurd rfl hb
    | ⟨1, _⟩, _ => exact hl
  split_ifs with h3 h6 h9
  · exact concatenate_apply_piece (t := S10x1024) 0 [⟨S3x1024, a⟩, ⟨S3x1024, b⟩, ⟨S3x1024, c⟩, ⟨S1x1024, e⟩] h (ix2 r l) 0 (by simp) S3x1024 a rfl rfl 0 rfl (ix2 ⟨r.val, h3⟩ l) (hi 3 _ rfl)
      (by show 0 + r.val = r.val; omega)
  · exact concatenate_apply_piece (t := S10x1024) 0 [⟨S3x1024, a⟩, ⟨S3x1024, b⟩, ⟨S3x1024, c⟩, ⟨S1x1024, e⟩] h (ix2 r l) 1 (by simp) S3x1024 b rfl rfl 3 rfl (ix2 ⟨r.val - 3, by omega⟩ l) (hi 3 _ rfl)
      (by show 3 + (r.val - 3) = r.val; omega)
  · exact concatenate_apply_piece (t := S10x1024) 0 [⟨S3x1024, a⟩, ⟨S3x1024, b⟩, ⟨S3x1024, c⟩, ⟨S1x1024, e⟩] h (ix2 r l) 2 (by simp) S3x1024 c rfl rfl 6 rfl (ix2 ⟨r.val - 6, by omega⟩ l) (hi 3 _ rfl)
      (by show 6 + (r.val - 6) = r.val; omega)
  · exact concatenate_apply_piece (t := S10x1024) 0 [⟨S3x1024, a⟩, ⟨S3x1024, b⟩, ⟨S3x1024, c⟩, ⟨S1x1024, e⟩] h (ix2 r l) 3 (by simp) S1x1024 e rfl rfl 9 rfl (ix2 (0 : Fin 1) l) (hi 1 _ rfl)
      (by show 9 + 0 = r.val; omega)

/-- The weights' axis 0 is the result's axis 0. -/
theorem lhs_row (i : S16x1024.Idx) (q : dot_S16x10_S10x1024_S16x1024_1_0_0_1_n_n.contr.Idx) :
    (dot_S16x10_S10x1024_S16x1024_1_0_0_1_n_n.lhsIdx i q 0).val = (i 0).val := by
  unfold DotDims.lhsIdx
  rw [dif_neg (show ¬(0 : Fin S16x10.rank) ∈ dot_S16x10_S10x1024_S16x1024_1_0_0_1_n_n.lhsBatch by decide), dif_pos (show (0 : Fin S16x10.rank) ∈ dot_S16x10_S10x1024_S16x1024_1_0_0_1_n_n.lhsNonContracting by decide)]
  rfl

/-- The features' axis 1 is the result's axis 1. -/
theorem rhs_col (i : S16x1024.Idx) (q : dot_S16x10_S10x1024_S16x1024_1_0_0_1_n_n.contr.Idx) :
    (dot_S16x10_S10x1024_S16x1024_1_0_0_1_n_n.rhsIdx i q 1).val = (i 1).val := by
  unfold DotDims.rhsIdx
  rw [dif_neg (show ¬(1 : Fin S10x1024.rank) ∈ dot_S16x10_S10x1024_S16x1024_1_0_0_1_n_n.rhsBatch by decide), dif_pos (show (1 : Fin S10x1024.rank) ∈ dot_S16x10_S10x1024_S16x1024_1_0_0_1_n_n.rhsNonContracting by decide)]
  rfl

/-- The stacked features at (row c, point l) are the specification's ten features of the pair. -/
theorem feat_apply (v1 : FVec Ideal S3x1024 .f32) (nk : Vec Ideal S1x1x3x1024 .f32) (dk : Vec Ideal S1x1x1024 .f32)
    (c : Fin 10) (l : Fin 1024) :
    concatenate S10x1024 0 [⟨S3x1024, v1⟩, ⟨S3x1024, shapeCast S3x1024 nk shapeCasts_S1x1x3x1024_S3x1024⟩,
        ⟨S3x1024, subf v1 (shapeCast S3x1024 nk shapeCasts_S1x1x3x1024_S3x1024)⟩,
        ⟨S1x1024, shapeCast S1x1024 (shapeCast S1024 dk shapeCasts_S1x1x1024_S1024) shapeCasts_S1024_S1x1024⟩]
        concatenates_S3x1024_S3x1024_S3x1024_S1x1024_S10x1024_d0 (ix2 c l)
      = Cert.Spec.feat10 (fun c => v1 (ix2 c l)) (fun c => nk (ix4 0 0 c l)) (dk (ix3 0 0 l)) c := by
  rw [stack_apply]
  unfold Cert.Spec.feat10
  split_ifs with h3 h6 h9
  · rfl
  · exact cast_nbr nk _ _ l
  · show v1 _ - shapeCast S3x1024 nk shapeCasts_S1x1x3x1024_S3x1024 _ = _
    rw [cast_nbr]
  · rw [shapeCast_a_1a_apply]
    exact cast_dist dk _ l

theorem convTerm_apply (v1 : FVec Ideal S3x1024 .f32) (w : Vec Ideal S16x10 .f32) (v4 : FVec Ideal S16x1 .f32)
    (nk : Vec Ideal S1x1x3x1024 .f32) (dk : Vec Ideal S1x1x1024 .f32) (d : Fin 16) (l : Fin 1024) :
    convTerm v1 w v4 nk dk (ix2 d l)
      = Cert.Spec.conv (fun c => w (ix2 d c)) (v4 (ix2 d 0))
          (Cert.Spec.feat10 (fun c => v1 (ix2 c l)) (fun c => nk (ix4 0 0 c l)) (dk (ix3 0 0 l))) := by
  unfold convTerm Cert.Spec.conv
  dsimp only
  rw [addf_apply]
  refine congrArg₂ (· + ·) ?_ ?_
  · refine (Ideal.matmul_constant_zero_apply dot_S16x10_S10x1024_S16x1024_1_0_0_1_n_n none _ _ (ix2 d l)).trans ?_
    rw [← Equiv.sum_comp (contrEquiv1 dot_S16x10_S10x1024_S16x1024_1_0_0_1_n_n 10 rfl rfl).symm]
    refine Finset.sum_congr rfl fun k _ => ?_
    have hk := contrEquiv1_symm_val dot_S16x10_S10x1024_S16x1024_1_0_0_1_n_n 10 rfl rfl k
    have el : dot_S16x10_S10x1024_S16x1024_1_0_0_1_n_n.lhsIdx (ix2 d l) ((contrEquiv1 dot_S16x10_S10x1024_S16x1024_1_0_0_1_n_n 10 rfl rfl).symm k) = ix2 d k :=
      funext fun a => Fin.ext (by
        match a with
        | ⟨0, _⟩ => exact lhs_row _ _
        | ⟨1, _⟩ => exact (dot_S16x10_S10x1024_S16x1024_1_0_0_1_n_n.lhsIdx_val_of_single rfl _ _).trans hk)
    have er : dot_S16x10_S10x1024_S16x1024_1_0_0_1_n_n.rhsIdx (ix2 d l) ((contrEquiv1 dot_S16x10_S10x1024_S16x1024_1_0_0_1_n_n 10 rfl rfl).symm k) = ix2 k l :=
      funext fun a => Fin.ext (by
        match a with
        | ⟨0, _⟩ => exact (dot_S16x10_S10x1024_S16x1024_1_0_0_1_n_n.rhsIdx_val_of_single rfl _ _).trans hk
        | ⟨1, _⟩ => exact rhs_col _ _)
    rw [el, er, feat_apply]
  · exact broadcastTo_apply v4 _ (ix2 d l) (ix2 d 0) (fun a => by
      match a with
      | ⟨0, _⟩ => rfl
      | ⟨1, _⟩ => rfl)

end Cert.ConvChunk

end
-- ==== Proof.StatsPay.lean ====
/-
  The first kernel's body at one grid point: sixteen neighbours' convolution chunks, each summed over the tile's
  1024 points (and its square likewise), added one after another onto what the accumulator held.  The two values
  the body stores are the accumulator plus the tile's total, and plus the tile's total of squares.
-/
import proofs.«107703_j12592844112371_2_alg».proof.Proof.ConvChunk
import proofs.«107703_j12592844112371_2_alg».proof.Proof.Gen.KernelIdeal.Skeleton
import proofs.«107703_j12592844112371_2_alg».proof.Proof.Spec
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

open scoped BigOperators

namespace Cert.KernelIdeal.StatsPay

open Idealize.ShloMosaic Idealize.ShloMosaic.ValueIdx Idealize.SL.Sem
open Cert.KernelIdeal Cert.KernelIdeal.Gen Cert.Spec Cert.ConvChunk

variable {F : FTy → Type} [FloatOps F]

/-- What the body stores to the running total: the payload chain over the loads, as the body threads it. -/
def rawSum (x0 : Vec F S1x3x1024 .f32) (x1 : Vec F S1x16x3x1024 .f32) (x2 : Vec F S1x16x1024 .f32) (x3 : Vec F S16x10 .f32) (x4 : Vec F S16x1 .f32) (acc : Vec F S1x16x1 .f32) : Vec F S1x16x1 .f32 :=
  have v4 : FVec F S3x1024 .f32 := k0_pay4 x0
  have v5 : Vec F S16x10 .f32 := x3
  have v7 : FVec F S16x1 .f32 := k0_pay5 x4
  have v22 : FVec F S16x1 .f32 := k0_pay7 x0 x3 x4 (View.ld x1 (Rect.unit (s := S1x16x3x1024) ![0, 0, 0, 0] S1x1x3x1024.size inb_S1x16x3x1024_S1x1x3x1024_0_0_0_0)) (View.ld x2 (Rect.unit (s := S1x16x1024) ![0, 0, 0] S1x1x1024.size inb_S1x16x1024_S1x1x1024_0_0_0))
  have v26 : FVec F S16x1 .f32 := k0_pay8 x0 x3 x4 (View.ld x1 (Rect.unit (s := S1x16x3x1024) ![0, 0, 0, 0] S1x1x3x1024.size inb_S1x16x3x1024_S1x1x3x1024_0_0_0_0)) (View.ld x2 (Rect.unit (s := S1x16x1024) ![0, 0, 0] S1x1x1024.size inb_S1x16x1024_S1x1x1024_0_0_0))
  have v28 : FVec F S3x1024 .f32 := k0_pay9 (View.ld x1 (Rect.unit (s := S1x16x3x1024) ![0, 1, 0, 0] S1x1x3x1024.size inb_S1x16x3x1024_S1x1x3x1024_0_1_0_0))
  have v56 : FVec F S16x1 .f32 := k0_pay12 v4 v5 v7 v22 v28 (View.ld x2 (Rect.unit (s := S1x16x1024) ![0, 1, 0] S1x1x1024.size inb_S1x16x1024_S1x1x1024_0_1_0)) (View.ld x1 (Rect.unit (s := S1x16x3x1024) ![0, 2, 0, 0] S1x1x3x1024.size inb_S1x16x3x1024_S1x1x3x1024_0_2_0_0)) (View.ld x2 (Rect.unit (s := S1x16x1024) ![0, 2, 0] S1x1x1024.size inb_S1x16x1024_S1x1x1024_0_2_0))
  have v60 : FVec F S16x1 .f32 := k0_pay13 v4 v5 v7 v26 v28 (View.ld x2 (Rect.unit (s := S1x16x1024) ![0, 1, 0] S1x1x1024.size inb_S1x16x1024_S1x1x1024_0_1_0)) (View.ld x1 (Rect.unit (s := S1x16x3x1024) ![0, 2, 0, 0] S1x1x3x1024.size inb_S1x16x3x1024_S1x1x3x1024_0_2_0_0)) (View.ld x2 (Rect.unit (s := S1x16x1024) ![0, 2, 0] S1x1x1024.size inb_S1x16x1024_S1x1x1024_0_2_0))
  have v67 : FVec F S10x1024 .f32 := k0_pay14 v4 (View.ld x1 (Rect.unit (s := S1x16x3x1024) ![0, 3, 0, 0] S1x1x3x1024.size inb_S1x16x3x1024_S1x1x3x1024_0_3_0_0)) (View.ld x2 (Rect.unit (s := S1x16x1024) ![0, 3, 0] S1x1x1024.size inb_S1x16x1024_S1x1x1024_0_3_0))
  have cst_42 : FVec F S16x1024 .f32 := constant S16x1024 .f32 0x00000000#32
  have v90 : FVec F S16x1 .f32 := k0_pay17 v4 v5 v7 v56 v67 cst_42 (View.ld x1 (Rect.unit (s := S1x16x3x1024) ![0, 4, 0, 0] S1x1x3x1024.size inb_S1x16x3x1024_S1x1x3x1024_0_4_0_0)) (View.ld x2 (Rect.unit (s := S1x16x1024) ![0, 4, 0] S1x1x1024.size inb_S1x16x1024_S1x1x1024_0_4_0))
  have v94 : FVec F S16x1 .f32 := k0_pay18 v4 v5 v7 v60 v67 cst_42 (View.ld x1 (Rect.unit (s := S1x16x3x1024) ![0, 4, 0, 0] S1x1x3x1024.size inb_S1x16x3x1024_S1x1x3x1024_0_4_0_0)) (View.ld x2 (Rect.unit (s := S1x16x1024) ![0, 4, 0] S1x1x1024.size inb_S1x16x1024_S1x1x1024_0_4_0))
  have v104 : FVec F S16x1024 .f32 := k0_pay19 v4 v5 v7 (View.ld x1 (Rect.unit (s := S1x16x3x1024) ![0, 5, 0, 0] S1x1x3x1024.size inb_S1x16x3x1024_S1x1x3x1024_0_5_0_0)) (View.ld x2 (Rect.unit (s := S1x16x1024) ![0, 5, 0] S1x1x1024.size inb_S1x16x1024_S1x1x1024_0_5_0))
  have v106 : FVec F S16x1 .f32 := k0_pay20 v4 v5 v7 (View.ld x1 (Rect.unit (s := S1x16x3x1024) ![0, 5, 0, 0] S1x1x3x1024.size inb_S1x16x3x1024_S1x1x3x1024_0_5_0_0)) (View.ld x2 (Rect.unit (s := S1x16x1024) ![0, 5, 0] S1x1x1024.size inb_S1x16x1024_S1x1x1024_0_5_0))
  have v141 : FVec F S16x1 .f32 := k0_pay23 v4 v5 v7 v90 v106 (View.ld x1 (Rect.unit (s := S1x16x3x1024) ![0, 6, 0, 0] S1x1x3x1024.size inb_S1x16x3x1024_S1x1x3x1024_0_6_0_0)) (View.ld x2 (Rect.unit (s := S1x16x1024) ![0, 6, 0] S1x1x1024.size inb_S1x16x1024_S1x1x1024_0_6_0)) (View.ld x1 (Rect.unit (s := S1x16x3x1024) ![0, 7, 0, 0] S1x1x3x1024.size inb_S1x16x3x1024_S1x1x3x1024_0_7_0_0)) (View.ld x2 (Rect.unit (s := S1x16x1024) ![0, 7, 0] S1x1x1024.size inb_S1x16x1024_S1x1x1024_0_7_0))
  have v145 : FVec F S16x1 .f32 := k0_pay24 v4 v5 v7 v94 v104 (View.ld x1 (Rect.unit (s := S1x16x3x1024) ![0, 6, 0, 0] S1x1x3x1024.size inb_S1x16x3x1024_S1x1x3x1024_0_6_0_0)) (View.ld x2 (Rect.unit (s := S1x16x1024) ![0, 6, 0] S1x1x1024.size inb_S1x16x1024_S1x1x1024_0_6_0)) (View.ld x1 (Rect.unit (s := S1x16x3x1024) ![0, 7, 0, 0] S1x1x3x1024.size inb_S1x16x3x1024_S1x1x3x1024_0_7_0_0)) (View.ld x2 (Rect.unit (s := S1x16x1024) ![0, 7, 0] S1x1x1024.size inb_S1x16x1024_S1x1x1024_0_7_0))
  have v175 : FVec F S16x1 .f32 := k0_pay27 v4 v5 v7 v141 (View.ld x1 (Rect.unit (s := S1x16x3x1024) ![0, 8, 0, 0] S1x1x3x1024.size inb_S1x16x3x1024_S1x1x3x1024_0_8_0_0)) (View.ld x2 (Rect.unit (s := S1x16x1024) ![0, 8, 0] S1x1x1024.size inb_S1x16x1024_S1x1x1024_0_8_0)) (View.ld x1 (Rect.unit (s := S1x16x3x1024) ![0, 9, 0, 0] S1x1x3x1024.size inb_S1x16x3x1024_S1x1x3x1024_0_9_0_0)) (View.ld x2 (Rect.unit (s := S1x16x1024) ![0, 9, 0] S1x1x1024.size inb_S1x16x1024_S1x1x1024_0_9_0))
  have v179 : FVec F S16x1 .f32 := k0_pay28 v4 v5 v7 v145 (View.ld x1 (Rect.unit (s := S1x16x3x1024) ![0, 8, 0, 0] S1x1x3x1024.size inb_S1x16x3x1024_S1x1x3x1024_0_8_0_0)) (View.ld x2 (Rect.unit (s := S1x16x1024) ![0, 8, 0] S1x1x1024.size inb_S1x16x1024_S1x1x1024_0_8_0)) (View.ld x1 (Rect.unit (s := S1x16x3x1024) ![0, 9, 0, 0] S1x1x3x1024.size inb_S1x16x3x1024_S1x1x3x1024_0_9_0_0)) (View.ld x2 (Rect.unit (s := S1x16x1024) ![0, 9, 0] S1x1x1024.size inb_S1x16x1024_S1x1x1024_0_9_0))
  have v181 : FVec F S3x1024 .f32 := k0_pay29 (View.ld x1 (Rect.unit (s := S1x16x3x1024) ![0, 10, 0, 0] S1x1x3x1024.size inb_S1x16x3x1024_S1x1x3x1024_0_10_0_0))
  have v209 : FVec F S16x1 .f32 := k0_pay32 v4 v5 v7 v175 v181 (View.ld x2 (Rect.unit (s := S1x16x1024) ![0, 10, 0] S1x1x1024.size inb_S1x16x1024_S1x1x1024_0_10_0)) (View.ld x1 (Rect.unit (s := S1x16x3x1024) ![0, 11, 0, 0] S1x1x3x1024.size inb_S1x16x3x1024_S1x1x3x1024_0_11_0_0)) (View.ld x2 (Rect.unit (s := S1x16x1024) ![0, 11, 0] S1x1x1024.size inb_S1x16x1024_S1x1x1024_0_11_0))
  have v213 : FVec F S16x1 .f32 := k0_pay33 v4 v5 v7 v179 v181 (View.ld x2 (Rect.unit (s := S1x16x1024) ![0, 10, 0] S1x1x1024.size inb_S1x16x1024_S1x1x1024_0_10_0)) (View.ld x1 (Rect.unit (s := S1x16x3x1024) ![0, 11, 0, 0] S1x1x3x1024.size inb_S1x16x3x1024_S1x1x3x1024_0_11_0_0)) (View.ld x2 (Rect.unit (s := S1x16x1024) ![0, 11, 0] S1x1x1024.size inb_S1x16x1024_S1x1x1024_0_11_0))
  have v215 : FVec F S3x1024 .f32 := k0_pay34 (View.ld x1 (Rect.unit (s := S1x16x3x1024) ![0, 12, 0, 0] S1x1x3x1024.size inb_S1x16x3x1024_S1x1x3x1024_0_12_0_0))
  have v217 : FVec F S1024 .f32 := k0_pay35 (View.ld x2 (Rect.unit (s := S1x16x1024) ![0, 12, 0] S1x1x1024.size inb_S1x16x1024_S1x1x1024_0_12_0))
  have v218 : FVec F S3x1024 .f32 := k0_pay36 v4 (View.ld x1 (Rect.unit (s := S1x16x3x1024) ![0, 12, 0, 0] S1x1x3x1024.size inb_S1x16x3x1024_S1x1x3x1024_0_12_0_0))
  have v243 : FVec F S16x1 .f32 := k0_pay39 v4 v5 v7 v209 v215 v217 v218 (View.ld x1 (Rect.unit (s := S1x16x3x1024) ![0, 13, 0, 0] S1x1x3x1024.size inb_S1x16x3x1024_S1x1x3x1024_0_13_0_0)) (View.ld x2 (Rect.unit (s := S1x16x1024) ![0, 13, 0] S1x1x1024.size inb_S1x16x1024_S1x1x1024_0_13_0))
  have v247 : FVec F S16x1 .f32 := k0_pay40 v4 v5 v7 v213 v215 v217 v218 (View.ld x1 (Rect.unit (s := S1x16x3x1024) ![0, 13, 0, 0] S1x1x3x1024.size inb_S1x16x3x1024_S1x1x3x1024_0_13_0_0)) (View.ld x2 (Rect.unit (s := S1x16x1024) ![0, 13, 0] S1x1x1024.size inb_S1x16x1024_S1x1x1024_0_13_0))
  have v257 : FVec F S16x1024 .f32 := k0_pay41 v4 v5 v7 (View.ld x1 (Rect.unit (s := S1x16x3x1024) ![0, 14, 0, 0] S1x1x3x1024.size inb_S1x16x3x1024_S1x1x3x1024_0_14_0_0)) (View.ld x2 (Rect.unit (s := S1x16x1024) ![0, 14, 0] S1x1x1024.size inb_S1x16x1024_S1x1x1024_0_14_0))
  k0_pay43 v4 v5 v7 v243 v257 (View.ld x1 (Rect.unit (s := S1x16x3x1024) ![0, 15, 0, 0] S1x1x3x1024.size inb_S1x16x3x1024_S1x1x3x1024_0_15_0_0)) (View.ld x2 (Rect.unit (s := S1x16x1024) ![0, 15, 0] S1x1x1024.size inb_S1x16x1024_S1x1x1024_0_15_0)) acc

/-- What the body stores to the running total of squares. -/
def rawSq (x0 : Vec F S1x3x1024 .f32) (x1 : Vec F S1x16x3x1024 .f32) (x2 : Vec F S1x16x1024 .f32) (x3 : Vec F S16x10 .f32) (x4 : Vec F S16x1 .f32) (acc : Vec F S1x16x1 .f32) : Vec F S1x16x1 .f32 :=
  have v4 : FVec F S3x1024 .f32 := k0_pay4 x0
  have v5 : Vec F S16x10 .f32 := x3
  have v7 : FVec F S16x1 .f32 := k0_pay5 x4
  have v22 : FVec F S16x1 .f32 := k0_pay7 x0 x3 x4 (View.ld x1 (Rect.unit (s := S1x16x3x1024) ![0, 0, 0, 0] S1x1x3x1024.size inb_S1x16x3x1024_S1x1x3x1024_0_0_0_0)) (View.ld x2 (Rect.unit (s := S1x16x1024) ![0, 0, 0] S1x1x1024.size inb_S1x16x1024_S1x1x1024_0_0_0))
  have v26 : FVec F S16x1 .f32 := k0_pay8 x0 x3 x4 (View.ld x1 (Rect.unit (s := S1x16x3x1024) ![0, 0, 0, 0] S1x1x3x1024.size inb_S1x16x3x1024_S1x1x3x1024_0_0_0_0)) (View.ld x2 (Rect.unit (s := S1x16x1024) ![0, 0, 0] S1x1x1024.size inb_S1x16x1024_S1x1x1024_0_0_0))
  have v28 : FVec F S3x1024 .f32 := k0_pay9 (View.ld x1 (Rect.unit (s := S1x16x3x1024) ![0, 1, 0, 0] S1x1x3x1024.size inb_S1x16x3x1024_S1x1x3x1024_0_1_0_0))
  have v56 : FVec F S16x1 .f32 := k0_pay12 v4 v5 v7 v22 v28 (View.ld x2 (Rect.unit (s := S1x16x1024) ![0, 1, 0] S1x1x1024.size inb_S1x16x1024_S1x1x1024_0_1_0)) (View.ld x1 (Rect.unit (s := S1x16x3x1024) ![0, 2, 0, 0] S1x1x3x1024.size inb_S1x16x3x1024_S1x1x3x1024_0_2_0_0)) (View.ld x2 (Rect.unit (s := S1x16x1024) ![0, 2, 0] S1x1x1024.size inb_S1x16x1024_S1x1x1024_0_2_0))
  have v60 : FVec F S16x1 .f32 := k0_pay13 v4 v5 v7 v26 v28 (View.ld x2 (Rect.unit (s := S1x16x1024) ![0, 1, 0] S1x1x1024.size inb_S1x16x1024_S1x1x1024_0_1_0)) (View.ld x1 (Rect.unit (s := S1x16x3x1024) ![0, 2, 0, 0] S1x1x3x1024.size inb_S1x16x3x1024_S1x1x3x1024_0_2_0_0)) (View.ld x2 (Rect.unit (s := S1x16x1024) ![0, 2, 0] S1x1x1024.size inb_S1x16x1024_S1x1x1024_0_2_0))
  have v67 : FVec F S10x1024 .f32 := k0_pay14 v4 (View.ld x1 (Rect.unit (s := S1x16x3x1024) ![0, 3, 0, 0] S1x1x3x1024.size inb_S1x16x3x1024_S1x1x3x1024_0_3_0_0)) (View.ld x2 (Rect.unit (s := S1x16x1024) ![0, 3, 0] S1x1x1024.size inb_S1x16x1024_S1x1x1024_0_3_0))
  have cst_42 : FVec F S16x1024 .f32 := constant S16x1024 .f32 0x00000000#32
  have v90 : FVec F S16x1 .f32 := k0_pay17 v4 v5 v7 v56 v67 cst_42 (View.ld x1 (Rect.unit (s := S1x16x3x1024) ![0, 4, 0, 0] S1x1x3x1024.size inb_S1x16x3x1024_S1x1x3x1024_0_4_0_0)) (View.ld x2 (Rect.unit (s := S1x16x1024) ![0, 4, 0] S1x1x1024.size inb_S1x16x1024_S1x1x1024_0_4_0))
  have v94 : FVec F S16x1 .f32 := k0_pay18 v4 v5 v7 v60 v67 cst_42 (View.ld x1 (Rect.unit (s := S1x16x3x1024) ![0, 4, 0, 0] S1x1x3x1024.size inb_S1x16x3x1024_S1x1x3x1024_0_4_0_0)) (View.ld x2 (Rect.unit (s := S1x16x1024) ![0, 4, 0] S1x1x1024.size inb_S1x16x1024_S1x1x1024_0_4_0))
  have v104 : FVec F S16x1024 .f32 := k0_pay19 v4 v5 v7 (View.ld x1 (Rect.unit (s := S1x16x3x1024) ![0, 5, 0, 0] S1x1x3x1024.size inb_S1x16x3x1024_S1x1x3x1024_0_5_0_0)) (View.ld x2 (Rect.unit (s := S1x16x1024) ![0, 5, 0] S1x1x1024.size inb_S1x16x1024_S1x1x1024_0_5_0))
  have v106 : FVec F S16x1 .f32 := k0_pay20 v4 v5 v7 (View.ld x1 (Rect.unit (s := S1x16x3x1024) ![0, 5, 0, 0] S1x1x3x1024.size inb_S1x16x3x1024_S1x1x3x1024_0_5_0_0)) (View.ld x2 (Rect.unit (s := S1x16x1024) ![0, 5, 0] S1x1x1024.size inb_S1x16x1024_S1x1x1024_0_5_0))
  have v141 : FVec F S16x1 .f32 := k0_pay23 v4 v5 v7 v90 v106 (View.ld x1 (Rect.unit (s := S1x16x3x1024) ![0, 6, 0, 0] S1x1x3x1024.size inb_S1x16x3x1024_S1x1x3x1024_0_6_0_0)) (View.ld x2 (Rect.unit (s := S1x16x1024) ![0, 6, 0] S1x1x1024.size inb_S1x16x1024_S1x1x1024_0_6_0)) (View.ld x1 (Rect.unit (s := S1x16x3x1024) ![0, 7, 0, 0] S1x1x3x1024.size inb_S1x16x3x1024_S1x1x3x1024_0_7_0_0)) (View.ld x2 (Rect.unit (s := S1x16x1024) ![0, 7, 0] S1x1x1024.size inb_S1x16x1024_S1x1x1024_0_7_0))
  have v145 : FVec F S16x1 .f32 := k0_pay24 v4 v5 v7 v94 v104 (View.ld x1 (Rect.unit (s := S1x16x3x1024) ![0, 6, 0, 0] S1x1x3x1024.size inb_S1x16x3x1024_S1x1x3x1024_0_6_0_0)) (View.ld x2 (Rect.unit (s := S1x16x1024) ![0, 6, 0] S1x1x1024.size inb_S1x16x1024_S1x1x1024_0_6_0)) (View.ld x1 (Rect.unit (s := S1x16x3x1024) ![0, 7, 0, 0] S1x1x3x1024.size inb_S1x16x3x1024_S1x1x3x1024_0_7_0_0)) (View.ld x2 (Rect.unit (s := S1x16x1024) ![0, 7, 0] S1x1x1024.size inb_S1x16x1024_S1x1x1024_0_7_0))
  have v175 : FVec F S16x1 .f32 := k0_pay27 v4 v5 v7 v141 (View.ld x1 (Rect.unit (s := S1x16x3x1024) ![0, 8, 0, 0] S1x1x3x1024.size inb_S1x16x3x1024_S1x1x3x1024_0_8_0_0)) (View.ld x2 (Rect.unit (s := S1x16x1024) ![0, 8, 0] S1x1x1024.size inb_S1x16x1024_S1x1x1024_0_8_0)) (View.ld x1 (Rect.unit (s := S1x16x3x1024) ![0, 9, 0, 0] S1x1x3x1024.size inb_S1x16x3x1024_S1x1x3x1024_0_9_0_0)) (View.ld x2 (Rect.unit (s := S1x16x1024) ![0, 9, 0] S1x1x1024.size inb_S1x16x1024_S1x1x1024_0_9_0))
  have v179 : FVec F S16x1 .f32 := k0_pay28 v4 v5 v7 v145 (View.ld x1 (Rect.unit (s := S1x16x3x1024) ![0, 8, 0, 0] S1x1x3x1024.size inb_S1x16x3x1024_S1x1x3x1024_0_8_0_0)) (View.ld x2 (Rect.unit (s := S1x16x1024) ![0, 8, 0] S1x1x1024.size inb_S1x16x1024_S1x1x1024_0_8_0)) (View.ld x1 (Rect.unit (s := S1x16x3x1024) ![0, 9, 0, 0] S1x1x3x1024.size inb_S1x16x3x1024_S1x1x3x1024_0_9_0_0)) (View.ld x2 (Rect.unit (s := S1x16x1024) ![0, 9, 0] S1x1x1024.size inb_S1x16x1024_S1x1x1024_0_9_0))
  have v181 : FVec F S3x1024 .f32 := k0_pay29 (View.ld x1 (Rect.unit (s := S1x16x3x1024) ![0, 10, 0, 0] S1x1x3x1024.size inb_S1x16x3x1024_S1x1x3x1024_0_10_0_0))
  have v209 : FVec F S16x1 .f32 := k0_pay32 v4 v5 v7 v175 v181 (View.ld x2 (Rect.unit (s := S1x16x1024) ![0, 10, 0] S1x1x1024.size inb_S1x16x1024_S1x1x1024_0_10_0)) (View.ld x1 (Rect.unit (s := S1x16x3x1024) ![0, 11, 0, 0] S1x1x3x1024.size inb_S1x16x3x1024_S1x1x3x1024_0_11_0_0)) (View.ld x2 (Rect.unit (s := S1x16x1024) ![0, 11, 0] S1x1x1024.size inb_S1x16x1024_S1x1x1024_0_11_0))
  have v213 : FVec F S16x1 .f32 := k0_pay33 v4 v5 v7 v179 v181 (View.ld x2 (Rect.unit (s := S1x16x1024) ![0, 10, 0] S1x1x1024.size inb_S1x16x1024_S1x1x1024_0_10_0)) (View.ld x1 (Rect.unit (s := S1x16x3x1024) ![0, 11, 0, 0] S1x1x3x1024.size inb_S1x16x3x1024_S1x1x3x1024_0_11_0_0)) (View.ld x2 (Rect.unit (s := S1x16x1024) ![0, 11, 0] S1x1x1024.size inb_S1x16x1024_S1x1x1024_0_11_0))
  have v215 : FVec F S3x1024 .f32 := k0_pay34 (View.ld x1 (Rect.unit (s := S1x16x3x1024) ![0, 12, 0, 0] S1x1x3x1024.size inb_S1x16x3x1024_S1x1x3x1024_0_12_0_0))
  have v217 : FVec F S1024 .f32 := k0_pay35 (View.ld x2 (Rect.unit (s := S1x16x1024) ![0, 12, 0] S1x1x1024.size inb_S1x16x1024_S1x1x1024_0_12_0))
  have v218 : FVec F S3x1024 .f32 := k0_pay36 v4 (View.ld x1 (Rect.unit (s := S1x16x3x1024) ![0, 12, 0, 0] S1x1x3x1024.size inb_S1x16x3x1024_S1x1x3x1024_0_12_0_0))
  have v243 : FVec F S16x1 .f32 := k0_pay39 v4 v5 v7 v209 v215 v217 v218 (View.ld x1 (Rect.unit (s := S1x16x3x1024) ![0, 13, 0, 0] S1x1x3x1024.size inb_S1x16x3x1024_S1x1x3x1024_0_13_0_0)) (View.ld x2 (Rect.unit (s := S1x16x1024) ![0, 13, 0] S1x1x1024.size inb_S1x16x1024_S1x1x1024_0_13_0))
  have v247 : FVec F S16x1 .f32 := k0_pay40 v4 v5 v7 v213 v215 v217 v218 (View.ld x1 (Rect.unit (s := S1x16x3x1024) ![0, 13, 0, 0] S1x1x3x1024.size inb_S1x16x3x1024_S1x1x3x1024_0_13_0_0)) (View.ld x2 (Rect.unit (s := S1x16x1024) ![0, 13, 0] S1x1x1024.size inb_S1x16x1024_S1x1x1024_0_13_0))
  have v257 : FVec F S16x1024 .f32 := k0_pay41 v4 v5 v7 (View.ld x1 (Rect.unit (s := S1x16x3x1024) ![0, 14, 0, 0] S1x1x3x1024.size inb_S1x16x3x1024_S1x1x3x1024_0_14_0_0)) (View.ld x2 (Rect.unit (s := S1x16x1024) ![0, 14, 0] S1x1x1024.size inb_S1x16x1024_S1x1x1024_0_14_0))
  k0_pay1 (k0_pay44 v4 v5 v7 v247 v257 (View.ld x1 (Rect.unit (s := S1x16x3x1024) ![0, 15, 0, 0] S1x1x3x1024.size inb_S1x16x3x1024_S1x1x3x1024_0_15_0_0)) (View.ld x2 (Rect.unit (s := S1x16x1024) ![0, 15, 0] S1x1x1024.size inb_S1x16x1024_S1x1x1024_0_15_0)) acc)

/-- A row's total over the 1024 points of the tile. -/
def laneSum (x : FVec Ideal S16x1024 .f32) (d : Fin 16) : EReal := ∑ l : Fin 1024, x (ix2 d l)
/-- A row's total of squares over the 1024 points of the tile. -/
def laneSq (x : FVec Ideal S16x1024 .f32) (d : Fin 16) : EReal := ∑ l : Fin 1024, x (ix2 d l) * x (ix2 d l)

/-- The lane reduction of a [16,1024] array, kept as a column [16,1], read at row d: the row's total. -/
theorem lane_apply (x : FVec Ideal S16x1024 .f32) (d : Fin 16) :
    shapeCast S16x1 (multiReduction (F := Ideal) .add [1] S16 x 0x00000000#32 reduces_S16x1024_S16 (.inl rfl) rfl) shapeCasts_S16_S16x1 (ix2 d 0)
      = laneSum x d := by
  rw [shapeCast_apply _ _ (ix2 d (0 : Fin 1)) (ix1 d) (by
    rw [Shape.rowMajor_val_one, Shape.rowMajor_val_two]
    show d.val = d.val * 1 + 0
    omega)]
  refine (Ideal.multiReduction_add_single x _ reduces_S16x1024_S16 _ _ (ix1 d)).trans ?_
  refine Finset.sum_congr rfl fun l _ => congrArg x ?_
  funext a
  match a with
  | ⟨0, _⟩ => exact Fin.ext rfl
  | ⟨1, _⟩ => exact Fin.ext rfl

theorem pay7_apply (v3 : Vec Ideal S1x3x1024 .f32) (v5 : Vec Ideal S16x10 .f32) (v6 : Vec Ideal S16x1 .f32) (v10 : Vec Ideal S1x1x3x1024 .f32) (v12 : Vec Ideal S1x1x1024 .f32) (d : Fin 16) :
    k0_pay7 v3 v5 v6 v10 v12 (ix2 d 0) = laneSum (k0_pay6 v3 v5 v6 v10 v12) d := by
  unfold k0_pay7
  refine (congrArg₂ (· + ·) Ideal.ofBits_zero_f32 (lane_apply _ d)).trans ?_
  exact zero_add _

theorem pay8_apply (v3 : Vec Ideal S1x3x1024 .f32) (v5 : Vec Ideal S16x10 .f32) (v6 : Vec Ideal S16x1 .f32) (v10 : Vec Ideal S1x1x3x1024 .f32) (v12 : Vec Ideal S1x1x1024 .f32) (d : Fin 16) :
    k0_pay8 v3 v5 v6 v10 v12 (ix2 d 0) = laneSq (k0_pay6 v3 v5 v6 v10 v12) d := by
  unfold k0_pay8
  refine (congrArg₂ (· + ·) Ideal.ofBits_zero_f32 (lane_apply _ d)).trans ?_
  exact zero_add _

theorem pay12_apply (v4 : FVec Ideal S3x1024 .f32) (v5 : Vec Ideal S16x10 .f32) (v7 : FVec Ideal S16x1 .f32) (a : FVec Ideal S16x1 .f32) (v28 : FVec Ideal S3x1024 .f32) (v29 : Vec Ideal S1x1x1024 .f32) (v44 : Vec Ideal S1x1x3x1024 .f32) (v46 : Vec Ideal S1x1x1024 .f32) (d : Fin 16) :
    k0_pay12 v4 v5 v7 a v28 v29 v44 v46 (ix2 d 0) = a (ix2 d 0) + laneSum (k0_pay10 v4 v5 v7 v28 v29) d + laneSum (k0_pay11 v4 v5 v7 v44 v46) d := by
  unfold k0_pay12
  exact (congrArg₂ (· + ·) (congrArg₂ (· + ·) rfl (lane_apply _ d)) (lane_apply _ d))

theorem pay13_apply (v4 : FVec Ideal S3x1024 .f32) (v5 : Vec Ideal S16x10 .f32) (v7 : FVec Ideal S16x1 .f32) (aq : FVec Ideal S16x1 .f32) (v28 : FVec Ideal S3x1024 .f32) (v29 : Vec Ideal S1x1x1024 .f32) (v44 : Vec Ideal S1x1x3x1024 .f32) (v46 : Vec Ideal S1x1x1024 .f32) (d : Fin 16) :
    k0_pay13 v4 v5 v7 aq v28 v29 v44 v46 (ix2 d 0) = aq (ix2 d 0) + laneSq (k0_pay10 v4 v5 v7 v28 v29) d + laneSq (k0_pay11 v4 v5 v7 v44 v46) d := by
  unfold k0_pay13
  exact (congrArg₂ (· + ·) (congrArg₂ (· + ·) rfl (lane_apply _ d)) (lane_apply _ d))

theorem pay17_apply (v4 : FVec Ideal S3x1024 .f32) (v5 : Vec Ideal S16x10 .f32) (v7 : FVec Ideal S16x1 .f32) (a : FVec Ideal S16x1 .f32) (v67 : FVec Ideal S10x1024 .f32) (cst_42 : FVec Ideal S16x1024 .f32) (v78 : Vec Ideal S1x1x3x1024 .f32) (v80 : Vec Ideal S1x1x1024 .f32) (d : Fin 16) :
    k0_pay17 v4 v5 v7 a v67 cst_42 v78 v80 (ix2 d 0) = a (ix2 d 0) + laneSum (k0_pay15 v5 v7 v67 cst_42) d + laneSum (k0_pay16 v4 v5 v7 v78 v80) d := by
  unfold k0_pay17
  exact (congrArg₂ (· + ·) (congrArg₂ (· + ·) rfl (lane_apply _ d)) (lane_apply _ d))

theorem pay18_apply (v4 : FVec Ideal S3x1024 .f32) (v5 : Vec Ideal S16x10 .f32) (v7 : FVec Ideal S16x1 .f32) (aq : FVec Ideal S16x1 .f32) (v67 : FVec Ideal S10x1024 .f32) (cst_42 : FVec Ideal S16x1024 .f32) (v78 : Vec Ideal S1x1x3x1024 .f32) (v80 : Vec Ideal S1x1x1024 .f32) (d : Fin 16) :
    k0_pay18 v4 v5 v7 aq v67 cst_42 v78 v80 (ix2 d 0) = aq (ix2 d 0) + laneSq (k0_pay15 v5 v7 v67 cst_42) d + laneSq (k0_pay16 v4 v5 v7 v78 v80) d := by
  unfold k0_pay18
  exact (congrArg₂ (· + ·) (congrArg₂ (· + ·) rfl (lane_apply _ d)) (lane_apply _ d))

theorem pay20_apply (v4 : FVec Ideal S3x1024 .f32) (v5 : Vec Ideal S16x10 .f32) (v7 : FVec Ideal S16x1 .f32) (v95 : Vec Ideal S1x1x3x1024 .f32) (v97 : Vec Ideal S1x1x1024 .f32) (d : Fin 16) :
    k0_pay20 v4 v5 v7 v95 v97 (ix2 d 0) = laneSum (k0_pay19 v4 v5 v7 v95 v97) d := by
  unfold k0_pay20
  exact lane_apply _ d

theorem pay23_apply (v4 : FVec Ideal S3x1024 .f32) (v5 : Vec Ideal S16x10 .f32) (v7 : FVec Ideal S16x1 .f32) (a : FVec Ideal S16x1 .f32) (v106 : FVec Ideal S16x1 .f32) (v112 : Vec Ideal S1x1x3x1024 .f32) (v114 : Vec Ideal S1x1x1024 .f32) (v129 : Vec Ideal S1x1x3x1024 .f32) (v131 : Vec Ideal S1x1x1024 .f32) (d : Fin 16) :
    k0_pay23 v4 v5 v7 a v106 v112 v114 v129 v131 (ix2 d 0) = a (ix2 d 0) + v106 (ix2 d 0) + laneSum (k0_pay21 v4 v5 v7 v112 v114) d + laneSum (k0_pay22 v4 v5 v7 v129 v131) d := by
  unfold k0_pay23
  exact (congrArg₂ (· + ·) (congrArg₂ (· + ·) (congrArg₂ (· + ·) rfl rfl) (lane_apply _ d)) (lane_apply _ d))

theorem pay24_apply (v4 : FVec Ideal S3x1024 .f32) (v5 : Vec Ideal S16x10 .f32) (v7 : FVec Ideal S16x1 .f32) (aq : FVec Ideal S16x1 .f32) (v104 : FVec Ideal S16x1024 .f32) (v112 : Vec Ideal S1x1x3x1024 .f32) (v114 : Vec Ideal S1x1x1024 .f32) (v129 : Vec Ideal S1x1x3x1024 .f32) (v131 : Vec Ideal S1x1x1024 .f32) (d : Fin 16) :
    k0_pay24 v4 v5 v7 aq v104 v112 v114 v129 v131 (ix2 d 0) = aq (ix2 d 0) + laneSq (v104) d + laneSq (k0_pay21 v4 v5 v7 v112 v114) d + laneSq (k0_pay22 v4 v5 v7 v129 v131) d := by
  unfold k0_pay24
  exact (congrArg₂ (· + ·) (congrArg₂ (· + ·) (congrArg₂ (· + ·) rfl (lane_apply _ d)) (lane_apply _ d)) (lane_apply _ d))

theorem pay27_apply (v4 : FVec Ideal S3x1024 .f32) (v5 : Vec Ideal S16x10 .f32) (v7 : FVec Ideal S16x1 .f32) (a : FVec Ideal S16x1 .f32) (v146 : Vec Ideal S1x1x3x1024 .f32) (v148 : Vec Ideal S1x1x1024 .f32) (v163 : Vec Ideal S1x1x3x1024 .f32) (v165 : Vec Ideal S1x1x1024 .f32) (d : Fin 16) :
    k0_pay27 v4 v5 v7 a v146 v148 v163 v165 (ix2 d 0) = a (ix2 d 0) + laneSum (k0_pay25 v4 v5 v7 v146 v148) d + laneSum (k0_pay26 v4 v5 v7 v163 v165) d := by
  unfold k0_pay27
  exact (congrArg₂ (· + ·) (congrArg₂ (· + ·) rfl (lane_apply _ d)) (lane_apply _ d))

theorem pay28_apply (v4 : FVec Ideal S3x1024 .f32) (v5 : Vec Ideal S16x10 .f32) (v7 : FVec Ideal S16x1 .f32) (aq : FVec Ideal S16x1 .f32) (v146 : Vec Ideal S1x1x3x1024 .f32) (v148 : Vec Ideal S1x1x1024 .f32) (v163 : Vec Ideal S1x1x3x1024 .f32) (v165 : Vec Ideal S1x1x1024 .f32) (d : Fin 16) :
    k0_pay28 v4 v5 v7 aq v146 v148 v163 v165 (ix2 d 0) = aq (ix2 d 0) + laneSq (k0_pay25 v4 v5 v7 v146 v148) d + laneSq (k0_pay26 v4 v5 v7 v163 v165) d := by
  unfold k0_pay28
  exact (congrArg₂ (· + ·) (congrArg₂ (· + ·) rfl (lane_apply _ d)) (lane_apply _ d))

theorem pay32_apply (v4 : FVec Ideal S3x1024 .f32) (v5 : Vec Ideal S16x10 .f32) (v7 : FVec Ideal S16x1 .f32) (a : FVec Ideal S16x1 .f32) (v181 : FVec Ideal S3x1024 .f32) (v182 : Vec Ideal S1x1x1024 .f32) (v197 : Vec Ideal S1x1x3x1024 .f32) (v199 : Vec Ideal S1x1x1024 .f32) (d : Fin 16) :
    k0_pay32 v4 v5 v7 a v181 v182 v197 v199 (ix2 d 0) = a (ix2 d 0) + laneSum (k0_pay30 v4 v5 v7 v181 v182) d + laneSum (k0_pay31 v4 v5 v7 v197 v199) d := by
  unfold k0_pay32
  exact (congrArg₂ (· + ·) (congrArg₂ (· + ·) rfl (lane_apply _ d)) (lane_apply _ d))

theorem pay33_apply (v4 : FVec Ideal S3x1024 .f32) (v5 : Vec Ideal S16x10 .f32) (v7 : FVec Ideal S16x1 .f32) (aq : FVec Ideal S16x1 .f32) (v181 : FVec Ideal S3x1024 .f32) (v182 : Vec Ideal S1x1x1024 .f32) (v197 : Vec Ideal S1x1x3x1024 .f32) (v199 : Vec Ideal S1x1x1024 .f32) (d : Fin 16) :
    k0_pay33 v4 v5 v7 aq v181 v182 v197 v199 (ix2 d 0) = aq (ix2 d 0) + laneSq (k0_pay30 v4 v5 v7 v181 v182) d + laneSq (k0_pay31 v4 v5 v7 v197 v199) d := by
  unfold k0_pay33
  exact (congrArg₂ (· + ·) (congrArg₂ (· + ·) rfl (lane_apply _ d)) (lane_apply _ d))

theorem pay39_apply (v4 : FVec Ideal S3x1024 .f32) (v5 : Vec Ideal S16x10 .f32) (v7 : FVec Ideal S16x1 .f32) (a : FVec Ideal S16x1 .f32) (v215 : FVec Ideal S3x1024 .f32) (v217 : FVec Ideal S1024 .f32) (v218 : FVec Ideal S3x1024 .f32) (v231 : Vec Ideal S1x1x3x1024 .f32) (v233 : Vec Ideal S1x1x1024 .f32) (d : Fin 16) :
    k0_pay39 v4 v5 v7 a v215 v217 v218 v231 v233 (ix2 d 0) = a (ix2 d 0) + laneSum (k0_pay37 v4 v5 v7 v215 v217 v218) d + laneSum (k0_pay38 v4 v5 v7 v231 v233) d := by
  unfold k0_pay39
  exact (congrArg₂ (· + ·) (congrArg₂ (· + ·) rfl (lane_apply _ d)) (lane_apply _ d))

theorem pay40_apply (v4 : FVec Ideal S3x1024 .f32) (v5 : Vec Ideal S16x10 .f32) (v7 : FVec Ideal S16x1 .f32) (aq : FVec Ideal S16x1 .f32) (v215 : FVec Ideal S3x1024 .f32) (v217 : FVec Ideal S1024 .f32) (v218 : FVec Ideal S3x1024 .f32) (v231 : Vec Ideal S1x1x3x1024 .f32) (v233 : Vec Ideal S1x1x1024 .f32) (d : Fin 16) :
    k0_pay40 v4 v5 v7 aq v215 v217 v218 v231 v233 (ix2 d 0) = aq (ix2 d 0) + laneSq (k0_pay37 v4 v5 v7 v215 v217 v218) d + laneSq (k0_pay38 v4 v5 v7 v231 v233) d := by
  unfold k0_pay40
  exact (congrArg₂ (· + ·) (congrArg₂ (· + ·) rfl (lane_apply _ d)) (lane_apply _ d))

theorem pay43_apply (v4 : FVec Ideal S3x1024 .f32) (v5 : Vec Ideal S16x10 .f32) (v7 : FVec Ideal S16x1 .f32) (a : FVec Ideal S16x1 .f32) (v257 : FVec Ideal S16x1024 .f32) (v265 : Vec Ideal S1x1x3x1024 .f32) (v267 : Vec Ideal S1x1x1024 .f32) (acc : Vec Ideal S1x16x1 .f32) (d : Fin 16) :
    k0_pay43 v4 v5 v7 a v257 v265 v267 acc (ix3 0 d 0)
      = acc (ix3 0 d 0) + (a (ix2 d 0) + laneSum v257 d + laneSum (k0_pay42 v4 v5 v7 v265 v267) d) := by
  unfold k0_pay43
  refine (shapeCast_ab_1ab_apply _ _ 0 d 0).trans ?_
  exact congrArg₂ (· + ·) (shapeCast_1ab_ab_apply acc _ d 0) (congrArg₂ (· + ·) (congrArg₂ (· + ·) rfl (lane_apply _ d)) (lane_apply _ d))

theorem pay44_apply (v4 : FVec Ideal S3x1024 .f32) (v5 : Vec Ideal S16x10 .f32) (v7 : FVec Ideal S16x1 .f32) (aq : FVec Ideal S16x1 .f32) (v257 : FVec Ideal S16x1024 .f32) (v265 : Vec Ideal S1x1x3x1024 .f32) (v267 : Vec Ideal S1x1x1024 .f32) (acc : Vec Ideal S1x16x1 .f32) (d : Fin 16) :
    k0_pay1 (k0_pay44 v4 v5 v7 aq v257 v265 v267 acc) (ix3 0 d 0)
      = acc (ix3 0 d 0) + (aq (ix2 d 0) + laneSq v257 d + laneSq (k0_pay42 v4 v5 v7 v265 v267) d) := by
  unfold k0_pay1
  refine (shapeCast_ab_1ab_apply _ _ 0 d 0).trans ?_
  unfold k0_pay44
  exact congrArg₂ (· + ·) (shapeCast_1ab_ab_apply acc _ d 0) (congrArg₂ (· + ·) (congrArg₂ (· + ·) rfl (lane_apply _ d)) (lane_apply _ d))

/-- Neighbour k's coordinates, loaded as a [1,1,3,1024] slice of the [1,16,3,1024] block. -/
theorem ld_nbr (x1 : Vec Ideal S1x16x3x1024 .f32) (k : Fin 16) (inb : ∀ a, (![0, k.val, 0, 0] : Fin 4 → Nat) a + S1x1x3x1024.size a ≤ S1x16x3x1024.size a) (c : Fin 3) (l : Fin 1024) :
    View.ld x1 (Rect.unit (s := S1x16x3x1024) ![0, k.val, 0, 0] S1x1x3x1024.size inb) (ix4 0 0 c l) = x1 (ix4 0 k c l) := by
  show x1 _ = x1 _
  refine congrArg x1 (funext fun a => Fin.ext ?_)
  match a with
  | ⟨0, _⟩ => rfl
  | ⟨1, _⟩ => show k.val + 1 * 0 = k.val; omega
  | ⟨2, _⟩ => show 0 + 1 * c.val = c.val; omega
  | ⟨3, _⟩ => show 0 + 1 * l.val = l.val; omega

/-- Neighbour k's distances, loaded as a [1,1,1024] slice of the [1,16,1024] block. -/
theorem ld_dist (x2 : Vec Ideal S1x16x1024 .f32) (k : Fin 16) (inb' : ∀ a, (![0, k.val, 0] : Fin 3 → Nat) a + S1x1x1024.size a ≤ S1x16x1024.size a) (l : Fin 1024) :
    View.ld x2 (Rect.unit (s := S1x16x1024) ![0, k.val, 0] S1x1x1024.size inb') (ix3 0 0 l) = x2 (ix3 0 k l) := by
  show x2 _ = x2 _
  refine congrArg x2 (funext fun a => Fin.ext ?_)
  match a with
  | ⟨0, _⟩ => rfl
  | ⟨1, _⟩ => show k.val + 1 * 0 = k.val; omega
  | ⟨2, _⟩ => show 0 + 1 * l.val = l.val; omega

/-- The chunk of neighbour k at (channel d, point l) is the specification's convolution of the tile's blocks. -/
theorem chunk_at (x0 : Vec Ideal S1x3x1024 .f32) (x1 : Vec Ideal S1x16x3x1024 .f32) (x2 : Vec Ideal S1x16x1024 .f32) (x3 : Vec Ideal S16x10 .f32) (x4 : Vec Ideal S16x1 .f32) (k : Fin 16) (inb : ∀ a, (![0, k.val, 0, 0] : Fin 4 → Nat) a + S1x1x3x1024.size a ≤ S1x16x3x1024.size a) (inb' : ∀ a, (![0, k.val, 0] : Fin 3 → Nat) a + S1x1x1024.size a ≤ S1x16x1024.size a) (d : Fin 16) (l : Fin 1024) :
    convTerm (k0_pay4 x0) x3 (k0_pay5 x4) (View.ld x1 (Rect.unit (s := S1x16x3x1024) ![0, k.val, 0, 0] S1x1x3x1024.size inb)) (View.ld x2 (Rect.unit (s := S1x16x1024) ![0, k.val, 0] S1x1x1024.size inb')) (ix2 d l) = convBlk x0 x1 x2 x3 x4 d k l := by
  rw [convTerm_apply]
  unfold convBlk
  have e4 : k0_pay5 x4 = x4 := shapeCast_self x4 _
  have e0 : (fun c : Fin 3 => k0_pay4 x0 (ix2 c l)) = fun c => x0 (ix3 0 c l) :=
    funext fun c => shapeCast_1ab_ab_apply x0 _ c l
  have e1 : (fun c : Fin 3 => View.ld x1 (Rect.unit (s := S1x16x3x1024) ![0, k.val, 0, 0] S1x1x3x1024.size inb) (ix4 0 0 c l)) = fun c => x1 (ix4 0 k c l) :=
    funext fun c => ld_nbr x1 k inb c l
  have e2 : View.ld x2 (Rect.unit (s := S1x16x1024) ![0, k.val, 0] S1x1x1024.size inb') (ix3 0 0 l) = x2 (ix3 0 k l) := ld_dist x2 k inb' l
  rw [e4, e0, e1, e2]

theorem chunk_sum (x0 : Vec Ideal S1x3x1024 .f32) (x1 : Vec Ideal S1x16x3x1024 .f32) (x2 : Vec Ideal S1x16x1024 .f32) (x3 : Vec Ideal S16x10 .f32) (x4 : Vec Ideal S16x1 .f32) (k : Fin 16) (inb : ∀ a, (![0, k.val, 0, 0] : Fin 4 → Nat) a + S1x1x3x1024.size a ≤ S1x16x3x1024.size a) (inb' : ∀ a, (![0, k.val, 0] : Fin 3 → Nat) a + S1x1x1024.size a ≤ S1x16x1024.size a) (d : Fin 16) :
    laneSum (convTerm (k0_pay4 x0) x3 (k0_pay5 x4) (View.ld x1 (Rect.unit (s := S1x16x3x1024) ![0, k.val, 0, 0] S1x1x3x1024.size inb)) (View.ld x2 (Rect.unit (s := S1x16x1024) ![0, k.val, 0] S1x1x1024.size inb'))) d = ∑ l : Fin 1024, convBlk x0 x1 x2 x3 x4 d k l :=
  Finset.sum_congr rfl fun l _ => chunk_at x0 x1 x2 x3 x4 k inb inb' d l

theorem chunk_sq (x0 : Vec Ideal S1x3x1024 .f32) (x1 : Vec Ideal S1x16x3x1024 .f32) (x2 : Vec Ideal S1x16x1024 .f32) (x3 : Vec Ideal S16x10 .f32) (x4 : Vec Ideal S16x1 .f32) (k : Fin 16) (inb : ∀ a, (![0, k.val, 0, 0] : Fin 4 → Nat) a + S1x1x3x1024.size a ≤ S1x16x3x1024.size a) (inb' : ∀ a, (![0, k.val, 0] : Fin 3 → Nat) a + S1x1x1024.size a ≤ S1x16x1024.size a) (d : Fin 16) :
    laneSq (convTerm (k0_pay4 x0) x3 (k0_pay5 x4) (View.ld x1 (Rect.unit (s := S1x16x3x1024) ![0, k.val, 0, 0] S1x1x3x1024.size inb)) (View.ld x2 (Rect.unit (s := S1x16x1024) ![0, k.val, 0] S1x1x1024.size inb'))) d
      = ∑ l : Fin 1024, convBlk x0 x1 x2 x3 x4 d k l * convBlk x0 x1 x2 x3 x4 d k l :=
  Finset.sum_congr rfl fun l _ => congrArg₂ (· * ·) (chunk_at x0 x1 x2 x3 x4 k inb inb' d l) (chunk_at x0 x1 x2 x3 x4 k inb inb' d l)

theorem sum16 (f : Fin 16 → EReal) : ∑ k : Fin 16, f k
    = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem rawSum_eq (x0 : Vec Ideal S1x3x1024 .f32) (x1 : Vec Ideal S1x16x3x1024 .f32) (x2 : Vec Ideal S1x16x1024 .f32) (x3 : Vec Ideal S16x10 .f32) (x4 : Vec Ideal S16x1 .f32) (acc : Vec Ideal S1x16x1 .f32) :
    rawSum (F := Ideal) x0 x1 x2 x3 x4 acc = fun j => acc j + tileSum x0 x1 x2 x3 x4 j := by
  funext j
  obtain ⟨u, d, z, rfl⟩ : ∃ (u : Fin 1) (d : Fin 16) (z : Fin 1), j = ix3 u d z := ⟨j 0, j 1, j 2, eq_ix3 j⟩
  obtain rfl : u = 0 := Subsingleton.elim _ _
  obtain rfl : z = 0 := Subsingleton.elim _ _
  unfold rawSum
  dsimp only
  rw [pay43_apply, pay39_apply, pay32_apply, pay27_apply, pay23_apply, pay20_apply, pay17_apply, pay12_apply, pay7_apply]
  refine congrArg (acc (ix3 0 d 0) + ·) ?_
  show _ = ∑ k : Fin 16, ∑ l : Fin 1024, convBlk x0 x1 x2 x3 x4 d k l
  rw [sum16]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (chunk_sum x0 x1 x2 x3 x4 0 _ _ d) (chunk_sum x0 x1 x2 x3 x4 1 _ _ d)) (chunk_sum x0 x1 x2 x3 x4 2 _ _ d)) (chunk_sum x0 x1 x2 x3 x4 3 _ _ d)) (chunk_sum x0 x1 x2 x3 x4 4 _ _ d)) (chunk_sum x0 x1 x2 x3 x4 5 _ _ d)) (chunk_sum x0 x1 x2 x3 x4 6 _ _ d)) (chunk_sum x0 x1 x2 x3 x4 7 _ _ d)) (chunk_sum x0 x1 x2 x3 x4 8 _ _ d)) (chunk_sum x0 x1 x2 x3 x4 9 _ _ d)) (chunk_sum x0 x1 x2 x3 x4 10 _ _ d)) (chunk_sum x0 x1 x2 x3 x4 11 _ _ d)) (chunk_sum x0 x1 x2 x3 x4 12 _ _ d)) (chunk_sum x0 x1 x2 x3 x4 13 _ _ d)) (chunk_sum x0 x1 x2 x3 x4 14 _ _ d)) (chunk_sum x0 x1 x2 x3 x4 15 _ _ d))

theorem rawSq_eq (x0 : Vec Ideal S1x3x1024 .f32) (x1 : Vec Ideal S1x16x3x1024 .f32) (x2 : Vec Ideal S1x16x1024 .f32) (x3 : Vec Ideal S16x10 .f32) (x4 : Vec Ideal S16x1 .f32) (acc : Vec Ideal S1x16x1 .f32) :
    rawSq (F := Ideal) x0 x1 x2 x3 x4 acc = fun j => acc j + tileSq x0 x1 x2 x3 x4 j := by
  funext j
  obtain ⟨u, d, z, rfl⟩ : ∃ (u : Fin 1) (d : Fin 16) (z : Fin 1), j = ix3 u d z := ⟨j 0, j 1, j 2, eq_ix3 j⟩
  obtain rfl : u = 0 := Subsingleton.elim _ _
  obtain rfl : z = 0 := Subsingleton.elim _ _
  unfold rawSq
  dsimp only
  rw [pay44_apply, pay40_apply, pay33_apply, pay28_apply, pay24_apply, pay18_apply, pay13_apply, pay8_apply]
  refine congrArg (acc (ix3 0 d 0) + ·) ?_
  show _ = ∑ k : Fin 16, ∑ l : Fin 1024, convBlk x0 x1 x2 x3 x4 d k l * convBlk x0 x1 x2 x3 x4 d k l
  rw [sum16]
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (chunk_sq x0 x1 x2 x3 x4 0 _ _ d) (chunk_sq x0 x1 x2 x3 x4 1 _ _ d)) (chunk_sq x0 x1 x2 x3 x4 2 _ _ d)) (chunk_sq x0 x1 x2 x3 x4 3 _ _ d)) (chunk_sq x0 x1 x2 x3 x4 4 _ _ d)) (chunk_sq x0 x1 x2 x3 x4 5 _ _ d)) (chunk_sq x0 x1 x2 x3 x4 6 _ _ d)) (chunk_sq x0 x1 x2 x3 x4 7 _ _ d)) (chunk_sq x0 x1 x2 x3 x4 8 _ _ d)) (chunk_sq x0 x1 x2 x3 x4 9 _ _ d)) (chunk_sq x0 x1 x2 x3 x4 10 _ _ d)) (chunk_sq x0 x1 x2 x3 x4 11 _ _ d)) (chunk_sq x0 x1 x2 x3 x4 12 _ _ d)) (chunk_sq x0 x1 x2 x3 x4 13 _ _ d)) (chunk_sq x0 x1 x2 x3 x4 14 _ _ d)) (chunk_sq x0 x1 x2 x3 x4 15 _ _ d))

end Cert.KernelIdeal.StatsPay

end
-- ==== Proof.StatsBody.lean ====
/-
  One grid point of the statistics kernel, read as values.

  The kernel visits a batch's 16 tiles of 1024 points in order and keeps two [1,16,1] accumulators, one per output:
  the per-channel sum of the convolution's values and the per-channel sum of their squares.  At a tile the body loads
  the centre coordinates, the weights, the bias and, neighbour by neighbour, the 16 neighbour-coordinate and distance
  rows; it folds the 16 neighbours' row sums into one [16,1] column, adds the column to the accumulator it reads back,
  and stores the result over the whole accumulator.  On the first tile of a batch the accumulators are first
  overwritten with zeros, so the value read back is the zero block.

  Each store covers the whole [1,16,1] block, so what an accumulator holds after the point is the payload of its
  last store, and every load reads a whole buffer or one neighbour's row of it.  That gives, for either case of the
  body's one conditional, the accumulator after the point as the body's arithmetic over the blocks' contents
  (`rawA5` … `rawB6`, for any float values); at the extended reals that arithmetic is "accumulator + the tile's
  sum" (resp. "+ the tile's sum of squares"), and with a zero accumulator it is the tile's sum itself.
-/
import proofs.«107703_j12592844112371_2_alg».proof.Proof.Gen.KernelIdeal.Frame
import proofs.«107703_j12592844112371_2_alg».proof.Proof.Spec
import proofs.«107703_j12592844112371_2_alg».proof.Proof.StatsPay
import Idealize.ShloMosaic.Lib.ValueIdx
import Idealize.ShloMosaic.Lib.Tactic
import Idealize.ShloMosaic.Lib.Pipeline.Value
import Idealize.ShloMosaic.PureOps.Ideal.Laws

set_option maxRecDepth 16384
noncomputable section
open scoped BigOperators
open Idealize.ShloMosaic Idealize.ShloMosaic.TcCoe Idealize.ShloMosaic.ValueIdx Idealize.SL.Sem Idealize.ShloMosaic.Tactic
open Idealize.ShloMosaic.Pipeline (Dat)

namespace Cert.KernelIdeal.StatsBody
open Cert.KernelIdeal Cert.KernelIdeal.Gen Cert.Spec

variable {F : FTy → Type} [FloatOps F]

/-- The offsets of a rank-3 whole-block rectangle are all zero. -/
theorem off3_zero : (![0, 0, 0] : Fin 3 → Nat) = fun _ => 0 := funext fun a => by fin_cases a <;> rfl
/-- The offsets of a rank-2 whole-block rectangle are all zero. -/
theorem off2_zero : (![0, 0] : Fin 2 → Nat) = fun _ => 0 := funext fun a => by fin_cases a <;> rfl

/-! ## The accumulators after one point, as the body's arithmetic (any float values) -/

set_option maxHeartbeats 1000000 in
/-- A later tile of a batch: the sum accumulator's one store covers its block, and its payload is the body's
    arithmetic over the five input blocks and the accumulator's contents before the point. -/
theorem rawB5 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec F S1x3x1024 .f32) (x1 : Vec F S1x16x3x1024 .f32) (x2 : Vec F S1x16x1024 .f32) (x3 : Vec F S16x10 .f32) (x4 : Vec F S16x1 .f32) (xo5 xo6 : Vec F S1x16x1 .f32) :
    out0_B_5 (F := F) c i arg2 harg2 arg3 harg3 arg4 harg4 arg5 harg5 arg6 harg6 arg7 harg7 arg8 harg8 hc0 x0 x1 x2 x3 x4 xo5 xo6 = StatsPay.rawSum x0 x1 x2 x3 x4 xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero off3_zero]
  simp only [View.readAt_eq_ld, harg2.read_unread, harg3.read_unread, harg4.read_unread, harg5.read_unread, harg6.read_unread, harg7.read_unread, harg8.read_unread, View.ld_unit_zero (S := S1x16x1) off3_zero, View.ld_unit_zero (S := S1x3x1024) off3_zero, View.ld_unit_zero (S := S16x10) off2_zero, View.ld_unit_zero (S := S16x1) off2_zero]
  rfl

set_option maxHeartbeats 1000000 in
/-- A later tile of a batch: the same for the accumulator of squares. -/
theorem rawB6 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec F S1x3x1024 .f32) (x1 : Vec F S1x16x3x1024 .f32) (x2 : Vec F S1x16x1024 .f32) (x3 : Vec F S16x10 .f32) (x4 : Vec F S16x1 .f32) (xo5 xo6 : Vec F S1x16x1 .f32) :
    out0_B_6 (F := F) c i arg2 harg2 arg3 harg3 arg4 harg4 arg5 harg5 arg6 harg6 arg7 harg7 arg8 harg8 hc0 x0 x1 x2 x3 x4 xo5 xo6 = StatsPay.rawSq x0 x1 x2 x3 x4 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero off3_zero]
  simp only [View.readAt_eq_ld, harg2.read_unread, harg3.read_unread, harg4.read_unread, harg5.read_unread, harg6.read_unread, harg7.read_unread, harg8.read_unread, View.ld_unit_zero (S := S1x16x1) off3_zero, View.ld_unit_zero (S := S1x3x1024) off3_zero, View.ld_unit_zero (S := S16x10) off2_zero, View.ld_unit_zero (S := S16x1) off2_zero]
  rfl

set_option maxHeartbeats 1000000 in
/-- The first tile of a batch: the last of the sum accumulator's two covering stores decides its contents, and the
    value that store's payload read back is what the first store left, the zero block. -/
theorem rawA5 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec F S1x3x1024 .f32) (x1 : Vec F S1x16x3x1024 .f32) (x2 : Vec F S1x16x1024 .f32) (x3 : Vec F S16x10 .f32) (x4 : Vec F S16x1 .f32) :
    out0_A_5 (F := F) c i arg2 harg2 arg3 harg3 arg4 harg4 arg5 harg5 arg6 harg6 arg7 harg7 arg8 harg8 hc0 x0 x1 x2 x3 x4 = StatsPay.rawSum x0 x1 x2 x3 x4 (k0_pay2 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x16x1) off3_zero, View.readCov_unit_zero (S := S1x16x1) _ off3_zero]
  simp only [View.readAt_eq_ld, harg2.read_unread, harg3.read_unread, harg4.read_unread, harg5.read_unread, harg6.read_unread, harg7.read_unread, harg8.read_unread, View.ld_unit_zero (S := S1x16x1) off3_zero, View.ld_unit_zero (S := S1x3x1024) off3_zero, View.ld_unit_zero (S := S16x10) off2_zero, View.ld_unit_zero (S := S16x1) off2_zero]
  rfl

set_option maxHeartbeats 1000000 in
/-- The first tile of a batch: the same for the accumulator of squares. -/
theorem rawA6 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec F S1x3x1024 .f32) (x1 : Vec F S1x16x3x1024 .f32) (x2 : Vec F S1x16x1024 .f32) (x3 : Vec F S16x10 .f32) (x4 : Vec F S16x1 .f32) :
    out0_A_6 (F := F) c i arg2 harg2 arg3 harg3 arg4 harg4 arg5 harg5 arg6 harg6 arg7 harg7 arg8 harg8 hc0 x0 x1 x2 x3 x4 = StatsPay.rawSq x0 x1 x2 x3 x4 (k0_pay3 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x16x1) off3_zero, View.readCov_unit_zero (S := S1x16x1) _ off3_zero]
  simp only [View.readAt_eq_ld, harg2.read_unread, harg3.read_unread, harg4.read_unread, harg5.read_unread, harg6.read_unread, harg7.read_unread, harg8.read_unread, View.ld_unit_zero (S := S1x16x1) off3_zero, View.ld_unit_zero (S := S1x3x1024) off3_zero, View.ld_unit_zero (S := S16x10) off2_zero, View.ld_unit_zero (S := S16x1) off2_zero]
  rfl

/-! ## At the extended reals: accumulator + the tile's sum (resp. sum of squares) -/

/-- The zero block stored into the sum accumulator reads 0 at every index. -/
theorem zero5_apply (j : S1x16x1.Idx) : (k0_pay2 (F := Ideal)) j = 0 := by
  show Ideal.ofBits .f32 0x00000000#32 = 0
  exact Ideal.ofBits_zero_f32

/-- The zero block stored into the accumulator of squares reads 0 at every index. -/
theorem zero6_apply (j : S1x16x1.Idx) : (k0_pay3 (F := Ideal)) j = 0 := by
  show Ideal.ofBits .f32 0x00000000#32 = 0
  exact Ideal.ofBits_zero_f32

/-- First tile of a batch: the sum accumulator ends at 0 + the tile's sum, the tile's sum. -/
theorem caseA_5 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec Ideal S1x3x1024 .f32) (x1 : Vec Ideal S1x16x3x1024 .f32) (x2 : Vec Ideal S1x16x1024 .f32) (x3 : Vec Ideal S16x10 .f32) (x4 : Vec Ideal S16x1 .f32) :
    out0_A_5 (F := Ideal) c i arg2 harg2 arg3 harg3 arg4 harg4 arg5 harg5 arg6 harg6 arg7 harg7 arg8 harg8 hc0 x0 x1 x2 x3 x4 = tileSum x0 x1 x2 x3 x4 :=
  (rawA5 (F := Ideal) c i arg2 harg2 arg3 harg3 arg4 harg4 arg5 harg5 arg6 harg6 arg7 harg7 arg8 harg8 hc0 x0 x1 x2 x3 x4).trans
    ((StatsPay.rawSum_eq x0 x1 x2 x3 x4 (k0_pay2 (F := Ideal))).trans
      (funext fun j => by rw [zero5_apply, zero_add]))

/-- First tile of a batch: the accumulator of squares ends at the tile's sum of squares. -/
theorem caseA_6 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec Ideal S1x3x1024 .f32) (x1 : Vec Ideal S1x16x3x1024 .f32) (x2 : Vec Ideal S1x16x1024 .f32) (x3 : Vec Ideal S16x10 .f32) (x4 : Vec Ideal S16x1 .f32) :
    out0_A_6 (F := Ideal) c i arg2 harg2 arg3 harg3 arg4 harg4 arg5 harg5 arg6 harg6 arg7 harg7 arg8 harg8 hc0 x0 x1 x2 x3 x4 = tileSq x0 x1 x2 x3 x4 :=
  (rawA6 (F := Ideal) c i arg2 harg2 arg3 harg3 arg4 harg4 arg5 harg5 arg6 harg6 arg7 harg7 arg8 harg8 hc0 x0 x1 x2 x3 x4).trans
    ((StatsPay.rawSq_eq x0 x1 x2 x3 x4 (k0_pay3 (F := Ideal))).trans
      (funext fun j => by rw [zero6_apply, zero_add]))

/-- A later tile: the sum accumulator ends at what it held plus the tile's sum. -/
theorem caseB_5 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec Ideal S1x3x1024 .f32) (x1 : Vec Ideal S1x16x3x1024 .f32) (x2 : Vec Ideal S1x16x1024 .f32) (x3 : Vec Ideal S16x10 .f32) (x4 : Vec Ideal S16x1 .f32) (xo5 xo6 : Vec Ideal S1x16x1 .f32) :
    out0_B_5 (F := Ideal) c i arg2 harg2 arg3 harg3 arg4 harg4 arg5 harg5 arg6 harg6 arg7 harg7 arg8 harg8 hc0 x0 x1 x2 x3 x4 xo5 xo6 = fun j => xo5 j + tileSum x0 x1 x2 x3 x4 j :=
  (rawB5 (F := Ideal) c i arg2 harg2 arg3 harg3 arg4 harg4 arg5 harg5 arg6 harg6 arg7 harg7 arg8 harg8 hc0 x0 x1 x2 x3 x4 xo5 xo6).trans (StatsPay.rawSum_eq x0 x1 x2 x3 x4 xo5)

/-- A later tile: the accumulator of squares ends at what it held plus the tile's sum of squares. -/
theorem caseB_6 (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec Ideal S1x3x1024 .f32) (x1 : Vec Ideal S1x16x3x1024 .f32) (x2 : Vec Ideal S1x16x1024 .f32) (x3 : Vec Ideal S16x10 .f32) (x4 : Vec Ideal S16x1 .f32) (xo5 xo6 : Vec Ideal S1x16x1 .f32) :
    out0_B_6 (F := Ideal) c i arg2 harg2 arg3 harg3 arg4 harg4 arg5 harg5 arg6 harg6 arg7 harg7 arg8 harg8 hc0 x0 x1 x2 x3 x4 xo5 xo6 = fun j => xo6 j + tileSq x0 x1 x2 x3 x4 j :=
  (rawB6 (F := Ideal) c i arg2 harg2 arg3 harg3 arg4 harg4 arg5 harg5 arg6 harg6 arg7 harg7 arg8 harg8 hc0 x0 x1 x2 x3 x4 xo5 xo6).trans (StatsPay.rawSq_eq x0 x1 x2 x3 x4 xo6)

end Cert.KernelIdeal.StatsBody

end
-- ==== Proof.StatsArr.lean ====
/-
  The first kernel's two result arrays, [4,16,1] each, after all 64 grid points.

  The grid is 4 batches by 16 tiles of 1024 points; grid point t = 16·b + nt works on tile nt of batch b and on row b of
  each result array, which it revisits across the batch's 16 tiles: at the tile that opens the batch the row is set to
  the tile's contribution, at every later tile the contribution is added, and after the batch's last tile (point
  16·b + 15) the row is written back.  So after point t the row holds the sum of the contributions of the tiles
  16·(t/16) … t (induction on the point), the written-back row is the sum over all 16 tiles, and — a tile's blocks being
  the arrays read at batch b, points 1024·nt + l — that is the convolution summed over the batch's 16384 points and
  their 16 neighbours, per channel: `sumArr` of the convolution (of its squares, for the second array).
-/
import proofs.«107703_j12592844112371_2_alg».proof.Proof.Gen.KernelIdeal.Frame
import proofs.«107703_j12592844112371_2_alg».proof.Proof.Spec
import Idealize.ShloMosaic.Lib.ValueIdx
import Idealize.ShloMosaic.Lib.Pipeline.Value

set_option maxRecDepth 16384
noncomputable section
open scoped BigOperators
open Idealize.ShloMosaic Idealize.ShloMosaic.TcCoe Idealize.ShloMosaic.ValueIdx Idealize.SL.Sem
open Idealize.ShloMosaic.Pipeline (Dat)

namespace Cert.KernelIdeal.StatsArr
open Cert.KernelIdeal Cert.KernelIdeal.Gen Cert.Spec

/-! ### What one grid point leaves in the two accumulators: the four hypotheses of this file's theorems -/

/-- At a tile that opens a batch the first accumulator is left at the tile's sum. -/
def CaseA5 : Prop := ∀ (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec Ideal S1x3x1024 .f32) (x1 : Vec Ideal S1x16x3x1024 .f32) (x2 : Vec Ideal S1x16x1024 .f32) (x3 : Vec Ideal S16x10 .f32) (x4 : Vec Ideal S16x1 .f32),
    out0_A_5 (F := Ideal) c i arg2 harg2 arg3 harg3 arg4 harg4 arg5 harg5 arg6 harg6 arg7 harg7 arg8 harg8 hc0 x0 x1 x2 x3 x4 = tileSum x0 x1 x2 x3 x4
/-- At a tile that opens a batch the second accumulator is left at the tile's sum of squares. -/
def CaseA6 : Prop := ∀ (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : cond0_0 i) (x0 : Vec Ideal S1x3x1024 .f32) (x1 : Vec Ideal S1x16x3x1024 .f32) (x2 : Vec Ideal S1x16x1024 .f32) (x3 : Vec Ideal S16x10 .f32) (x4 : Vec Ideal S16x1 .f32),
    out0_A_6 (F := Ideal) c i arg2 harg2 arg3 harg3 arg4 harg4 arg5 harg5 arg6 harg6 arg7 harg7 arg8 harg8 hc0 x0 x1 x2 x3 x4 = tileSq x0 x1 x2 x3 x4
/-- At any other tile the first accumulator gains the tile's sum. -/
def CaseB5 : Prop := ∀ (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec Ideal S1x3x1024 .f32) (x1 : Vec Ideal S1x16x3x1024 .f32) (x2 : Vec Ideal S1x16x1024 .f32) (x3 : Vec Ideal S16x10 .f32) (x4 : Vec Ideal S16x1 .f32) (xo5 xo6 : Vec Ideal S1x16x1 .f32),
    out0_B_5 (F := Ideal) c i arg2 harg2 arg3 harg3 arg4 harg4 arg5 harg5 arg6 harg6 arg7 harg7 arg8 harg8 hc0 x0 x1 x2 x3 x4 xo5 xo6 = fun j => xo5 j + tileSum x0 x1 x2 x3 x4 j
/-- At any other tile the second accumulator gains the tile's sum of squares. -/
def CaseB6 : Prop := ∀ (c : Dev nD) (i : grid0.Coords) (arg2 : Memref sig .tc .vmem S1x3x1024 .f32) (harg2 : arg2.IsWhole) (arg3 : Memref sig .tc .vmem S1x16x3x1024 .f32) (harg3 : arg3.IsWhole) (arg4 : Memref sig .tc .vmem S1x16x1024 .f32) (harg4 : arg4.IsWhole) (arg5 : Memref sig .tc .vmem S16x10 .f32) (harg5 : arg5.IsWhole) (arg6 : Memref sig .tc .vmem S16x1 .f32) (harg6 : arg6.IsWhole) (arg7 : Memref sig .tc .vmem S1x16x1 .f32) (harg7 : arg7.IsWhole) (arg8 : Memref sig .tc .vmem S1x16x1 .f32) (harg8 : arg8.IsWhole) (hc0 : ¬cond0_0 i) (x0 : Vec Ideal S1x3x1024 .f32) (x1 : Vec Ideal S1x16x3x1024 .f32) (x2 : Vec Ideal S1x16x1024 .f32) (x3 : Vec Ideal S16x10 .f32) (x4 : Vec Ideal S16x1 .f32) (xo5 xo6 : Vec Ideal S1x16x1 .f32),
    out0_B_6 (F := Ideal) c i arg2 harg2 arg3 harg3 arg4 harg4 arg5 harg5 arg6 harg6 arg7 harg7 arg8 harg8 hc0 x0 x1 x2 x3 x4 xo5 xo6 = fun j => xo6 j + tileSq x0 x1 x2 x3 x4 j

section Acc
variable (V : (c : Dev nD) → (b : Ref sig .tc) → Buf (Elt Ideal) ((c : Thread nD τ).loc b)) (c : Dev nD)

/-- The tile at grid point `n`: its contribution to each channel's total (zero past the grid). -/
def tSum (n : ℕ) : Vec Ideal S1x16x1 .f32 :=
  if h : n < cfg0.N then
    tileSum (iblk0 V c 0 ⟨n, h⟩) (iblk0 V c 1 ⟨n, h⟩) (iblk0 V c 2 ⟨n, h⟩) (iblk0 V c 3 ⟨n, h⟩) (iblk0 V c 4 ⟨n, h⟩)
  else fun _ => 0

/-- The tile at grid point `n`: its contribution to each channel's total of squares (zero past the grid). -/
def tSq (n : ℕ) : Vec Ideal S1x16x1 .f32 :=
  if h : n < cfg0.N then
    tileSq (iblk0 V c 0 ⟨n, h⟩) (iblk0 V c 1 ⟨n, h⟩) (iblk0 V c 2 ⟨n, h⟩) (iblk0 V c 3 ⟨n, h⟩) (iblk0 V c 4 ⟨n, h⟩)
  else fun _ => 0

/-- After grid point `n` the accumulators hold the sums of the contributions of the tiles of `n`'s batch up to `n`. -/
theorem outsAt_eq (hA5 : CaseA5) (hA6 : CaseA6) (hB5 : CaseB5) (hB6 : CaseB6) :
    ∀ (n : ℕ) (h : n < cfg0.N),
      (outsAt0 V c n h).1 = (fun j => ∑ s ∈ Finset.range (n % 16 + 1), tSum V c (16 * (n / 16) + s) j)
      ∧ (outsAt0 V c n h).2 = (fun j => ∑ s ∈ Finset.range (n % 16 + 1), tSq V c (16 * (n / 16) + s) j) := by
  intro n
  induction n with
  | zero =>
    intro h
    rw [outsAt0_A V c ⟨0, h⟩ rfl]
    dsimp only
    rw [hA5, hA6]
    constructor <;> (funext j; simp [tSum, tSq, h])
  | succ n ih =>
    intro h
    by_cases h0 : (n + 1) % 16 = 0
    · rw [outsAt0_A V c ⟨n + 1, h⟩ h0]
      dsimp only
      rw [hA5, hA6]
      have e : 16 * ((n + 1) / 16) = n + 1 := by omega
      constructor <;> (funext j; simp only [h0, e, zero_add, Finset.sum_range_one, add_zero]; simp [tSum, tSq, h])
    · rw [outsAt0_B V c ⟨n + 1, h⟩ h0]
      dsimp only
      rw [hB5, hB6]
      obtain ⟨ih1, ih2⟩ := ih (Nat.lt_of_succ_lt h)
      have e1 : (n + 1) % 16 = n % 16 + 1 := by omega
      have e2 : (n + 1) / 16 = n / 16 := by omega
      have e3 : 16 * (n / 16) + (n % 16 + 1) = n + 1 := by omega
      constructor
      · funext j
        show (outsAt0 V c n _).1 j + _ = _
        rw [ih1, e1, e2, Finset.sum_range_succ _ (n % 16 + 1), e3]
        simp [tSum, h]
      · funext j
        show (outsAt0 V c n _).2 j + _ = _
        rw [ih2, e1, e2, Finset.sum_range_succ _ (n % 16 + 1), e3]
        simp [tSq, h]
end Acc

/-! ### The blocks of a grid point, read in the arrays -/

/-- The printed index maps over the grid: the batch is the point's quotient by 16, the tile its remainder. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 4) = t.val / 16 ∧ win0_1.index t (1 : Fin 4) = 0 ∧ win0_1.index t (2 : Fin 4) = 0 ∧ win0_1.index t (3 : Fin 4) = t.val % 16
    ∧ win0_2.index t (0 : Fin 3) = t.val / 16 ∧ win0_2.index t (1 : Fin 3) = 0 ∧ win0_2.index t (2 : Fin 3) = t.val % 16
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = 0 :=
  (by decide +kernel : ∀ t : Fin grid0.N, _)

theorem N64 : cfg0.N = 64 := N_0

section Blocks
variable (V : (c : Dev nD) → (b : Ref sig .tc) → Buf (Elt Ideal) ((c : Thread nD τ).loc b)) (c : Dev nD)

/-- The batch of a grid point. -/
def bOf (t : Fin cfg0.N) : Fin 4 := ⟨t.val / 16, by have := lt_of_lt_of_eq t.isLt N64; omega⟩
/-- Point `l` of the tile of a grid point, among the batch's points. -/
def nOf (t : Fin cfg0.N) (l : Fin 1024) : Fin 16384 := ⟨(t.val % 16) * 1024 + l.val, by have := l.isLt; omega⟩

theorem blk0_read (t : Fin cfg0.N) (a : Fin 3) (l : Fin 1024) :
    (iblk0 V c 0 t : Vec Ideal S1x3x1024 .f32) (ix3 0 a l) = V c main_v8 (ix3 (bOf t) a (nOf t l)) := by
  obtain ⟨e0, e1, e2, -⟩ := idx_facts t
  show V c main_v8 (((cfg0.win 0).blk t).view.emb (ix3 0 a l)) = _
  congr 1
  funext x; apply Fin.ext
  match x with
  | ⟨0, _⟩ => show win0_0.index t (0 : Fin 3) * 1 + 1 * 0 = t.val / 16; omega
  | ⟨1, _⟩ => show win0_0.index t (1 : Fin 3) * 3 + 1 * a.val = a.val; omega
  | ⟨2, _⟩ => show win0_0.index t (2 : Fin 3) * 1024 + 1 * l.val = (t.val % 16) * 1024 + l.val; omega
end Blocks

section Blocks2
variable (V : (c : Dev nD) → (b : Ref sig .tc) → Buf (Elt Ideal) ((c : Thread nD τ).loc b)) (c : Dev nD)

theorem blk1_read (t : Fin cfg0.N) (k : Fin 16) (a : Fin 3) (l : Fin 1024) :
    (iblk0 V c 1 t : Vec Ideal S1x16x3x1024 .f32) (ix4 0 k a l) = V c main_v7 (ix4 (bOf t) k a (nOf t l)) := by
  obtain ⟨-, -, -, e0, e1, e2, e3, -⟩ := idx_facts t
  show V c main_v7 (((cfg0.win 1).blk t).view.emb (ix4 0 k a l)) = _
  congr 1
  funext x; apply Fin.ext
  match x with
  | ⟨0, _⟩ => show win0_1.index t (0 : Fin 4) * 1 + 1 * 0 = t.val / 16; omega
  | ⟨1, _⟩ => show win0_1.index t (1 : Fin 4) * 16 + 1 * k.val = k.val; omega
  | ⟨2, _⟩ => show win0_1.index t (2 : Fin 4) * 3 + 1 * a.val = a.val; omega
  | ⟨3, _⟩ => show win0_1.index t (3 : Fin 4) * 1024 + 1 * l.val = (t.val % 16) * 1024 + l.val; omega

theorem blk2_read (t : Fin cfg0.N) (k : Fin 16) (l : Fin 1024) :
    (iblk0 V c 2 t : Vec Ideal S1x16x1024 .f32) (ix3 0 k l) = V c main_v9 (ix3 (bOf t) k (nOf t l)) := by
  obtain ⟨-, -, -, -, -, -, -, e0, e1, e2, -⟩ := idx_facts t
  show V c main_v9 (((cfg0.win 2).blk t).view.emb (ix3 0 k l)) = _
  congr 1
  funext x; apply Fin.ext
  match x with
  | ⟨0, _⟩ => show win0_2.index t (0 : Fin 3) * 1 + 1 * 0 = t.val / 16; omega
  | ⟨1, _⟩ => show win0_2.index t (1 : Fin 3) * 16 + 1 * k.val = k.val; omega
  | ⟨2, _⟩ => show win0_2.index t (2 : Fin 3) * 1024 + 1 * l.val = (t.val % 16) * 1024 + l.val; omega

theorem blk3_read (t : Fin cfg0.N) (d : Fin 16) (a : Fin 10) :
    (iblk0 V c 3 t : Vec Ideal S16x10 .f32) (ix2 d a) = V c main_arg4 (ix2 d a) := by
  obtain ⟨-, -, -, -, -, -, -, -, -, -, e0, e1, -⟩ := idx_facts t
  show V c main_arg4 (((cfg0.win 3).blk t).view.emb (ix2 d a)) = _
  congr 1
  funext x; apply Fin.ext
  match x with
  | ⟨0, _⟩ => show win0_3.index t (0 : Fin 2) * 16 + 1 * d.val = d.val; omega
  | ⟨1, _⟩ => show win0_3.index t (1 : Fin 2) * 10 + 1 * a.val = a.val; omega

theorem blk4_read (t : Fin cfg0.N) (d : Fin 16) (z : Fin 1) :
    (iblk0 V c 4 t : Vec Ideal S16x1 .f32) (ix2 d z) = V c main_v11 (ix2 d z) := by
  obtain ⟨-, -, -, -, -, -, -, -, -, -, -, -, e0, e1, -⟩ := idx_facts t
  show V c main_v11 (((cfg0.win 4).blk t).view.emb (ix2 d z)) = _
  congr 1
  funext x; apply Fin.ext
  match x with
  | ⟨0, _⟩ => show win0_4.index t (0 : Fin 2) * 16 + 1 * d.val = d.val; omega
  | ⟨1, _⟩ => show win0_4.index t (1 : Fin 2) * 1 + 1 * z.val = z.val; omega

/-- The convolution inside the tile of a grid point is the convolution of the whole arrays at the batch's point. -/
theorem convBlk_blocks (t : Fin cfg0.N) (d k : Fin 16) (l : Fin 1024) :
    convBlk (iblk0 V c 0 t) (iblk0 V c 1 t) (iblk0 V c 2 t) (iblk0 V c 3 t) (iblk0 V c 4 t) d k l
      = Xcm (V c main_v8) (V c main_v7) (V c main_v9) (V c main_arg4) (V c main_v11) (bOf t) d (nOf t l) k := by
  unfold convBlk Xcm
  simp only [blk0_read, blk1_read, blk2_read, blk3_read, blk4_read]
end Blocks2

/-! ### The accumulators at the last tile of a batch, the write-backs, and the two result arrays -/

section Arrays
variable (V : (c : Dev nD) → (b : Ref sig .tc) → Buf (Elt Ideal) ((c : Thread nD τ).loc b)) (c : Dev nD)

/-- The convolution over the whole arrays, as the grid's entry contents give it. -/
abbrev Y : Fin 4 → Fin 16 → Fin 16384 → Fin 16 → EReal :=
  Xcm (V c main_v8) (V c main_v7) (V c main_v9) (V c main_arg4) (V c main_v11)

/-- Tile `nt` of batch `b` contributes, to channel `d`, the convolution summed over its points and their neighbours. -/
theorem tSum_eq (b : Fin 4) (nt : Fin 16) (z : Fin 1) (d : Fin 16) (z' : Fin 1) :
    tSum V c (16 * b.val + nt.val) (ix3 z d z')
      = ∑ k : Fin 16, ∑ l : Fin 1024, Y V c b d ⟨nt.val * 1024 + l.val, by omega⟩ k := by
  have h : 16 * b.val + nt.val < cfg0.N := by rw [N64]; omega
  unfold tSum
  rw [dif_pos h]
  show ∑ k : Fin 16, ∑ l : Fin 1024, convBlk (iblk0 V c 0 ⟨_, h⟩) (iblk0 V c 1 ⟨_, h⟩) (iblk0 V c 2 ⟨_, h⟩) (iblk0 V c 3 ⟨_, h⟩) (iblk0 V c 4 ⟨_, h⟩) d k l = _
  refine Finset.sum_congr rfl fun k _ => Finset.sum_congr rfl fun l _ => ?_
  rw [convBlk_blocks]
  have eb : bOf ⟨16 * b.val + nt.val, h⟩ = b := Fin.ext (by show (16 * b.val + nt.val) / 16 = b.val; omega)
  have en : nOf ⟨16 * b.val + nt.val, h⟩ l = ⟨nt.val * 1024 + l.val, by omega⟩ :=
    Fin.ext (by show (16 * b.val + nt.val) % 16 * 1024 + l.val = nt.val * 1024 + l.val; have : (16 * b.val + nt.val) % 16 = nt.val := by omega
                rw [this])
  rw [eb, en]

theorem tSq_eq (b : Fin 4) (nt : Fin 16) (z : Fin 1) (d : Fin 16) (z' : Fin 1) :
    tSq V c (16 * b.val + nt.val) (ix3 z d z')
      = ∑ k : Fin 16, ∑ l : Fin 1024, Y V c b d ⟨nt.val * 1024 + l.val, by omega⟩ k * Y V c b d ⟨nt.val * 1024 + l.val, by omega⟩ k := by
  have h : 16 * b.val + nt.val < cfg0.N := by rw [N64]; omega
  unfold tSq
  rw [dif_pos h]
  show ∑ k : Fin 16, ∑ l : Fin 1024, convBlk (iblk0 V c 0 ⟨_, h⟩) (iblk0 V c 1 ⟨_, h⟩) (iblk0 V c 2 ⟨_, h⟩) (iblk0 V c 3 ⟨_, h⟩) (iblk0 V c 4 ⟨_, h⟩) d k l
      * convBlk (iblk0 V c 0 ⟨_, h⟩) (iblk0 V c 1 ⟨_, h⟩) (iblk0 V c 2 ⟨_, h⟩) (iblk0 V c 3 ⟨_, h⟩) (iblk0 V c 4 ⟨_, h⟩) d k l = _
  refine Finset.sum_congr rfl fun k _ => Finset.sum_congr rfl fun l _ => ?_
  rw [convBlk_blocks]
  have eb : bOf ⟨16 * b.val + nt.val, h⟩ = b := Fin.ext (by show (16 * b.val + nt.val) / 16 = b.val; omega)
  have en : nOf ⟨16 * b.val + nt.val, h⟩ l = ⟨nt.val * 1024 + l.val, by omega⟩ :=
    Fin.ext (by show (16 * b.val + nt.val) % 16 * 1024 + l.val = nt.val * 1024 + l.val; have : (16 * b.val + nt.val) % 16 = nt.val := by omega
                rw [this])
  rw [eb, en]

/-- A block of either result array sits in it at the batch's row. -/
theorem emb5 (t : Fin cfg0.N) (z : Fin 1) (d : Fin 16) (z' : Fin 1) :
    ((cfg0.win 5).blk t).view.emb (ix3 z d z') = ix3 (bOf t) d (0 : Fin 1) := by
  obtain ⟨-, -, -, -, -, -, -, -, -, -, -, -, -, -, e0, e1, e2, -⟩ := idx_facts t
  funext x; apply Fin.ext
  have hz := z.isLt
  have hz' := z'.isLt
  match x with
  | ⟨0, _⟩ => show win0_5.index t (0 : Fin 3) * 1 + 1 * z.val = t.val / 16; omega
  | ⟨1, _⟩ => show win0_5.index t (1 : Fin 3) * 16 + 1 * d.val = d.val; omega
  | ⟨2, _⟩ => show win0_5.index t (2 : Fin 3) * 1 + 1 * z'.val = 0; omega

theorem emb6 (t : Fin cfg0.N) (z : Fin 1) (d : Fin 16) (z' : Fin 1) :
    ((cfg0.win 6).blk t).view.emb (ix3 z d z') = ix3 (bOf t) d (0 : Fin 1) := by
  obtain ⟨-, -, -, -, -, -, -, -, -, -, -, -, -, -, -, -, -, e0, e1, e2⟩ := idx_facts t
  funext x; apply Fin.ext
  have hz := z.isLt
  have hz' := z'.isLt
  match x with
  | ⟨0, _⟩ => show win0_6.index t (0 : Fin 3) * 1 + 1 * z.val = t.val / 16; omega
  | ⟨1, _⟩ => show win0_6.index t (1 : Fin 3) * 16 + 1 * d.val = d.val; omega
  | ⟨2, _⟩ => show win0_6.index t (2 : Fin 3) * 1 + 1 * z'.val = 0; omega

/-- What the last tile of a batch writes back to the first result array is the batch's row of the totals. -/
theorem flushed5_eq (hA5 : CaseA5) (hA6 : CaseA6) (hB5 : CaseB5) (hB6 : CaseB6) (t : Fin cfg0.N) (hf : (cfg0.win 5).flush t = true) :
    (dat0 (F := Ideal) V c).flushed 5 t = ((cfg0.win 5).blk t).view.read (Elt Ideal) (sumArr (Y V c)) := by
  have h15 : t.val % 16 = 15 := (flush0_5 t).mp hf
  show (cfg0.win 5).cut (grid0.coords t) ((dat0 (F := Ideal) V c).after 5 t) = _
  rw [after0_5, (outsAt_eq V c hA5 hA6 hB5 hB6 t.val t.isLt).1]
  funext y
  obtain ⟨z, d, z', rfl⟩ : ∃ (z : Fin 1) (d : Fin 16) (z' : Fin 1), y = ix3 z d z' := ⟨y 0, y 1, y 2, eq_ix3 y⟩
  show ∑ s ∈ Finset.range (t.val % 16 + 1), tSum V c (16 * (t.val / 16) + s) (ix3 z d z')
    = sumArr (Y V c) (((cfg0.win 5).blk t).view.emb (ix3 z d z'))
  rw [emb5, h15]
  show _ = ∑ nt : Fin 16, ∑ k : Fin 16, ∑ l : Fin 1024, Y V c (bOf t) d ⟨nt.val * 1024 + l.val, by omega⟩ k
  rw [Finset.sum_range]
  exact Finset.sum_congr rfl fun nt _ => tSum_eq V c (bOf t) nt z d z'

theorem flushed6_eq (hA5 : CaseA5) (hA6 : CaseA6) (hB5 : CaseB5) (hB6 : CaseB6) (t : Fin cfg0.N) (hf : (cfg0.win 6).flush t = true) :
    (dat0 (F := Ideal) V c).flushed 6 t
      = ((cfg0.win 6).blk t).view.read (Elt Ideal) (sumArr (fun b d n k => Y V c b d n k * Y V c b d n k)) := by
  have h15 : t.val % 16 = 15 := (flush0_6 t).mp hf
  show (cfg0.win 6).cut (grid0.coords t) ((dat0 (F := Ideal) V c).after 6 t) = _
  rw [after0_6, (outsAt_eq V c hA5 hA6 hB5 hB6 t.val t.isLt).2]
  funext y
  obtain ⟨z, d, z', rfl⟩ : ∃ (z : Fin 1) (d : Fin 16) (z' : Fin 1), y = ix3 z d z' := ⟨y 0, y 1, y 2, eq_ix3 y⟩
  show ∑ s ∈ Finset.range (t.val % 16 + 1), tSq V c (16 * (t.val / 16) + s) (ix3 z d z')
    = sumArr (fun b d n k => Y V c b d n k * Y V c b d n k) (((cfg0.win 6).blk t).view.emb (ix3 z d z'))
  rw [emb6, h15]
  show _ = ∑ nt : Fin 16, ∑ k : Fin 16, ∑ l : Fin 1024,
      Y V c (bOf t) d ⟨nt.val * 1024 + l.val, by omega⟩ k * Y V c (bOf t) d ⟨nt.val * 1024 + l.val, by omega⟩ k
  rw [Finset.sum_range]
  exact Finset.sum_congr rfl fun nt _ => tSq_eq V c (bOf t) nt z d z'

/-- An entry of a result array lies in a point's block iff each coordinate is in the block's range on its axis. -/
theorem mem_blk5 (t : Fin cfg0.N) (i : S4x16x1.Idx) :
    i ∈ ((cfg0.win 5).blk t).view.set ↔ ∀ a : Fin 3, win0_5.index t a * S1x16x1.size a ≤ (i a).val ∧ (i a).val < win0_5.index t a * S1x16x1.size a + S1x16x1.size a := by
  show i ∈ ((View.whole main_v14_0).slice (win0_5.rect t)).set ↔ _
  rw [View.set_slice_whole, Rect.mem_set_unit]
  exact Iff.rfl

theorem mem_blk6 (t : Fin cfg0.N) (i : S4x16x1.Idx) :
    i ∈ ((cfg0.win 6).blk t).view.set ↔ ∀ a : Fin 3, win0_6.index t a * S1x16x1.size a ≤ (i a).val ∧ (i a).val < win0_6.index t a * S1x16x1.size a + S1x16x1.size a := by
  show i ∈ ((View.whole main_v14_1).slice (win0_6.rect t)).set ↔ _
  rw [View.set_slice_whole, Rect.mem_set_unit]
  exact Iff.rfl

/-- Row `b` of a result array is written back by the last tile of batch `b`, grid point 16 b + 15. -/
theorem cover5 (i : S4x16x1.Idx) : ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 1 := (i 2).isLt
  have ht : 16 * (i 0).val + 15 < cfg0.N := by rw [N64]; omega
  refine ⟨⟨16 * (i 0).val + 15, ht⟩, (flush0_5 _).mpr (by show (16 * (i 0).val + 15) % 16 = 15; omega), ?_⟩
  rw [mem_blk5]
  obtain ⟨-, -, -, -, -, -, -, -, -, -, -, -, -, -, e0, e1, e2, -⟩ := idx_facts ⟨16 * (i 0).val + 15, ht⟩
  have e0' : win0_5.index ⟨16 * (i 0).val + 15, ht⟩ (0 : Fin 3) = (i 0).val := by rw [e0]; show (16 * (i 0).val + 15) / 16 = _; omega
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 16 ≤ (i 1).val ∧ (i 1).val < win0_5.index _ (1 : Fin 3) * 16 + 16; omega
  | ⟨2, _⟩ => show win0_5.index _ (2 : Fin 3) * 1 ≤ (i 2).val ∧ (i 2).val < win0_5.index _ (2 : Fin 3) * 1 + 1; omega

theorem cover6 (i : S4x16x1.Idx) : ∃ t : Fin cfg0.N, (cfg0.win 6).flush t = true ∧ i ∈ ((cfg0.win 6).blk t).view.set := by
  have h0 : (i 0).val < 4 := (i 0).isLt
  have h1 : (i 1).val < 16 := (i 1).isLt
  have h2 : (i 2).val < 1 := (i 2).isLt
  have ht : 16 * (i 0).val + 15 < cfg0.N := by rw [N64]; omega
  refine ⟨⟨16 * (i 0).val + 15, ht⟩, (flush0_6 _).mpr (by show (16 * (i 0).val + 15) % 16 = 15; omega), ?_⟩
  rw [mem_blk6]
  obtain ⟨-, -, -, -, -, -, -, -, -, -, -, -, -, -, -, -, -, e0, e1, e2⟩ := idx_facts ⟨16 * (i 0).val + 15, ht⟩
  have e0' : win0_6.index ⟨16 * (i 0).val + 15, ht⟩ (0 : Fin 3) = (i 0).val := by rw [e0]; show (16 * (i 0).val + 15) / 16 = _; omega
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 16 ≤ (i 1).val ∧ (i 1).val < win0_6.index _ (1 : Fin 3) * 16 + 16; omega
  | ⟨2, _⟩ => show win0_6.index _ (2 : Fin 3) * 1 ≤ (i 2).val ∧ (i 2).val < win0_6.index _ (2 : Fin 3) * 1 + 1; omega

end Arrays

/-- The first result array after all 64 grid points: per batch and channel, the convolution's total. -/
theorem stats_sum (hA5 : CaseA5) (hA6 : CaseA6) (hB5 : CaseB5) (hB6 : CaseB6)
    (V : (c : Dev nD) → (b : Ref sig .tc) → Buf (Elt Ideal) ((c : Thread nD τ).loc b)) (c : Dev nD) :
    (dat0 (F := Ideal) V c).arrAt 5 cfg0.N = sumArr (Cert.Spec.Xcm (V c main_v8) (V c main_v7) (V c main_v9) (V c main_arg4) (V c main_v11)) :=
  (dat0 (F := Ideal) V c).arrAt_eq_of_cover 5 (sumArr (Y V c)) (flushed5_eq V c hA5 hA6 hB5 hB6) (cover5)

/-- The second result array after all 64 grid points: per batch and channel, the total of the convolution's squares. -/
theorem stats_sq (hA5 : CaseA5) (hA6 : CaseA6) (hB5 : CaseB5) (hB6 : CaseB6)
    (V : (c : Dev nD) → (b : Ref sig .tc) → Buf (Elt Ideal) ((c : Thread nD τ).loc b)) (c : Dev nD) :
    (dat0 (F := Ideal) V c).arrAt 6 cfg0.N = sumArr (fun b d n k => (Cert.Spec.Xcm (V c main_v8) (V c main_v7) (V c main_v9) (V c main_arg4) (V c main_v11)) b d n k * (Cert.Spec.Xcm (V c main_v8) (V c main_v7) (V c main_v9) (V c main_arg4) (V c main_v11)) b d n k) :=
  (dat0 (F := Ideal) V c).arrAt_eq_of_cover 6 (sumArr (fun b d n k => Y V c b d n k * Y V c b d n k)) (flushed6_eq V c hA5 hA6 hB5 hB6) (cover6)

end Cert.KernelIdeal.StatsArr
end
-- ==== Proof.MainBody.lean ====
/-
  What one grid point of the second kernel leaves in its output block [1,32,16·1024].

  For each of the 16 neighbours k the body forms a chunk [32,1024]: rows 0–15 are the 1×1 convolution of the
  (point, neighbour) pair's ten features, less the channel's mean, times the reciprocal root of the variance plus the
  guard, times the scale, plus the shift, clamped below at zero; rows 16–31 are the tile's feature block.  The 16
  chunks are each cast to [32,1,1024], stacked on axis 1 to [32,16,1024], the last two axes swapped to [32,1024,16]
  and flattened to [32,16384], so that position p = 16·l + k of row ch is chunk k at (ch, l); a leading unit axis is
  added.  Read at (0, ch, p) this is the specification's block entry.
-/
import proofs.«107703_j12592844112371_2_alg».proof.Proof.Gen.KernelIdeal.Frame
import proofs.«107703_j12592844112371_2_alg».proof.Proof.Spec
import proofs.«107703_j12592844112371_2_alg».proof.Proof.ConvChunk
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section
open scoped BigOperators
open Idealize.ShloMosaic Idealize.ShloMosaic.TcCoe Idealize.ShloMosaic.ValueIdx Idealize.SL.Sem

namespace Cert.KernelIdeal.MainBody
open Cert.KernelIdeal Cert.KernelIdeal.Gen Cert.Spec

/-- The sixteen chunks laid side by side: each cast to [32,1,1024], stacked on axis 1, the last two axes swapped, and
    flattened row-major. Position `p = 16 l + k` of row `ch` is chunk `k = p % 16` at `(ch, l = p / 16)`. -/
theorem relayout (c : Fin 16 → FVec Ideal S32x1024 .f32)
    (hcat : Shape.Concatenates ((List.ofFn fun n : Fin 16 => (⟨S32x1x1024, shapeCast S32x1x1024 (c n) shapeCasts_S32x1024_S32x1x1024⟩ : (s : Shape) × (s.Idx → Ideal .f32))).map (·.1)) S32x16x1024 1)
    (ch : Fin 32) (p : Fin 16384) :
    shapeCast S32x16384 (transpose S32x1024x16 [0, 2, 1] (concatenate S32x16x1024 1 (List.ofFn fun n : Fin 16 => (⟨S32x1x1024, shapeCast S32x1x1024 (c n) shapeCasts_S32x1024_S32x1x1024⟩ : (s : Shape) × (s.Idx → Ideal .f32))) hcat) transposes_S32x16x1024_p0_2_1_S32x1024x16) shapeCasts_S32x1024x16_S32x16384 (ix2 ch p)
      = c ⟨p.val % 16, Nat.mod_lt _ (by norm_num)⟩ (ix2 ch ⟨p.val / 16, by omega⟩) := by
  refine (shapeCast_apply _ _ _ (ix3 ch (⟨p.val / 16, by omega⟩ : Fin 1024) (⟨p.val % 16, Nat.mod_lt _ (by norm_num)⟩ : Fin 16)) ?_).trans ?_
  · rw [Shape.rowMajor_val_three, Shape.rowMajor_val_two]
    show (ch.val * 1024 + p.val / 16) * 16 + p.val % 16 = ch.val * 16384 + p.val
    omega
  refine (transpose_ix3_021_apply _ _ ch _ _).trans ?_
  refine (concatenate_ofFn_unit_apply (t := S32x16x1024) (s₁ := S32x1x1024) (1 : Fin 3) (fun n : Fin 16 => shapeCast S32x1x1024 (c n) shapeCasts_S32x1024_S32x1x1024) hcat rfl rfl
    (ix3 ch (⟨p.val % 16, Nat.mod_lt _ (by norm_num)⟩ : Fin 16) (⟨p.val / 16, by omega⟩ : Fin 1024)) ⟨p.val % 16, Nat.mod_lt _ (by norm_num)⟩ rfl (ix3 ch 0 ⟨p.val / 16, by omega⟩) ?_).trans ?_
  · intro b hb
    match b, hb with
    | ⟨0, _⟩, _ => rfl
    | ⟨1, _⟩, hb => exact absurd rfl hb
    | ⟨2, _⟩, _ => rfl
  · refine shapeCast_apply _ _ _ (ix2 ch ⟨p.val / 16, by omega⟩) ?_
    rw [Shape.rowMajor_val_three, Shape.rowMajor_val_two]
    show ch.val * 1024 + p.val / 16 = (ch.val * 1 + 0) * 1024 + p.val / 16
    omega

/-- One neighbour's chunk [32,1024]: rows 0–15 the convolution normalised (mean subtracted, scaled by the reciprocal
    root, by the scale column, shifted, clamped below at zero), rows 16–31 the feature block. -/
def chunk (v1 : FVec Ideal S3x1024 .f32) (v2 : Vec Ideal S16x10 .f32) (v4 v6 v8 v10 v15 : FVec Ideal S16x1 .f32)
    (v17 : FVec Ideal S16x1024 .f32) (nk : Vec Ideal S1x1x3x1024 .f32) (dk : Vec Ideal S1x1x1024 .f32) : FVec Ideal S32x1024 .f32 :=
  concatenate S32x1024 0
    [⟨S16x1024, maximumf (addf (mulf (mulf (subf (Cert.ConvChunk.convTerm v1 v2 v4 nk dk) (broadcastTo S16x1024 v10 broadcasts_S16x1_S16x1024))
        (broadcastTo S16x1024 v15 broadcasts_S16x1_S16x1024)) (broadcastTo S16x1024 v6 broadcasts_S16x1_S16x1024))
        (broadcastTo S16x1024 v8 broadcasts_S16x1_S16x1024)) (broadcast S16x1024 (Scalar.ofBits (F := Ideal) .f32 0x00000000#32))⟩,
     ⟨S16x1024, v17⟩]
    concatenates_S16x1024_S16x1024_S32x1024_d0

/-- A column [16,1] broadcast along the points reads its row's one entry. -/
theorem bcol_apply (v : FVec Ideal S16x1 .f32) (d : Fin 16) (l : Fin 1024) :
    broadcastTo S16x1024 v broadcasts_S16x1_S16x1024 (ix2 d l) = v (ix2 d 0) :=
  broadcastTo_apply v _ (ix2 d l) (ix2 d 0) fun a => match a with | ⟨0, _⟩ => rfl | ⟨1, _⟩ => rfl

theorem chunk_lo (v1 : FVec Ideal S3x1024 .f32) (v2 : Vec Ideal S16x10 .f32) (v4 v6 v8 v10 v15 : FVec Ideal S16x1 .f32)
    (v17 : FVec Ideal S16x1024 .f32) (nk : Vec Ideal S1x1x3x1024 .f32) (dk : Vec Ideal S1x1x1024 .f32)
    (ch : Fin 32) (l : Fin 1024) (h : ch.val < 16) :
    chunk v1 v2 v4 v6 v8 v10 v15 v17 nk dk (ix2 ch l)
      = max ((Cert.ConvChunk.convTerm v1 v2 v4 nk dk (ix2 ⟨ch.val, h⟩ l) - v10 (ix2 ⟨ch.val, h⟩ 0)) * v15 (ix2 ⟨ch.val, h⟩ 0) * v6 (ix2 ⟨ch.val, h⟩ 0)
          + v8 (ix2 ⟨ch.val, h⟩ 0)) (Ideal.ofBits .f32 0x00000000#32) := by
  unfold chunk
  refine (concatenate_pair_apply_left (t := S32x1024) (s₁ := S16x1024) (s₂ := S16x1024) 0 _ _ _ (ix2 ch l) rfl (ix2 ⟨ch.val, h⟩ l)
    (fun b => match b with | ⟨0, _⟩ => rfl | ⟨1, _⟩ => rfl)).trans ?_
  rw [maximumf_apply, addf_apply, mulf_apply, mulf_apply, subf_apply, bcol_apply, bcol_apply, bcol_apply, bcol_apply]
  rfl

theorem chunk_hi (v1 : FVec Ideal S3x1024 .f32) (v2 : Vec Ideal S16x10 .f32) (v4 v6 v8 v10 v15 : FVec Ideal S16x1 .f32)
    (v17 : FVec Ideal S16x1024 .f32) (nk : Vec Ideal S1x1x3x1024 .f32) (dk : Vec Ideal S1x1x1024 .f32)
    (ch : Fin 32) (l : Fin 1024) (h : ¬ ch.val < 16) :
    chunk v1 v2 v4 v6 v8 v10 v15 v17 nk dk (ix2 ch l) = v17 (ix2 ⟨ch.val - 16, by omega⟩ l) := by
  unfold chunk
  refine concatenate_pair_apply_right (t := S32x1024) (s₁ := S16x1024) (s₂ := S16x1024) 0 _ _ _ (ix2 ch l) rfl rfl (ix2 ⟨ch.val - 16, by omega⟩ l)
    (fun b hb => match b, hb with | ⟨0, _⟩, hb => absurd rfl hb | ⟨1, _⟩, _ => rfl) ?_
  show ch.val - 16 + 16 = ch.val
  omega

/-- Neighbour `k`'s slice of the neighbour-coordinates block is inside the block. -/
theorem inb_nbr (k : Fin 16) : ∀ a, (![0, k.val, 0, 0] : Fin 4 → Nat) a + S1x1x3x1024.size a ≤ S1x16x3x1024.size a := fun a =>
  match a with
  | ⟨0, _⟩ => by show 0 + 1 ≤ 1; omega
  | ⟨1, _⟩ => by show k.val + 1 ≤ 16; omega
  | ⟨2, _⟩ => by show 0 + 3 ≤ 3; omega
  | ⟨3, _⟩ => by show 0 + 1024 ≤ 1024; omega

/-- Neighbour `k`'s slice of the distances block is inside the block. -/
theorem inb_dst (k : Fin 16) : ∀ a, (![0, k.val, 0] : Fin 3 → Nat) a + S1x1x1024.size a ≤ S1x16x1024.size a := fun a =>
  match a with
  | ⟨0, _⟩ => by show 0 + 1 ≤ 1; omega
  | ⟨1, _⟩ => by show k.val + 1 ≤ 16; omega
  | ⟨2, _⟩ => by show 0 + 1024 ≤ 1024; omega

/-- Neighbour `k`'s coordinates [1,1,3,1024], read out of the block [1,16,3,1024]. -/
def nbr (x1 : Vec Ideal S1x16x3x1024 .f32) (k : Fin 16) : Vec Ideal S1x1x3x1024 .f32 :=
  View.ld x1 (Rect.unit (s := S1x16x3x1024) ![0, k.val, 0, 0] S1x1x3x1024.size (inb_nbr k))

/-- Neighbour `k`'s distances [1,1,1024], read out of the block [1,16,1024]. -/
def dst (x2 : Vec Ideal S1x16x1024 .f32) (k : Fin 16) : Vec Ideal S1x1x1024 .f32 :=
  View.ld x2 (Rect.unit (s := S1x16x1024) ![0, k.val, 0] S1x1x1024.size (inb_dst k))

theorem nbr_apply (x1 : Vec Ideal S1x16x3x1024 .f32) (k : Fin 16) (c : Fin 3) (l : Fin 1024) :
    nbr x1 k (ix4 (0 : Fin 1) (0 : Fin 1) c l) = x1 (ix4 (0 : Fin 1) k c l) :=
  congrArg x1 (funext fun a => Fin.ext (match a with
    | ⟨0, _⟩ => by show 0 + 1 * 0 = 0; omega
    | ⟨1, _⟩ => by show k.val + 1 * 0 = k.val; omega
    | ⟨2, _⟩ => by show 0 + 1 * c.val = c.val; omega
    | ⟨3, _⟩ => by show 0 + 1 * l.val = l.val; omega))

theorem dst_apply (x2 : Vec Ideal S1x16x1024 .f32) (k : Fin 16) (l : Fin 1024) :
    dst x2 k (ix3 (0 : Fin 1) (0 : Fin 1) l) = x2 (ix3 (0 : Fin 1) k l) :=
  congrArg x2 (funext fun a => Fin.ext (match a with
    | ⟨0, _⟩ => by show 0 + 1 * 0 = 0; omega
    | ⟨1, _⟩ => by show k.val + 1 * 0 = k.val; omega
    | ⟨2, _⟩ => by show 0 + 1 * l.val = l.val; omega))

set_option maxHeartbeats 1000000 in
/-- The block the body leaves, read at row `ch`, position `p`: chunk `p % 16` at `(ch, p / 16)`. -/
theorem main_at (x0 : Vec Ideal S1x3x1024 .f32) (x1 : Vec Ideal S1x16x3x1024 .f32) (x2 : Vec Ideal S1x16x1024 .f32) (x3 : Vec Ideal S1x16x1024 .f32) (x4 : Vec Ideal S16x10 .f32) (x5 : Vec Ideal S16x1 .f32) (x6 : Vec Ideal S16x1 .f32) (x7 : Vec Ideal S16x1 .f32) (x8 : Vec Ideal S16x1 .f32) (x9 : Vec Ideal S16x1 .f32)
    (ch : Fin 32) (p : Fin 16384) :
    out1_10 (F := Ideal) x0 x1 x2 x3 x4 x5 x6 x7 x8 x9 (ix3 (0 : Fin 1) ch p)
      = chunk (k1_pay2 (View.ld x0 r1_0)) (View.ld x4 r1_1) (k1_pay3 (View.ld x5 r1_2)) (k1_pay4 (View.ld x6 r1_2)) (k1_pay5 (View.ld x7 r1_2))
          (k1_pay6 (View.ld x8 r1_2)) (k1_pay7 (View.ld x9 r1_2)) (k1_pay8 (View.ld x3 r1_3))
          (nbr x1 ⟨p.val % 16, Nat.mod_lt _ (by norm_num)⟩) (dst x2 ⟨p.val % 16, Nat.mod_lt _ (by norm_num)⟩) (ix2 ch ⟨p.val / 16, by omega⟩) := by
  have hz3 : (![0, 0, 0] : Fin S1x32x16384.rank → Nat) = fun _ => 0 := funext fun a => by fin_cases a <;> rfl
  unfold out1_10
  rw [View.canon_unit_zero hz3]
  unfold k1_pay1
  refine (shapeCast_ab_1ab_apply _ _ (0 : Fin 1) ch p).trans ?_
  exact relayout (fun n => chunk (k1_pay2 (View.ld x0 r1_0)) (View.ld x4 r1_1) (k1_pay3 (View.ld x5 r1_2)) (k1_pay4 (View.ld x6 r1_2)) (k1_pay5 (View.ld x7 r1_2))
          (k1_pay6 (View.ld x8 r1_2)) (k1_pay7 (View.ld x9 r1_2)) (k1_pay8 (View.ld x3 r1_3)) (nbr x1 n) (dst x2 n))
    concatenates_S32x1x1024_S32x1x1024_S32x1x1024_S32x1x1024_S32x1x1024_S32x1x1024_S32x1x1024_S32x1x1024_S32x1x1024_S32x1x1024_S32x1x1024_S32x1x1024_S32x1x1024_S32x1x1024_S32x1x1024_S32x1x1024_S32x16x1024_d1
    ch p

/-! ### The whole-block loads and the columns, read at an index -/

theorem hz_S1x3x1024 : (![0, 0, 0] : Fin S1x3x1024.rank → Nat) = fun _ => 0 := funext fun a => by fin_cases a <;> rfl
theorem hz_S16x10 : (![0, 0] : Fin S16x10.rank → Nat) = fun _ => 0 := funext fun a => by fin_cases a <;> rfl
theorem hz_S16x1 : (![0, 0] : Fin S16x1.rank → Nat) = fun _ => 0 := funext fun a => by fin_cases a <;> rfl
theorem hz_S1x16x1024 : (![0, 0, 0] : Fin S1x16x1024.rank → Nat) = fun _ => 0 := funext fun a => by fin_cases a <;> rfl

/-- The centre coordinates [1,3,1024] loaded whole and cast to [3,1024]. -/
theorem centre_apply (x0 : Vec Ideal S1x3x1024 .f32) (c : Fin 3) (l : Fin 1024) :
    k1_pay2 (View.ld x0 r1_0) (ix2 c l) = x0 (ix3 (0 : Fin 1) c l) := by
  unfold k1_pay2
  rw [View.ld_unit_zero hz_S1x3x1024]
  exact shapeCast_1ab_ab_apply _ _ c l

/-- The feature block [1,16,1024] loaded whole and cast to [16,1024]. -/
theorem feats_apply (x3 : Vec Ideal S1x16x1024 .f32) (d : Fin 16) (l : Fin 1024) :
    k1_pay8 (View.ld x3 r1_3) (ix2 d l) = x3 (ix3 (0 : Fin 1) d l) := by
  unfold k1_pay8
  rw [View.ld_unit_zero hz_S1x16x1024]
  exact shapeCast_1ab_ab_apply _ _ d l

/-- The weights loaded whole. -/
theorem weights_eq (x4 : Vec Ideal S16x10 .f32) : View.ld x4 r1_1 = x4 := View.ld_unit_zero hz_S16x10 _ x4

/-- A column [16,1] loaded whole; the cast to its own shape changes nothing. -/
theorem col3_eq (x : Vec Ideal S16x1 .f32) : k1_pay3 (View.ld x r1_2) = x := by
  unfold k1_pay3; rw [View.ld_unit_zero hz_S16x1]; exact shapeCast_self _ _
theorem col4_eq (x : Vec Ideal S16x1 .f32) : k1_pay4 (View.ld x r1_2) = x := by
  unfold k1_pay4; rw [View.ld_unit_zero hz_S16x1]; exact shapeCast_self _ _
theorem col5_eq (x : Vec Ideal S16x1 .f32) : k1_pay5 (View.ld x r1_2) = x := by
  unfold k1_pay5; rw [View.ld_unit_zero hz_S16x1]; exact shapeCast_self _ _
theorem col6_eq (x : Vec Ideal S16x1 .f32) : k1_pay6 (View.ld x r1_2) = x := by
  unfold k1_pay6; rw [View.ld_unit_zero hz_S16x1]; exact shapeCast_self _ _

/-- The variance column: the reciprocal root of the variance plus the guard. -/
theorem rstd_apply (x : Vec Ideal S16x1 .f32) (i : S16x1.Idx) :
    k1_pay7 (View.ld x r1_2) i = Ideal.rsqrt (x i + Cert.Spec.eps) := by
  unfold k1_pay7
  rw [View.ld_unit_zero hz_S16x1, shapeCast_self]
  rfl

/-- **B.** What one grid point of the second kernel leaves in its output block. -/
theorem main_block (x0 : Vec Ideal S1x3x1024 .f32) (x1 : Vec Ideal S1x16x3x1024 .f32) (x2 : Vec Ideal S1x16x1024 .f32) (x3 : Vec Ideal S1x16x1024 .f32) (x4 : Vec Ideal S16x10 .f32) (x5 : Vec Ideal S16x1 .f32) (x6 : Vec Ideal S16x1 .f32) (x7 : Vec Ideal S16x1 .f32) (x8 : Vec Ideal S16x1 .f32) (x9 : Vec Ideal S16x1 .f32) :
    out1_10 (F := Ideal) x0 x1 x2 x3 x4 x5 x6 x7 x8 x9 = blkOut x0 x1 x2 x3 x4 x5 x6 x7 x8 x9 := by
  funext j
  obtain ⟨u, ch, p, rfl⟩ : ∃ (u : Fin 1) (ch : Fin 32) (p : Fin 16384), j = ix3 u ch p := ⟨j 0, j 1, j 2, eq_ix3 j⟩
  obtain rfl : u = 0 := Subsingleton.elim _ _
  rw [main_at]
  show _ = blkOutAt x0 x1 x2 x3 x4 x5 x6 x7 x8 x9 ch p
  unfold blkOutAt
  by_cases h : ch.val < 16
  · rw [dif_pos h, chunk_lo _ _ _ _ _ _ _ _ _ _ ch _ h, Cert.ConvChunk.convTerm_apply, weights_eq, col3_eq, col4_eq, col5_eq, col6_eq, rstd_apply]
    unfold Cert.Spec.norm Cert.Spec.convBlk
    simp only [centre_apply, nbr_apply, dst_apply]
  · rw [dif_neg h, chunk_hi _ _ _ _ _ _ _ _ _ _ ch _ h]
    exact feats_apply x3 _ _

end Cert.KernelIdeal.MainBody
end
-- ==== Proof.MainArr.lean ====
/-
  From the blocks to the array: the second kernel's result [4,32,262144] after its 4 × 16 grid points.

  Point t = 16·b + nt writes the block [1,32,16384] at batch b, rows 0–31, columns 16384·nt … 16384·nt + 16383.
  Its input blocks are the tile nt of batch b of the coordinate, neighbour, distance and feature arrays (points
  1024·nt … 1024·nt + 1023) and the six small arrays whole.  Position p of the block is neighbour p % 16 of the
  tile's point p / 16, which is neighbour (16384·nt + p) % 16 of the batch's point (16384·nt + p) / 16 = 1024·nt + p / 16:
  so the block's entry is the array's entry.  The 64 blocks tile the array: (b, ch, p) lies in the block of
  the point 16·b + p / 16384.
-/
import proofs.«107703_j12592844112371_2_alg».proof.Proof.Gen.KernelIdeal.Frame
import proofs.«107703_j12592844112371_2_alg».proof.Proof.Spec
import Idealize.ShloMosaic.Lib.ValueIdx
import Idealize.ShloMosaic.Lib.Pipeline.Value

set_option maxRecDepth 16384
noncomputable section
open scoped BigOperators
open Idealize.ShloMosaic Idealize.ShloMosaic.TcCoe Idealize.ShloMosaic.ValueIdx Idealize.SL.Sem
open Idealize.ShloMosaic.Pipeline (Dat)

namespace Cert.KernelIdeal.MainArr
open Cert.KernelIdeal Cert.KernelIdeal.Gen Cert.Spec

/-- The block indices at grid point `t`: the output and the four tiled inputs sit at batch `t / 16` and tile `t % 16`,
    at block 0 on every other axis. -/
theorem idx_facts : ∀ t : Fin cfg1.N,
    win1_10.index t (0 : Fin 3) = t.val / 16 ∧ win1_10.index t (1 : Fin 3) = 0 ∧ win1_10.index t (2 : Fin 3) = t.val % 16
    ∧ win1_0.index t (0 : Fin 3) = t.val / 16 ∧ win1_0.index t (1 : Fin 3) = 0 ∧ win1_0.index t (2 : Fin 3) = t.val % 16
    ∧ win1_1.index t (0 : Fin 4) = t.val / 16 ∧ win1_1.index t (1 : Fin 4) = 0 ∧ win1_1.index t (2 : Fin 4) = 0 ∧ win1_1.index t (3 : Fin 4) = t.val % 16
    ∧ win1_2.index t (0 : Fin 3) = t.val / 16 ∧ win1_2.index t (1 : Fin 3) = 0 ∧ win1_2.index t (2 : Fin 3) = t.val % 16
    ∧ win1_3.index t (0 : Fin 3) = t.val / 16 ∧ win1_3.index t (1 : Fin 3) = 0 ∧ win1_3.index t (2 : Fin 3) = t.val % 16 :=
  (by decide +kernel : ∀ t : Fin grid1.N, _)

/-- The six small operands (weights, bias, scale, shift, mean, variance) are read whole at every point: block index 0. -/
theorem idx_small : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The grid has 64 points. -/
theorem t_lt (t : Fin cfg1.N) : t.val < 64 := Nat.lt_of_lt_of_eq t.isLt N_1

/-- Position `p` of the block at (b, nt) is position `16384·nt + p` of batch `b`: same neighbour, point `1024·nt + p/16`. -/
theorem blk_to_arr
    (A0 : (⟨3, ![4, 3, 16384]⟩ : Shape).Idx → EReal) (A1 : (⟨4, ![4, 16, 3, 16384]⟩ : Shape).Idx → EReal)
    (A2 : (⟨3, ![4, 16, 16384]⟩ : Shape).Idx → EReal) (A3 : (⟨3, ![4, 16, 16384]⟩ : Shape).Idx → EReal)
    (x0 : (⟨3, ![1, 3, 1024]⟩ : Shape).Idx → EReal) (x1 : (⟨4, ![1, 16, 3, 1024]⟩ : Shape).Idx → EReal)
    (x2 : (⟨3, ![1, 16, 1024]⟩ : Shape).Idx → EReal) (x3 : (⟨3, ![1, 16, 1024]⟩ : Shape).Idx → EReal)
    (x4 : (⟨2, ![16, 10]⟩ : Shape).Idx → EReal) (x5 x6 x7 x8 x9 : (⟨2, ![16, 1]⟩ : Shape).Idx → EReal)
    (b : Fin 4) (nt : Fin 16)
    (h0 : ∀ (a : Fin 3) (l : Fin 1024), x0 (ix3 0 a l) = A0 (ix3 b a ⟨nt.val * 1024 + l.val, by omega⟩))
    (h1 : ∀ (k : Fin 16) (a : Fin 3) (l : Fin 1024), x1 (ix4 0 k a l) = A1 (ix4 b k a ⟨nt.val * 1024 + l.val, by omega⟩))
    (h2 : ∀ (k : Fin 16) (l : Fin 1024), x2 (ix3 0 k l) = A2 (ix3 b k ⟨nt.val * 1024 + l.val, by omega⟩))
    (h3 : ∀ (d : Fin 16) (l : Fin 1024), x3 (ix3 0 d l) = A3 (ix3 b d ⟨nt.val * 1024 + l.val, by omega⟩))
    (ch : Fin 32) (p : Fin 16384) :
    blkOutAt x0 x1 x2 x3 x4 x5 x6 x7 x8 x9 ch p
      = outArrAt (Xcm A0 A1 A2 x4 x5) x8 x9 x6 x7 A3 b ch ⟨nt.val * 16384 + p.val, by omega⟩ := by
  have hp : p.val < 16384 := p.isLt
  have hnt : nt.val < 16 := nt.isLt
  have hk : (nt.val * 16384 + p.val) % 16 = p.val % 16 := by omega
  have hn : (nt.val * 16384 + p.val) / 16 = nt.val * 1024 + p.val / 16 := by omega
  unfold blkOutAt outArrAt
  by_cases h : ch.val < 16
  · rw [dif_pos h, dif_pos h]
    congr 1
    unfold convBlk Xcm
    congr 1
    congr 1
    · funext a; rw [h0]; congr 1; exact congrArg (ix3 b a) (Fin.ext hn.symm)
    · funext a; rw [h1]
      have e1 : (⟨p.val % 16, Nat.mod_lt _ (by norm_num)⟩ : Fin 16) = ⟨(nt.val * 16384 + p.val) % 16, Nat.mod_lt _ (by norm_num)⟩ := Fin.ext hk.symm
      have e2 : (⟨nt.val * 1024 + p.val / 16, by omega⟩ : Fin 16384) = ⟨(nt.val * 16384 + p.val) / 16, by omega⟩ := Fin.ext hn.symm
      rw [e1, e2]
    · rw [h2]
      have e1 : (⟨p.val % 16, Nat.mod_lt _ (by norm_num)⟩ : Fin 16) = ⟨(nt.val * 16384 + p.val) % 16, Nat.mod_lt _ (by norm_num)⟩ := Fin.ext hk.symm
      have e2 : (⟨nt.val * 1024 + p.val / 16, by omega⟩ : Fin 16384) = ⟨(nt.val * 16384 + p.val) / 16, by omega⟩ := Fin.ext hn.symm
      rw [e1, e2]
  · rw [dif_neg h, dif_neg h, h3]
    exact congrArg (fun n => A3 (ix3 b ⟨ch.val - 16, by omega⟩ n)) (Fin.ext hn.symm)

section
variable (V : (c : Dev nD) → (b : Ref sig .tc) → Buf (Elt Ideal) ((c : Thread nD τ).loc b))

/-- Window 4's block at any point is the whole array: the weights [16,10]. -/
theorem small4 (c : Dev nD) (t : Fin cfg1.N) : (iblk1 (F := Ideal) V c 4 t : Vec Ideal S16x10 .f32) = V c main_arg4 := by
  have e := idx_small t
  funext y
  show V c main_arg4 (((cfg1.win 4).blk t).view.emb y) = V c main_arg4 y
  congr 1
  funext a
  apply Fin.ext
  match a with
  | ⟨0, _⟩ => show win1_4.index t (0 : Fin 2) * 16 + 1 * (y 0).val = (y 0).val; omega
  | ⟨1, _⟩ => show win1_4.index t (1 : Fin 2) * 10 + 1 * (y 1).val = (y 1).val; omega

/-- Window 5's block at any point is the whole array: the bias column [16,1]. -/
theorem small5 (c : Dev nD) (t : Fin cfg1.N) : (iblk1 (F := Ideal) V c 5 t : Vec Ideal S16x1 .f32) = V c main_v11 := by
  have e := idx_small t
  funext y
  show V c main_v11 (((cfg1.win 5).blk t).view.emb y) = V c main_v11 y
  congr 1
  funext a
  apply Fin.ext
  match a with
  | ⟨0, _⟩ => show win1_5.index t (0 : Fin 2) * 16 + 1 * (y 0).val = (y 0).val; omega
  | ⟨1, _⟩ => show win1_5.index t (1 : Fin 2) * 1 + 1 * (y 1).val = (y 1).val; omega

/-- Window 6's block at any point is the whole array: the scale column [16,1]. -/
theorem small6 (c : Dev nD) (t : Fin cfg1.N) : (iblk1 (F := Ideal) V c 6 t : Vec Ideal S16x1 .f32) = V c main_v12 := by
  have e := idx_small t
  funext y
  show V c main_v12 (((cfg1.win 6).blk t).view.emb y) = V c main_v12 y
  congr 1
  funext a
  apply Fin.ext
  match a with
  | ⟨0, _⟩ => show win1_6.index t (0 : Fin 2) * 16 + 1 * (y 0).val = (y 0).val; omega
  | ⟨1, _⟩ => show win1_6.index t (1 : Fin 2) * 1 + 1 * (y 1).val = (y 1).val; omega

/-- Window 7's block at any point is the whole array: the shift column [16,1]. -/
theorem small7 (c : Dev nD) (t : Fin cfg1.N) : (iblk1 (F := Ideal) V c 7 t : Vec Ideal S16x1 .f32) = V c main_v13 := by
  have e := idx_small t
  funext y
  show V c main_v13 (((cfg1.win 7).blk t).view.emb y) = V c main_v13 y
  congr 1
  funext a
  apply Fin.ext
  match a with
  | ⟨0, _⟩ => show win1_7.index t (0 : Fin 2) * 16 + 1 * (y 0).val = (y 0).val; omega
  | ⟨1, _⟩ => show win1_7.index t (1 : Fin 2) * 1 + 1 * (y 1).val = (y 1).val; omega

/-- Window 8's block at any point is the whole array: the mean column [16,1]. -/
theorem small8 (c : Dev nD) (t : Fin cfg1.N) : (iblk1 (F := Ideal) V c 8 t : Vec Ideal S16x1 .f32) = V c main_v18 := by
  have e := idx_small t
  funext y
  show V c main_v18 (((cfg1.win 8).blk t).view.emb y) = V c main_v18 y
  congr 1
  funext a
  apply Fin.ext
  match a with
  | ⟨0, _⟩ => show win1_8.index t (0 : Fin 2) * 16 + 1 * (y 0).val = (y 0).val; omega
  | ⟨1, _⟩ => show win1_8.index t (1 : Fin 2) * 1 + 1 * (y 1).val = (y 1).val; omega

/-- Window 9's block at any point is the whole array: the variance column [16,1]. -/
theorem small9 (c : Dev nD) (t : Fin cfg1.N) : (iblk1 (F := Ideal) V c 9 t : Vec Ideal S16x1 .f32) = V c main_v22 := by
  have e := idx_small t
  funext y
  show V c main_v22 (((cfg1.win 9).blk t).view.emb y) = V c main_v22 y
  congr 1
  funext a
  apply Fin.ext
  match a with
  | ⟨0, _⟩ => show win1_9.index t (0 : Fin 2) * 16 + 1 * (y 0).val = (y 0).val; omega
  | ⟨1, _⟩ => show win1_9.index t (1 : Fin 2) * 1 + 1 * (y 1).val = (y 1).val; omega

/-- The centre coordinates: entry (0, a, l) of the block at point `t` is entry (t / 16, a, 1024·(t % 16) + l) of the array [4,3,16384]. -/
theorem read0 (c : Dev nD) (t : Fin cfg1.N) (a : Fin 3) (l : Fin 1024) :
    (iblk1 (F := Ideal) V c 0 t : Vec Ideal S1x3x1024 .f32) (ix3 0 a l)
      = (V c main_v8 : S4x3x16384.Idx → EReal) (ix3 ⟨t.val / 16, by have := t_lt t; omega⟩ a ⟨t.val % 16 * 1024 + l.val, by have := l.isLt; omega⟩) := by
  have e := idx_facts t
  show V c main_v8 (((cfg1.win 0).blk t).view.emb (ix3 0 a l)) = V c main_v8 _
  congr 1
  funext x
  apply Fin.ext
  match x with
  | ⟨0, _⟩ => show win1_0.index t (0 : Fin 3) * 1 + 1 * 0 = t.val / 16; omega
  | ⟨1, _⟩ => show win1_0.index t (1 : Fin 3) * 3 + 1 * a.val = a.val; omega
  | ⟨2, _⟩ => show win1_0.index t (2 : Fin 3) * 1024 + 1 * l.val = t.val % 16 * 1024 + l.val; omega

/-- The neighbour coordinates: entry (0, k, a, l) of the block at point `t` is entry (t / 16, k, a, 1024·(t % 16) + l) of the array [4,16,3,16384]. -/
theorem read1 (c : Dev nD) (t : Fin cfg1.N) (k : Fin 16) (a : Fin 3) (l : Fin 1024) :
    (iblk1 (F := Ideal) V c 1 t : Vec Ideal S1x16x3x1024 .f32) (ix4 0 k a l)
      = (V c main_v7 : S4x16x3x16384.Idx → EReal) (ix4 ⟨t.val / 16, by have := t_lt t; omega⟩ k a ⟨t.val % 16 * 1024 + l.val, by have := l.isLt; omega⟩) := by
  have e := idx_facts t
  show V c main_v7 (((cfg1.win 1).blk t).view.emb (ix4 0 k a l)) = V c main_v7 _
  congr 1
  funext x
  apply Fin.ext
  match x with
  | ⟨0, _⟩ => show win1_1.index t (0 : Fin 4) * 1 + 1 * 0 = t.val / 16; omega
  | ⟨1, _⟩ => show win1_1.index t (1 : Fin 4) * 16 + 1 * k.val = k.val; omega
  | ⟨2, _⟩ => show win1_1.index t (2 : Fin 4) * 3 + 1 * a.val = a.val; omega
  | ⟨3, _⟩ => show win1_1.index t (3 : Fin 4) * 1024 + 1 * l.val = t.val % 16 * 1024 + l.val; omega

/-- The distances: entry (0, k, l) of the block at point `t` is entry (t / 16, k, 1024·(t % 16) + l) of the array [4,16,16384]. -/
theorem read2 (c : Dev nD) (t : Fin cfg1.N) (a : Fin 16) (l : Fin 1024) :
    (iblk1 (F := Ideal) V c 2 t : Vec Ideal S1x16x1024 .f32) (ix3 0 a l)
      = (V c main_v9 : S4x16x16384.Idx → EReal) (ix3 ⟨t.val / 16, by have := t_lt t; omega⟩ a ⟨t.val % 16 * 1024 + l.val, by have := l.isLt; omega⟩) := by
  have e := idx_facts t
  show V c main_v9 (((cfg1.win 2).blk t).view.emb (ix3 0 a l)) = V c main_v9 _
  congr 1
  funext x
  apply Fin.ext
  match x with
  | ⟨0, _⟩ => show win1_2.index t (0 : Fin 3) * 1 + 1 * 0 = t.val / 16; omega
  | ⟨1, _⟩ => show win1_2.index t (1 : Fin 3) * 16 + 1 * a.val = a.val; omega
  | ⟨2, _⟩ => show win1_2.index t (2 : Fin 3) * 1024 + 1 * l.val = t.val % 16 * 1024 + l.val; omega

/-- The features: entry (0, d, l) of the block at point `t` is entry (t / 16, d, 1024·(t % 16) + l) of the array [4,16,16384]. -/
theorem read3 (c : Dev nD) (t : Fin cfg1.N) (a : Fin 16) (l : Fin 1024) :
    (iblk1 (F := Ideal) V c 3 t : Vec Ideal S1x16x1024 .f32) (ix3 0 a l)
      = (V c main_v10 : S4x16x16384.Idx → EReal) (ix3 ⟨t.val / 16, by have := t_lt t; omega⟩ a ⟨t.val % 16 * 1024 + l.val, by have := l.isLt; omega⟩) := by
  have e := idx_facts t
  show V c main_v10 (((cfg1.win 3).blk t).view.emb (ix3 0 a l)) = V c main_v10 _
  congr 1
  funext x
  apply Fin.ext
  match x with
  | ⟨0, _⟩ => show win1_3.index t (0 : Fin 3) * 1 + 1 * 0 = t.val / 16; omega
  | ⟨1, _⟩ => show win1_3.index t (1 : Fin 3) * 16 + 1 * a.val = a.val; omega
  | ⟨2, _⟩ => show win1_3.index t (2 : Fin 3) * 1024 + 1 * l.val = t.val % 16 * 1024 + l.val; omega

end

/-- The array's entry depends on its three coordinates through their values only. -/
theorem outArrAt_congr (Y : Fin 4 → Fin 16 → Fin 16384 → Fin 16 → EReal) (mu va ga be : (⟨2, ![16, 1]⟩ : Shape).Idx → EReal)
    (fe : (⟨3, ![4, 16, 16384]⟩ : Shape).Idx → EReal) {b b' : Fin 4} {ch ch' : Fin 32} {p p' : Fin 262144}
    (hb : b.val = b'.val) (hc : ch.val = ch'.val) (hp : p.val = p'.val) :
    outArrAt Y mu va ga be fe b ch p = outArrAt Y mu va ga be fe b' ch' p' := by
  obtain rfl := Fin.ext hb
  obtain rfl := Fin.ext hc
  obtain rfl := Fin.ext hp
  rfl

/-- What point `t` writes back is block `t` of the whole result: the per-block result read at the tile's input blocks,
    the small operands whole, and the block's coordinates placed at batch `t / 16`, columns from `16384·(t % 16)`. -/
theorem flushed_eq
    (hblk : ∀ (x0 : Vec Ideal S1x3x1024 .f32) (x1 : Vec Ideal S1x16x3x1024 .f32) (x2 : Vec Ideal S1x16x1024 .f32) (x3 : Vec Ideal S1x16x1024 .f32) (x4 : Vec Ideal S16x10 .f32) (x5 : Vec Ideal S16x1 .f32) (x6 : Vec Ideal S16x1 .f32) (x7 : Vec Ideal S16x1 .f32) (x8 : Vec Ideal S16x1 .f32) (x9 : Vec Ideal S16x1 .f32),
      out1_10 (F := Ideal) x0 x1 x2 x3 x4 x5 x6 x7 x8 x9 = blkOut x0 x1 x2 x3 x4 x5 x6 x7 x8 x9)
    (V : (c : Dev nD) → (b : Ref sig .tc) → Buf (Elt Ideal) ((c : Thread nD τ).loc b)) (c : Dev nD) (t : Fin cfg1.N) :
    (dat1 (F := Ideal) V c).flushed 10 t = ((cfg1.win 10).blk t).view.read (Elt Ideal)
      (outArr (Cert.Spec.Xcm (V c main_v8) (V c main_v7) (V c main_v9) (V c main_arg4) (V c main_v11)) (V c main_v18) (V c main_v22) (V c main_v12) (V c main_v13) (V c main_v10)) := by
  show (cfg1.win 10).cut (grid1.coords t) ((dat1 V c).after 10 t) = _
  rw [after1_10]
  rw [hblk (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)]
  funext j
  have ht := t_lt t
  obtain ⟨e0, e1, e2, -⟩ := idx_facts t
  have hj0 : (j 0).val < 1 := (j 0).isLt
  have hj1 : (j 1).val < 32 := (j 1).isLt
  have hj2 : (j 2).val < 16384 := (j 2).isLt
  show blkOutAt (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ⟨(j 1).val, hj1⟩ ⟨(j 2).val, hj2⟩
    = outArrAt (Cert.Spec.Xcm (V c main_v8) (V c main_v7) (V c main_v9) (V c main_arg4) (V c main_v11)) (V c main_v18) (V c main_v22) (V c main_v12) (V c main_v13) (V c main_v10)
        (((cfg1.win 10).blk t).view.emb j 0) (((cfg1.win 10).blk t).view.emb j 1) (((cfg1.win 10).blk t).view.emb j 2)
  refine (blk_to_arr (V c main_v8) (V c main_v7) (V c main_v9) (V c main_v10) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    ⟨t.val / 16, by omega⟩ ⟨t.val % 16, by omega⟩ (read0 V c t) (read1 V c t) (read2 V c t) (read3 V c t) ⟨(j 1).val, hj1⟩ ⟨(j 2).val, hj2⟩).trans ?_
  rw [small4, small5, small6, small7, small8, small9]
  refine outArrAt_congr _ _ _ _ _ _ ?_ ?_ ?_
  · show t.val / 16 = win1_10.index t (0 : Fin 3) * 1 + 1 * (j 0).val; omega
  · show (j 1).val = win1_10.index t (1 : Fin 3) * 32 + 1 * (j 1).val; omega
  · show t.val % 16 * 16384 + (j 2).val = win1_10.index t (2 : Fin 3) * 16384 + 1 * (j 2).val; omega

/-- An index of the array is in point `t`'s block iff each coordinate is in the block's range on its axis. -/
theorem mem_blk (t : Fin cfg1.N) (i : S4x32x262144.Idx) :
    i ∈ ((cfg1.win 10).blk t).view.set ↔ ∀ a : Fin 3, win1_10.index t a * S1x32x16384.size a ≤ (i a).val ∧ (i a).val < win1_10.index t a * S1x32x16384.size a + S1x32x16384.size a := by
  show i ∈ ((View.whole main_v23).slice (win1_10.rect t)).set ↔ _
  rw [View.set_slice_whole, Rect.mem_set_unit]
  exact Iff.rfl

/-- Every index (b, ch, p) of the result is in the block of the point 16·b + p / 16384. -/
theorem cover (i : S4x32x262144.Idx) :
    ∃ t : Fin cfg1.N, (cfg1.win 10).flush t = true ∧ i ∈ ((cfg1.win 10).blk t).view.set := by
  have hi0 : (i 0).val < 4 := (i 0).isLt
  have hi1 : (i 1).val < 32 := (i 1).isLt
  have hi2 : (i 2).val < 262144 := (i 2).isLt
  obtain ⟨t, htv⟩ : ∃ t : Fin cfg1.N, t.val = 16 * (i 0).val + (i 2).val / 16384 :=
    ⟨⟨16 * (i 0).val + (i 2).val / 16384, Nat.lt_of_lt_of_eq (by omega) N_1.symm⟩, rfl⟩
  refine ⟨t, flush1_10 t, ?_⟩
  rw [mem_blk]
  obtain ⟨e0, e1, e2, -⟩ := idx_facts t
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 32 ≤ (i 1).val ∧ (i 1).val < win1_10.index t (1 : Fin 3) * 32 + 32; omega
  | ⟨2, _⟩ => show win1_10.index t (2 : Fin 3) * 16384 ≤ (i 2).val ∧ (i 2).val < win1_10.index t (2 : Fin 3) * 16384 + 16384; omega

/-- The second kernel's result array after its 64 grid points, given what one grid point leaves in its block. -/
theorem main_arr
    (hblk : ∀ (x0 : Vec Ideal S1x3x1024 .f32) (x1 : Vec Ideal S1x16x3x1024 .f32) (x2 : Vec Ideal S1x16x1024 .f32) (x3 : Vec Ideal S1x16x1024 .f32) (x4 : Vec Ideal S16x10 .f32) (x5 : Vec Ideal S16x1 .f32) (x6 : Vec Ideal S16x1 .f32) (x7 : Vec Ideal S16x1 .f32) (x8 : Vec Ideal S16x1 .f32) (x9 : Vec Ideal S16x1 .f32),
      out1_10 (F := Ideal) x0 x1 x2 x3 x4 x5 x6 x7 x8 x9 = blkOut x0 x1 x2 x3 x4 x5 x6 x7 x8 x9)
    (V : (c : Dev nD) → (b : Ref sig .tc) → Buf (Elt Ideal) ((c : Thread nD τ).loc b)) (c : Dev nD) :
    (dat1 (F := Ideal) V c).arrAt 10 cfg1.N
      = outArr (Cert.Spec.Xcm (V c main_v8) (V c main_v7) (V c main_v9) (V c main_arg4) (V c main_v11)) (V c main_v18) (V c main_v22) (V c main_v12) (V c main_v13) (V c main_v10) :=
  (dat1 (F := Ideal) V c).arrAt_eq_of_cover 10 _ (fun t _ => flushed_eq hblk V c t) cover

end Cert.KernelIdeal.MainArr

end
-- ==== Proof.HostSide.lean ====
/-
  The host operations of the kernel program around its two kernels, read entry by entry:
  the transposes and reshapes that lay the arguments out channel-major before the first kernel,
  the means and variances formed from the first kernel's two sums, and the final reshape.
-/
import proofs.«107703_j12592844112371_2_alg».proof.Proof.Gen.KernelIdeal.Frame
import proofs.«107703_j12592844112371_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384
noncomputable section
open scoped BigOperators
open Idealize.ShloMosaic Idealize.ShloMosaic.TcCoe Idealize.ShloMosaic.ValueIdx Idealize.SL.Sem
open Idealize.ShloMosaic.Pipeline (Dat)

namespace Cert.KernelIdeal.HostSide
open Cert.KernelIdeal Cert.KernelIdeal.Gen Cert.Spec

/-- the neighbours' coordinates, as the kernel program's host operations gather them -/
def nbrK (co : Vec Ideal S4x16384x3 .f32) (idx : Vec Ideal S4x16384x16 .i32) : Vec Ideal S4x16384x16x3 .f32 :=
  Host.gather gather_S4x16384x3_S4x16384x16x1_S4x16384x16x3_3_1_0_0_1_3_113 co
    (broadcastInDim S4x16384x16x1 ![0, 1, 2] Facts₀.bcast_S4x16384x16_S4x16384x16x1_0_1_2
      (select (cmpi .slt idx (broadcastInDim S4x16384x16 ![] Facts₀.bcast_S_S4x16384x16 (constantI S_ 32 0#32)))
        (addi idx (broadcastInDim S4x16384x16 ![] Facts₀.bcast_S_S4x16384x16 (constantI S_ 32 16384#32))) idx))

section
variable (m : (ℓ : Loc nD τ sig) → Buf (Elt Ideal) ℓ) (ρ : Dev nD → PrngReg) (c : Dev nD)

/-! ### Before the first kernel: the arguments laid out channel-major -/

theorem V1_arg4 : V1 m ρ c main_arg4 = m ((c : Thread nD τ).loc main_arg4) := by
  dsimp only [V1, W1]
  after_results

/-- The coordinates, transposed to [4,3,16384]. -/
theorem V1_v8 (b : Fin 4) (a : Fin 3) (n : Fin 16384) : V1 m ρ c main_v8 (ix3 b a n) = m ((c : Thread nD τ).loc main_arg0) (ix3 b n a) := by
  have e : (V1 m ρ c main_v8 : S4x3x16384.Idx → EReal)
      = transpose S4x3x16384 [0, 2, 1] (m ((c : Thread nD τ).loc main_arg0)) transposes_S4x16384x3_S4x3x16384_0_2_1 := by
    dsimp only [V1, W1]
    after_results
  exact (congrFun e _).trans (transpose_ix3_021_apply _ _ b a n)

/-- The gathered neighbour coordinates [4,16384,16,3], transposed to [4,16,3,16384]. -/
theorem V1_v7 (b : Fin 4) (k : Fin 16) (a : Fin 3) (n : Fin 16384) :
    V1 m ρ c main_v7 (ix4 b k a n) = nbrK (m ((c : Thread nD τ).loc main_arg0)) (m ((c : Thread nD τ).loc main_arg2)) (ix4 b n k a) := by
  have e : (V1 m ρ c main_v7 : S4x16x3x16384.Idx → EReal)
      = transpose S4x16x3x16384 [0, 2, 3, 1] (nbrK (m ((c : Thread nD τ).loc main_arg0)) (m ((c : Thread nD τ).loc main_arg2)))
          transposes_S4x16384x16x3_S4x16x3x16384_0_2_3_1 := by
    dsimp only [V1, W1, nbrK]
    after_results
  exact (congrFun e _).trans (transpose_apply _ _ _ _ _ fun x => match x with | ⟨0, _⟩ => rfl | ⟨1, _⟩ => rfl | ⟨2, _⟩ => rfl | ⟨3, _⟩ => rfl)

/-- The distances, transposed to [4,16,16384]. -/
theorem V1_v9 (b : Fin 4) (k : Fin 16) (n : Fin 16384) : V1 m ρ c main_v9 (ix3 b k n) = m ((c : Thread nD τ).loc main_arg3) (ix3 b n k) := by
  have e : (V1 m ρ c main_v9 : S4x16x16384.Idx → EReal)
      = transpose S4x16x16384 [0, 2, 1] (m ((c : Thread nD τ).loc main_arg3)) transposes_S4x16384x16_S4x16x16384_0_2_1 := by
    dsimp only [V1, W1]
    after_results
  exact (congrFun e _).trans (transpose_ix3_021_apply _ _ b k n)

/-- An array [4,16,16384,1] read with its unit axis dropped. -/
theorem dropUnit_apply (x : Vec Ideal S4x16x16384x1 .f32) (b : Fin 4) (d : Fin 16) (n : Fin 16384) :
    shapeCast S4x16x16384 x shapeCasts_S4x16x16384x1_S4x16x16384 (ix3 b d n) = x (ix4 b d n 0) := by
  refine shapeCast_apply _ _ _ _ ?_
  rw [Shape.rowMajor_val_four, Shape.rowMajor_val_three]
  show ((b.val * 16 + d.val) * 16384 + n.val) * 1 + 0 = (b.val * 16 + d.val) * 16384 + n.val
  omega

/-- The features [4,16,16384,1] with the unit axis dropped. -/
theorem V1_v10 (b : Fin 4) (d : Fin 16) (n : Fin 16384) : V1 m ρ c main_v10 (ix3 b d n) = m ((c : Thread nD τ).loc main_arg1) (ix4 b d n 0) := by
  have e : (V1 m ρ c main_v10 : S4x16x16384.Idx → EReal)
      = shapeCast S4x16x16384 (m ((c : Thread nD τ).loc main_arg1)) shapeCasts_S4x16x16384x1_S4x16x16384 := by
    dsimp only [V1, W1]
    after_results
    rfl
  exact (congrFun e _).trans (dropUnit_apply _ b d n)

/-- A vector [16] read as a column [16,1]. -/
theorem col_apply (x : Vec Ideal S16 .f32) (d : Fin 16) :
    shapeCast S16x1 x shapeCasts_S16_S16x1 (ix2 d 0) = x (ix1 d) := by
  refine shapeCast_apply _ _ _ _ ?_
  rw [Shape.rowMajor_val_one, Shape.rowMajor_val_two]
  show d.val = d.val * 1 + 0
  omega

theorem V1_v11 (d : Fin 16) : V1 m ρ c main_v11 (ix2 d 0) = m ((c : Thread nD τ).loc main_arg5) (ix1 d) := by
  have e : (V1 m ρ c main_v11 : S16x1.Idx → EReal) = shapeCast S16x1 (m ((c : Thread nD τ).loc main_arg5)) shapeCasts_S16_S16x1 := by
    dsimp only [V1, W1]
    after_results
    rfl
  exact (congrFun e _).trans (col_apply _ d)
theorem V1_v12 (d : Fin 16) : V1 m ρ c main_v12 (ix2 d 0) = m ((c : Thread nD τ).loc main_arg6) (ix1 d) := by
  have e : (V1 m ρ c main_v12 : S16x1.Idx → EReal) = shapeCast S16x1 (m ((c : Thread nD τ).loc main_arg6)) shapeCasts_S16_S16x1 := by
    dsimp only [V1, W1]
    after_results
    rfl
  exact (congrFun e _).trans (col_apply _ d)
theorem V1_v13 (d : Fin 16) : V1 m ρ c main_v13 (ix2 d 0) = m ((c : Thread nD τ).loc main_arg7) (ix1 d) := by
  have e : (V1 m ρ c main_v13 : S16x1.Idx → EReal) = shapeCast S16x1 (m ((c : Thread nD τ).loc main_arg7)) shapeCasts_S16_S16x1 := by
    dsimp only [V1, W1]
    after_results
    rfl
  exact (congrFun e _).trans (col_apply _ d)

/-! ### Between the two kernels: the eight arrays both kernels read are left as they were -/

/-- The references the host operations between the two kernels write. -/
abbrev midWrites : List (Ref sig .tc) :=
  [main_cst, main_v15, main_cst_1, main_v16, main_cst_2, main_v17, main_v18, main_cst_3, main_v19, main_v20, main_v21, main_v22]

theorem hostOps1_writes :
    (hostOps1 : List (HloOp τ sig (Elt Ideal))).Forall fun op => op.writes ⊆ (midWrites.map (Proc.devRef (τ := τ) .tc)).toFinset := by
  simp only [hostOps1, List.Forall, StableHlo.nullary_writes, StableHlo.unary_writes, StableHlo.binary_writes,
    Finset.singleton_subset_iff, List.mem_toFinset]
  repeat' apply And.intro
  all_goals exact List.mem_map_of_mem (by decide)

/-- A buffer none of them writes holds after them what it held before. -/
theorem W3_of_not_written (r : Ref sig .tc) (hr : r ∉ midWrites) :
    W3 m ρ c (Proc.devRef .tc r) = W2 m ρ c (Proc.devRef .tc r) :=
  StableHlo.after_of_writes_sub hostOps1 _ hostOps1_writes hr

/-- the eight arrays the second kernel shares with the first, or that no operation in between writes -/
theorem V3_keep (b : Ref sig .tc) (hb : b = main_v8 ∨ b = main_v7 ∨ b = main_v9 ∨ b = main_v10 ∨ b = main_arg4 ∨ b = main_v11 ∨ b = main_v12 ∨ b = main_v13) :
    V3 m ρ c b = V1 m ρ c b := by
  rcases hb with rfl | rfl | rfl | rfl | rfl | rfl | rfl | rfl
  · exact (W3_of_not_written m ρ c main_v8 (by decide)).trans
      ((W2_arr m ρ c 0).trans (((dat0 (V1 m ρ) c).arrAt_in 0 rfl _).trans (A_eq0 (V1 m ρ) c 0)))
  · exact (W3_of_not_written m ρ c main_v7 (by decide)).trans
      ((W2_arr m ρ c 1).trans (((dat0 (V1 m ρ) c).arrAt_in 1 rfl _).trans (A_eq0 (V1 m ρ) c 1)))
  · exact (W3_of_not_written m ρ c main_v9 (by decide)).trans
      ((W2_arr m ρ c 2).trans (((dat0 (V1 m ρ) c).arrAt_in 2 rfl _).trans (A_eq0 (V1 m ρ) c 2)))
  · exact (W3_of_not_written m ρ c main_v10 (by decide)).trans (W2_of_ne m ρ c main_v10 (by decide))
  · exact (W3_of_not_written m ρ c main_arg4 (by decide)).trans
      ((W2_arr m ρ c 3).trans (((dat0 (V1 m ρ) c).arrAt_in 3 rfl _).trans (A_eq0 (V1 m ρ) c 3)))
  · exact (W3_of_not_written m ρ c main_v11 (by decide)).trans
      ((W2_arr m ρ c 4).trans (((dat0 (V1 m ρ) c).arrAt_in 4 rfl _).trans (A_eq0 (V1 m ρ) c 4)))
  · exact (W3_of_not_written m ρ c main_v12 (by decide)).trans (W2_of_ne m ρ c main_v12 (by decide))
  · exact (W3_of_not_written m ρ c main_v13 (by decide)).trans (W2_of_ne m ρ c main_v13 (by decide))

/-! ### Between the two kernels: the mean and the variance from the first kernel's two sums -/

/-- Summing a [4,16,1] array over its first axis from zero, read at a column entry. -/
theorem reduce0_apply (x : FVec Ideal S4x16x1 .f32) (d : Fin 16) :
    Host.reduceAdd (F := Ideal) x (constant (F := Ideal) S_ .f32 0x00000000#32) reducesTo_S4x16x1_S16x1_d0 h_S_ (ix2 d 0)
      = ∑ b : Fin 4, x (ix3 b d 0) := by
  have hR : S4x16x1.Reduces [0] S16x1 := by decide
  refine (hostReduceAdd_apply x _ _ _ _).trans ?_
  refine (Ideal.hostReduceAdd_single reducesTo_S4x16x1_S16x1_d0 hR x _ _).trans ?_
  rw [show (constant (F := Ideal) S_ .f32 0x00000000#32 (Shape.Idx.first h_S_)) = Ideal.ofBits .f32 0x00000000#32 from rfl,
    Ideal.ofBits_zero_f32, zero_add]
  refine Finset.sum_congr rfl fun k _ => congrArg x ?_
  funext a
  match a with
  | ⟨0, _⟩ => rfl
  | ⟨1, _⟩ => rfl
  | ⟨2, _⟩ => rfl

/-- A per-batch sum [4,16,1] totalled over the batches and divided by the number of (batch, point, neighbour) triples. -/
def avgK (x : FVec Ideal S4x16x1 .f32) : FVec Ideal S16x1 .f32 :=
  Host.divf (F := Ideal)
    (Host.reduceAdd (F := Ideal) x (constant (F := Ideal) S_ .f32 0x00000000#32) reducesTo_S4x16x1_S16x1_d0 h_S_)
    (broadcastInDim S16x1 ![] bcast_S_S16x1 (constant (F := Ideal) S_ .f32 0x49800000#32))

theorem avgK_apply (x : FVec Ideal S4x16x1 .f32) (d : Fin 16) :
    avgK x (ix2 d 0) = Ideal.div (∑ b : Fin 4, x (ix3 b d 0)) cnt := by
  unfold avgK
  refine (hostDivf_apply _ _ _).trans (congrArg₂ Ideal.div (reduce0_apply x d) ?_)
  rfl

theorem W2_sum : (W2 m ρ c (Proc.devRef .tc main_v14_0) : S4x16x1.Idx → EReal) = (dat0 (F := Ideal) (V1 m ρ) c).arrAt 5 cfg0.N :=
  W2_arr m ρ c 5
theorem W2_sq : (W2 m ρ c (Proc.devRef .tc main_v14_1) : S4x16x1.Idx → EReal) = (dat0 (F := Ideal) (V1 m ρ) c).arrAt 6 cfg0.N :=
  W2_arr m ρ c 6

theorem V3_v18 (d : Fin 16) :
    V3 m ρ c main_v18 (ix2 d 0) = Ideal.div (∑ b : Fin 4, (dat0 (F := Ideal) (V1 m ρ) c).arrAt 5 cfg0.N (ix3 b d 0)) cnt := by
  have e : (V3 m ρ c main_v18 : S16x1.Idx → EReal) = avgK (W2 m ρ c (Proc.devRef .tc main_v14_0)) := by
    dsimp only [V3, W3, avgK]
    after_results
  refine (congrFun e _).trans ?_
  rw [W2_sum]
  exact avgK_apply _ d

theorem V3_v22 (d : Fin 16) :
    V3 m ρ c main_v22 (ix2 d 0) = Ideal.div (∑ b : Fin 4, (dat0 (F := Ideal) (V1 m ρ) c).arrAt 6 cfg0.N (ix3 b d 0)) cnt
      - Ideal.div (∑ b : Fin 4, (dat0 (F := Ideal) (V1 m ρ) c).arrAt 5 cfg0.N (ix3 b d 0)) cnt
        * Ideal.div (∑ b : Fin 4, (dat0 (F := Ideal) (V1 m ρ) c).arrAt 5 cfg0.N (ix3 b d 0)) cnt := by
  have e : (V3 m ρ c main_v22 : S16x1.Idx → EReal)
      = (subf (avgK (W2 m ρ c (Proc.devRef .tc main_v14_1)))
          (mulf (avgK (W2 m ρ c (Proc.devRef .tc main_v14_0))) (avgK (W2 m ρ c (Proc.devRef .tc main_v14_0)))) : FVec Ideal S16x1 .f32) := by
    dsimp only [V3, W3, avgK]
    after_results
  refine (congrFun e _).trans ?_
  rw [W2_sum, W2_sq]
  refine (subf_apply _ _ _).trans ?_
  rw [mulf_apply, avgK_apply, avgK_apply]

/-! ### After the second kernel: its result [4,32,262144] read as [4,32,16384,16] -/

/-- Position `p = 16 n + k` of a row is neighbour `k` of point `n`. -/
theorem split_apply (x : Vec Ideal S4x32x262144 .f32) (b : Fin 4) (ch : Fin 32) (n : Fin 16384) (k : Fin 16) :
    shapeCast S4x32x16384x16 x shapeCasts_S4x32x262144_S4x32x16384x16 (ix4 b ch n k)
      = x (ix3 b ch ⟨n.val * 16 + k.val, by omega⟩) := by
  refine shapeCast_apply _ _ _ _ ?_
  rw [Shape.rowMajor_val_three, Shape.rowMajor_val_four]
  show (b.val * 32 + ch.val) * 262144 + (n.val * 16 + k.val) = ((b.val * 32 + ch.val) * 16384 + n.val) * 16 + k.val
  omega

theorem W5_v24 (b : Fin 4) (ch : Fin 32) (n : Fin 16384) (k : Fin 16) :
    W5 m ρ c (Proc.devRef .tc main_v24) (ix4 b ch n k)
      = (dat1 (F := Ideal) (V3 m ρ) c).arrAt 10 cfg1.N (ix3 b ch ⟨n.val * 16 + k.val, by omega⟩) := by
  have e : (W5 m ρ c (Proc.devRef .tc main_v24) : S4x32x16384x16.Idx → EReal)
      = shapeCast S4x32x16384x16 (W4 m ρ c (Proc.devRef .tc main_v23)) shapeCasts_S4x32x262144_S4x32x16384x16 := by
    dsimp only [W5]
    after_results
    rfl
  have hW : (W4 m ρ c (Proc.devRef .tc main_v23) : S4x32x262144.Idx → EReal) = (dat1 (F := Ideal) (V3 m ρ) c).arrAt 10 cfg1.N :=
    W4_arr m ρ c 10
  refine (congrFun e _).trans ?_
  rw [hW]
  exact split_apply _ b ch n k

end

end Cert.KernelIdeal.HostSide

end
-- ==== Proof.Algebra.lean ====
/-
  Sums and variances of the specification, over the extended reals.

  * A channel's total is the sum over the four batches of the per-batch totals taken tile by tile
    (16 tiles of 1024 points): the map (tile, point of the tile) ↦ 1024·tile + point is a bijection onto
    the 16384 points.
  * On real-valued data the moment form of the variance, E[x²] − mean², equals the centred form,
    the mean of the squared deviations.
  * The convolution of real-valued inputs is real-valued.
-/
import proofs.«107703_j12592844112371_2_alg».proof.Proof.Spec
import Idealize.ShloMosaic.PureOps.Ideal
import Idealize.ShloMosaic.PureOps.Ideal.Laws
import Idealize.ShloMosaic.Lib.ValueIdx
import Mathlib

noncomputable section

open scoped BigOperators

namespace Cert.Algebra

open Idealize.ShloMosaic Idealize.ShloMosaic.ValueIdx Cert.Spec

/-! ### Tiles -/

/-- Summing over 16 tiles of 1024 points is summing over the 16384 points. -/
theorem sum_tile_point {M : Type*} [AddCommMonoid M] (g : Fin 16384 → M) :
    ∑ nt : Fin 16, ∑ l : Fin 1024, g ⟨nt.val * 1024 + l.val, by omega⟩ = ∑ n : Fin 16384, g n := by
  rw [← Fintype.sum_prod_type' (f := fun (nt : Fin 16) (l : Fin 1024) => g ⟨nt.val * 1024 + l.val, by omega⟩)]
  refine Fintype.sum_equiv (finProdFinEquiv (m := 16) (n := 1024)) _ _ (fun x => ?_)
  refine congrArg g (Fin.ext ?_)
  show x.1.val * 1024 + x.2.val = x.2.val + 1024 * x.1.val
  omega

/-- A channel's total is the sum over the batches of the per-batch totals taken tile by tile. -/
theorem sum_tiles (Y : Fin 4 → Fin 16 → Fin 16384 → Fin 16 → EReal) (d : Fin 16) :
    ∑ b : Fin 4, sumArr Y (ix3 b d 0) = tot Y d := by
  unfold tot
  refine Finset.sum_congr rfl (fun b _ => ?_)
  show ∑ nt : Fin 16, ∑ k : Fin 16, ∑ l : Fin 1024, Y b d ⟨nt.val * 1024 + l.val, by omega⟩ k
      = ∑ n : Fin 16384, ∑ k : Fin 16, Y b d n k
  rw [← sum_tile_point (fun n => ∑ k : Fin 16, Y b d n k)]
  refine Finset.sum_congr rfl (fun nt _ => ?_)
  exact Finset.sum_comm

/-! ### Real-valued data -/

/-- The coercion of the reals into the extended reals commutes with finite sums. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A triple sum over batches, points and neighbours as one sum over the triples. -/
theorem sum3 {M : Type*} [AddCommMonoid M] (F : Fin 4 → Fin 16384 → Fin 16 → M) :
    ∑ b : Fin 4, ∑ n : Fin 16384, ∑ k : Fin 16, F b n k
      = ∑ i : Fin 4 × Fin 16384 × Fin 16, F i.1 i.2.1 i.2.2 := by
  rw [Fintype.sum_prod_type]
  refine Finset.sum_congr rfl (fun b _ => ?_)
  exact (Fintype.sum_prod_type (fun x : Fin 16384 × Fin 16 => F b x.1 x.2)).symm

/-- There are 4·16384·16 = 2²⁰ triples. -/
theorem card_triples : (Fintype.card (Fin 4 × Fin 16384 × Fin 16) : ℝ) = 1048576 := by
  rw [Fintype.card_prod, Fintype.card_prod, Fintype.card_fin, Fintype.card_fin, Fintype.card_fin]
  norm_num

/-- The count both programs divide by is the real number 2²⁰. -/
theorem cnt_eq : cnt = ((1048576 : ℝ) : EReal) := by
  simp [cnt, Ideal.ofBits, Ideal.ieee, -EReal.coe_mul]; norm_num

/-- Dividing a real by the count. -/
theorem div_cnt (x : ℝ) : Ideal.div (x : EReal) cnt = ((x * (1 / 1048576) : ℝ) : EReal) := by
  rw [cnt_eq, Ideal.div_coe (by norm_num), ← EReal.coe_mul]

/-- A total depends only on the channel's entries. -/
theorem tot_congr {Y Y' : Fin 4 → Fin 16 → Fin 16384 → Fin 16 → EReal} {d : Fin 16}
    (h : ∀ b n k, Y b d n k = Y' b d n k) : tot Y d = tot Y' d := by
  unfold tot
  exact Finset.sum_congr rfl (fun b _ => Finset.sum_congr rfl (fun n _ => Finset.sum_congr rfl (fun k _ => h b n k)))

/-- The total of real-valued data is the real total. -/
theorem tot_coe (z : Fin 4 → Fin 16 → Fin 16384 → Fin 16 → ℝ) (d : Fin 16) :
    tot (fun b d n k => (z b d n k : EReal)) d
      = ((∑ i : Fin 4 × Fin 16384 × Fin 16, z i.1 d i.2.1 i.2.2 : ℝ) : EReal) := by
  unfold tot
  rw [sum3 (fun b n k => (z b d n k : EReal)), coe_sum]

/-- The mean of real-valued data is the real mean. -/
theorem mean_coe (z : Fin 4 → Fin 16 → Fin 16384 → Fin 16 → ℝ) (d : Fin 16) :
    mean (fun b d n k => (z b d n k : EReal)) d
      = (((∑ i : Fin 4 × Fin 16384 × Fin 16, z i.1 d i.2.1 i.2.2) * (1 / 1048576) : ℝ) : EReal) := by
  unfold mean
  rw [tot_coe, div_cnt]

/-- Over a finite index set of `N` elements: the mean of the squares less the squared mean is the mean of the
    squared deviations from the mean. -/
theorem real_var {ι : Type*} [Fintype ι] (f : ι → ℝ) (N : ℝ) (hN : (Fintype.card ι : ℝ) = N) (hN0 : N ≠ 0) :
    (∑ i, f i * f i) * (1 / N) - ((∑ i, f i) * (1 / N)) * ((∑ i, f i) * (1 / N))
      = (∑ i, (f i - (∑ j, f j) * (1 / N)) * (f i - (∑ j, f j) * (1 / N))) * (1 / N) := by
  have h : ∀ μ : ℝ, ∑ i, (f i - μ) * (f i - μ) = (∑ i, f i * f i) - 2 * μ * (∑ i, f i) + N * (μ * μ) := by
    intro μ
    have e : ∀ i, (f i - μ) * (f i - μ) = f i * f i - 2 * μ * f i + μ * μ := fun i => by ring
    rw [Finset.sum_congr rfl (fun i _ => e i), Finset.sum_add_distrib, Finset.sum_sub_distrib, ← Finset.mul_sum,
      Finset.sum_const, Finset.card_univ, nsmul_eq_mul, hN]
  rw [h]
  field_simp
  ring

/-- On real-valued data the moment form of the variance equals the centred form. -/
theorem varM_eq_varC (Y : Fin 4 → Fin 16 → Fin 16384 → Fin 16 → EReal)
    (hY : ∀ b d n k, ∃ r : ℝ, Y b d n k = (r : EReal)) (d : Fin 16) : varM Y d = varC Y d := by
  choose y hy using hY
  obtain rfl : Y = fun b d n k => (y b d n k : EReal) := by
    funext b d n k; exact hy b d n k
  have hsq : tot (fun b d n k => (y b d n k : EReal) * (y b d n k : EReal)) d
      = tot (fun b d n k => ((y b d n k * y b d n k : ℝ) : EReal)) d :=
    tot_congr (fun b n k => (EReal.coe_mul _ _).symm)
  have hdev : tot (fun b d n k => ((y b d n k : EReal) - mean (fun b d n k => (y b d n k : EReal)) d)
        * ((y b d n k : EReal) - mean (fun b d n k => (y b d n k : EReal)) d)) d
      = tot (fun b d n k =>
          (((y b d n k - (∑ i : Fin 4 × Fin 16384 × Fin 16, y i.1 d i.2.1 i.2.2) * (1 / 1048576))
            * (y b d n k - (∑ i : Fin 4 × Fin 16384 × Fin 16, y i.1 d i.2.1 i.2.2) * (1 / 1048576)) : ℝ) : EReal)) d :=
    tot_congr (fun b n k => by rw [mean_coe, ← EReal.coe_sub, ← EReal.coe_mul])
  unfold varM varC
  rw [hsq, hdev, tot_coe, tot_coe, div_cnt, div_cnt, mean_coe, ← EReal.coe_mul, ← EReal.coe_sub]
  exact congrArg _ (real_var (fun i : Fin 4 × Fin 16384 × Fin 16 => y i.1 d i.2.1 i.2.2) 1048576 card_triples
    (by norm_num))

/-! ### The convolution of real inputs is real -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_sum {α : Type*} (s : Finset α) (f : α → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

theorem feat10_real {ce nb : Fin 3 → EReal} {di : EReal} (hce : ∀ c, ∃ r : ℝ, ce c = (r : EReal))
    (hnb : ∀ c, ∃ r : ℝ, nb c = (r : EReal)) (hdi : ∃ r : ℝ, di = (r : EReal)) (c : Fin 10) :
    ∃ r : ℝ, feat10 ce nb di c = (r : EReal) := by
  unfold feat10
  split_ifs
  · exact hce _
  · exact hnb _
  · exact real_sub (hce _) (hnb _)
  · exact hdi

theorem conv_real {w f : Fin 10 → EReal} {bias : EReal} (hw : ∀ c, ∃ r : ℝ, w c = (r : EReal))
    (hf : ∀ c, ∃ r : ℝ, f c = (r : EReal)) (hb : ∃ r : ℝ, bias = (r : EReal)) :
    ∃ r : ℝ, conv w bias f = (r : EReal) := by
  unfold conv
  exact real_add (real_sum _ _ (fun c => real_mul (hw c) (hf c))) hb

/-- The convolution of real-valued coordinates, distances, weights and bias is real-valued. -/
theorem X_real (co : (⟨3, ![4, 16384, 3]⟩ : Shape).Idx → EReal) (nb : (⟨4, ![4, 16384, 16, 3]⟩ : Shape).Idx → EReal)
    (di : (⟨3, ![4, 16384, 16]⟩ : Shape).Idx → EReal) (w : (⟨2, ![16, 10]⟩ : Shape).Idx → EReal)
    (bi : (⟨1, ![16]⟩ : Shape).Idx → EReal)
    (hco : ∀ i, ∃ r : ℝ, co i = (r : EReal)) (hnb : ∀ i, ∃ r : ℝ, nb i = (r : EReal)) (hdi : ∀ i, ∃ r : ℝ, di i = (r : EReal))
    (hw : ∀ i, ∃ r : ℝ, w i = (r : EReal)) (hbi : ∀ i, ∃ r : ℝ, bi i = (r : EReal)) :
    ∀ b d n k, ∃ r : ℝ, X co nb di w bi b d n k = (r : EReal) := by
  intro b d n k
  unfold X
  exact conv_real (fun c => hw _) (feat10_real (fun c => hco _) (fun c => hnb _) (hdi _)) (hbi _)

end Cert.Algebra

end
-- ==== Proof.Bridge.lean ====
/-
  The kernel program's result, entry by entry, as the specification's `Out`.

  The program's five segments compose: the host operations before the first kernel lay the coordinates, the gathered
  neighbour coordinates, the distances and the features out channel-major (so the convolution from those arrays is the
  convolution from the arguments, `Xcm1_eq`); the first kernel leaves each channel's per-batch totals of the convolution
  and of its square; the host operations between the kernels turn them into the channel's mean and the moment form of
  its variance (`mean_eq`, `var_eq`: the per-batch, per-tile sums regroup into the total over all points and
  neighbours); the second kernel writes the normalised, clamped convolution beside the features with neighbour `k` of
  point `n` at position `16 n + k`, and the final reshape splits that position back into (n, k) (`kernel_value`).
-/
import proofs.«107703_j12592844112371_2_alg».proof.Proof.StatsBody
import proofs.«107703_j12592844112371_2_alg».proof.Proof.StatsArr
import proofs.«107703_j12592844112371_2_alg».proof.Proof.MainBody
import proofs.«107703_j12592844112371_2_alg».proof.Proof.MainArr
import proofs.«107703_j12592844112371_2_alg».proof.Proof.HostSide
import proofs.«107703_j12592844112371_2_alg».proof.Proof.Algebra

set_option maxRecDepth 16384

noncomputable section

open scoped BigOperators
open Idealize.ShloMosaic Idealize.ShloMosaic.TcCoe Idealize.ShloMosaic.ValueIdx Idealize.SL.Sem

namespace Cert.Bridge

open Cert.Spec Cert.KernelIdeal Cert.KernelIdeal.Gen Cert.KernelIdeal.HostSide

/-- The first kernel's array of per-batch totals, with the per-point facts supplied. -/
theorem stats_sum (V : (c : Dev nD) → (b : Ref sig .tc) → Buf (Elt Ideal) ((c : Thread nD τ).loc b)) (c : Dev nD) :
    (dat0 (F := Ideal) V c).arrAt 5 cfg0.N = sumArr (Xcm (V c main_v8) (V c main_v7) (V c main_v9) (V c main_arg4) (V c main_v11)) :=
  StatsArr.stats_sum StatsBody.caseA_5 StatsBody.caseA_6 StatsBody.caseB_5 StatsBody.caseB_6 V c

/-- … and of per-batch totals of squares. -/
theorem stats_sq (V : (c : Dev nD) → (b : Ref sig .tc) → Buf (Elt Ideal) ((c : Thread nD τ).loc b)) (c : Dev nD) :
    (dat0 (F := Ideal) V c).arrAt 6 cfg0.N
      = sumArr (fun b d n k => Xcm (V c main_v8) (V c main_v7) (V c main_v9) (V c main_arg4) (V c main_v11) b d n k
          * Xcm (V c main_v8) (V c main_v7) (V c main_v9) (V c main_arg4) (V c main_v11) b d n k) :=
  StatsArr.stats_sq StatsBody.caseA_5 StatsBody.caseA_6 StatsBody.caseB_5 StatsBody.caseB_6 V c

/-- The second kernel's result array, with the per-point fact supplied. -/
theorem main_arr (V : (c : Dev nD) → (b : Ref sig .tc) → Buf (Elt Ideal) ((c : Thread nD τ).loc b)) (c : Dev nD) :
    (dat1 (F := Ideal) V c).arrAt 10 cfg1.N
      = outArr (Xcm (V c main_v8) (V c main_v7) (V c main_v9) (V c main_arg4) (V c main_v11)) (V c main_v18) (V c main_v22) (V c main_v12) (V c main_v13) (V c main_v10) :=
  MainArr.main_arr MainBody.main_block V c

section
variable (m : (ℓ : Loc nD τ sig) → Buf (Elt Ideal) ℓ) (ρ : Dev nD → PrngReg) (c : Dev nD)

/-- The convolution from the channel-major arrays the kernels are handed is the convolution from the arguments. -/
theorem Xcm1_eq :
    Xcm (V1 m ρ c main_v8) (V1 m ρ c main_v7) (V1 m ρ c main_v9) (V1 m ρ c main_arg4) (V1 m ρ c main_v11)
      = X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5)) := by
  funext b d n k
  unfold Xcm X
  rw [V1_arg4 m ρ c, V1_v11 m ρ c d, V1_v9 m ρ c b k n]
  simp only [V1_v8 m ρ c, V1_v7 m ρ c]

theorem Xcm3_eq :
    Xcm (V3 m ρ c main_v8) (V3 m ρ c main_v7) (V3 m ρ c main_v9) (V3 m ρ c main_arg4) (V3 m ρ c main_v11)
      = X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5)) := by
  rw [V3_keep m ρ c main_v8 (Or.inl rfl), V3_keep m ρ c main_v7 (Or.inr (Or.inl rfl)), V3_keep m ρ c main_v9 (Or.inr (Or.inr (Or.inl rfl))),
    V3_keep m ρ c main_arg4 (Or.inr (Or.inr (Or.inr (Or.inr (Or.inl rfl))))), V3_keep m ρ c main_v11 (Or.inr (Or.inr (Or.inr (Or.inr (Or.inr (Or.inl rfl))))))]
  exact Xcm1_eq m ρ c

/-- The mean the host operations between the two kernels compute is the channel's mean. -/
theorem mean_eq (d : Fin 16) : V3 m ρ c main_v18 (ix2 d 0) = mean (X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5))) d := by
  rw [V3_v18 m ρ c d, stats_sum (V1 m ρ) c, Xcm1_eq m ρ c, Cert.Algebra.sum_tiles]
  rfl

/-- … and the variance they compute is the moment form. -/
theorem var_eq (d : Fin 16) : V3 m ρ c main_v22 (ix2 d 0) = varM (X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5))) d := by
  rw [V3_v22 m ρ c d, stats_sum (V1 m ρ) c, stats_sq (V1 m ρ) c, Xcm1_eq m ρ c, Cert.Algebra.sum_tiles, Cert.Algebra.sum_tiles]
  rfl

/-- The kernel program's result, entry by entry, with the variance in the moment form. -/
theorem kernel_value (b : Fin 4) (ch : Fin 32) (n : Fin 16384) (k : Fin 16) :
    W5 m ρ c (Proc.devRef .tc main_v24) (ix4 b ch n k)
      = Out (X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5))) (mean (X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5)))) (varM (X (m ((c : Thread nD τ).loc main_arg0)) (nbrK (m ((c : Thread nD τ).loc main_arg0)) (m ((c : Thread nD τ).loc main_arg2))) (m ((c : Thread nD τ).loc main_arg3)) (m ((c : Thread nD τ).loc main_arg4)) (m ((c : Thread nD τ).loc main_arg5)))) (m ((c : Thread nD τ).loc main_arg6)) (m ((c : Thread nD τ).loc main_arg7)) (m ((c : Thread nD τ).loc main_arg1)) b ch n k := by
  rw [W5_v24 m ρ c b ch n k, main_arr (V3 m ρ) c, Xcm3_eq m ρ c]
  have hn : (⟨(n.val * 16 + k.val) / 16, by omega⟩ : Fin 16384) = n := Fin.ext (by simp only; omega)
  have hk : (⟨(n.val * 16 + k.val) % 16, Nat.mod_lt _ (by norm_num)⟩ : Fin 16) = k := Fin.ext (by simp only; omega)
  show outArrAt _ _ _ _ _ _ b ch ⟨n.val * 16 + k.val, _⟩ = _
  unfold outArrAt Out
  by_cases h : ch.val < 16
  · rw [dif_pos h, dif_pos h]
    simp only [hn, hk]
    rw [mean_eq m ρ c ⟨ch.val, h⟩, var_eq m ρ c ⟨ch.val, h⟩,
      V3_keep m ρ c main_v12 (Or.inr (Or.inr (Or.inr (Or.inr (Or.inr (Or.inr (Or.inl rfl))))))), V3_keep m ρ c main_v13 (Or.inr (Or.inr (Or.inr (Or.inr (Or.inr (Or.inr (Or.inr rfl))))))),
      V1_v12 m ρ c ⟨ch.val, h⟩, V1_v13 m ρ c ⟨ch.val, h⟩]
  · rw [dif_neg h, dif_neg h]
    simp only [hn]
    rw [V3_keep m ρ c main_v10 (Or.inr (Or.inr (Or.inr (Or.inl rfl)))), V1_v10 m ρ c b]

end
end Cert.Bridge
end
-- ==== Proof.RefValue.lean ====
/-
  The reference program's result, entry by entry, is the specification's `Out`: channels 0–15 the convolution of the ten
  features, normalised by its mean and centred variance over all batches, points and neighbours, scaled, shifted and
  clamped below at zero; channels 16–31 the point's input features. First the fold of the program's 53 host operations
  at the result buffer is the last stage of the staged reading (`fold_eq`); then that stage is read at an index
  (`v43_apply'`): the two concatenations piece by piece, the contraction as the sum over the ten features, the two
  reductions over batch, point and neighbour as triple sums (`reduce_d023`), the broadcasts through their index maps.
-/
import proofs.«107703_j12592844112371_2_alg».proof.Proof.RefRead
import proofs.«107703_j12592844112371_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.Spec
open Idealize.ShloMosaic Idealize.ShloMosaic.TcCoe Idealize.ShloMosaic.ValueIdx Idealize.SL.Sem Idealize.ShloMosaic.StableHlo

/-! ## The fold of the 53 operations -/

set_option maxHeartbeats 2000000 in
/-- The fold of the 53 operations over the launch contents, read at the result buffer, is the last stage of the staged
    reading: `val_main_v43` of the eight arguments' launch contents. (The three operations of the inlined clamp carry
    their values through casts along a type equation that is `rfl`; with those removed each operation's result is
    rewritten in one pass.) -/
theorem fold_eq (m : (ℓ : Loc nD τ sig) → Buf (Elt Ideal) ℓ) (c : Dev nD) :
    after (ValueP.ops (F := Ideal)) (launchContents m c) (Proc.devRef .tc main_v43)
      = ReadP.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold ValueP.ops
  simp only [TRef.binary, TRef.unary, TRef.nullary, TRef.of, TRef.toBuf, TRef.ofBuf, cast_eq]
  after_results_simp
  rfl

/-! ## The stages read at an index -/

/-- the neighbours' coordinates, as the reference's host operations gather them -/
def nbrR (co : Vec Ideal S4x16384x3 .f32) (idx : Vec Ideal S4x16384x16 .i32) : Vec Ideal S4x16384x16x3 .f32 :=
  Host.gather gather_S4x16384x3_S4x16384x16x1_S4x16384x16x3_3_1_0_0_1_3_113 co
    (broadcastInDim S4x16384x16x1 ![0, 1, 2] Facts₀.bcast_S4x16384x16_S4x16384x16x1_0_1_2
      (select (cmpi .slt idx (broadcastInDim S4x16384x16 ![] Facts₀.bcast_S_S4x16384x16 (constantI S_ 32 0#32)))
        (addi idx (broadcastInDim S4x16384x16 ![] Facts₀.bcast_S_S4x16384x16 (constantI S_ 32 16384#32))) idx))

section Read
variable (x0 : Vec Ideal S4x16384x3 .f32) (x1 : Vec Ideal S4x16x16384x1 .f32) (x2 : Vec Ideal S4x16384x16 .i32)
  (x3 : Vec Ideal S4x16384x16 .f32) (x4 : Vec Ideal S16x10 .f32) (x5 x6 x7 : Vec Ideal S16 .f32)

/-- The gather's stage is `nbrR`: the same operations on the same operands. -/
theorem v6_eq : ReadP.val_main_v6 (F := Ideal) x0 x2 = nbrR x0 x2 := rfl

/-! ### The index maps of the layout operations, at coordinates -/

theorem idx_v7_v8 (b : Fin 4) (n : Fin 16384) (k : Fin 16) (a : Fin 3) :
    ReadP.idx_main_v7 (ReadP.idx_main_v8 (ix4 b n k a)) = ix3 b n a := by
  funext e; match e with | ⟨0, _⟩ => rfl | ⟨1, _⟩ => rfl | ⟨2, _⟩ => rfl

theorem idx_v10 (b : Fin 4) (n : Fin 16384) (k : Fin 16) (z : Fin 1) :
    ReadP.idx_main_v10 (ix4 b n k z) = ix3 b n k := by
  funext e; match e with | ⟨0, _⟩ => rfl | ⟨1, _⟩ => rfl | ⟨2, _⟩ => rfl

theorem lidx_v12 (b : Fin 4) (d : Fin 16) (n : Fin 16384) (k : Fin 16) (c : Fin 10) :
    ReadP.lidx_main_v12 (ReadP.idx_main_v13 (ix4 b d n k)) c = ix2 d c := by
  funext e; match e with | ⟨0, _⟩ => rfl | ⟨1, _⟩ => rfl

theorem ridx_v12 (b : Fin 4) (d : Fin 16) (n : Fin 16384) (k : Fin 16) (c : Fin 10) :
    ReadP.ridx_main_v12 (ReadP.idx_main_v13 (ix4 b d n k)) c = ix4 b n k c := by
  funext e; match e with | ⟨0, _⟩ => rfl | ⟨1, _⟩ => rfl | ⟨2, _⟩ => rfl | ⟨3, _⟩ => rfl

theorem idx_v14_v15 (b : Fin 4) (d : Fin 16) (n : Fin 16384) (k : Fin 16) :
    ReadP.idx_main_v14 (ReadP.idx_main_v15 (ix4 b d n k)) = ix1 d := by
  funext e; match e with | ⟨0, _⟩ => rfl

/-! ### The ten features: the four-piece concatenation at an index -/

theorem v8_apply' (b : Fin 4) (n : Fin 16384) (k : Fin 16) (a : Fin 3) :
    ReadP.val_main_v8 (F := Ideal) x0 (ix4 b n k a) = x0 (ix3 b n a) := by
  rw [ReadP.val_main_v8_apply, ReadP.val_main_v7_apply, idx_v7_v8]

theorem v11_apply' (b : Fin 4) (n : Fin 16384) (k : Fin 16) (c : Fin 10) :
    ReadP.val_main_v11 (F := Ideal) x0 x2 x3 (ix4 b n k c)
      = feat10 (fun a => x0 (ix3 b n a)) (fun a => nbrR x0 x2 (ix4 b n k a)) (x3 (ix3 b n k)) c := by
  unfold ReadP.val_main_v11 feat10
  by_cases h3 : c.val < 3
  · rw [dif_pos h3]
    refine (concatenate_apply_piece (3 : Fin S4x16384x16x10.rank) _ _ (ix4 b n k c) 0 (by show (0 : ℕ) < 4; omega) S4x16384x16x3
      (ReadP.val_main_v8 (F := Ideal) x0) rfl rfl 0 rfl (ix4 b n k ⟨c.val, h3⟩) ?_ ?_).trans (v8_apply' x0 b n k _)
    · intro e he
      match e with
      | ⟨0, _⟩ => rfl
      | ⟨1, _⟩ => rfl
      | ⟨2, _⟩ => rfl
      | ⟨3, _⟩ => exact absurd rfl he
    · exact Nat.zero_add _
  · rw [dif_neg h3]
    by_cases h6 : c.val < 6
    · rw [dif_pos h6]
      refine (concatenate_apply_piece (3 : Fin S4x16384x16x10.rank) _ _ (ix4 b n k c) 1 (by show (1 : ℕ) < 4; omega) S4x16384x16x3
        (ReadP.val_main_v6 (F := Ideal) x0 x2) rfl rfl 3 rfl (ix4 b n k ⟨c.val - 3, by omega⟩) ?_ ?_).trans rfl
      · intro e he
        match e with
        | ⟨0, _⟩ => rfl
        | ⟨1, _⟩ => rfl
        | ⟨2, _⟩ => rfl
        | ⟨3, _⟩ => exact absurd rfl he
      · show 3 + (c.val - 3) = c.val
        omega
    · rw [dif_neg h6]
      by_cases h9 : c.val < 9
      · rw [dif_pos h9]
        refine (concatenate_apply_piece (3 : Fin S4x16384x16x10.rank) _ _ (ix4 b n k c) 2 (by show (2 : ℕ) < 4; omega) S4x16384x16x3
          (ReadP.val_main_v9 (F := Ideal) x0 x2) rfl rfl 6 rfl (ix4 b n k ⟨c.val - 6, by omega⟩) ?_ ?_).trans ?_
        · intro e he
          match e with
          | ⟨0, _⟩ => rfl
          | ⟨1, _⟩ => rfl
          | ⟨2, _⟩ => rfl
          | ⟨3, _⟩ => exact absurd rfl he
        · show 6 + (c.val - 6) = c.val
          omega
        · rw [ReadP.val_main_v9_apply, v8_apply']
          rfl
      · rw [dif_neg h9]
        refine (concatenate_apply_piece (3 : Fin S4x16384x16x10.rank) _ _ (ix4 b n k c) 3 (by show (3 : ℕ) < 4; omega) S4x16384x16x1
          (ReadP.val_main_v10 (F := Ideal) x3) rfl rfl 9 rfl (ix4 b n k ⟨0, Nat.one_pos⟩) ?_ ?_).trans ?_
        · intro e he
          match e with
          | ⟨0, _⟩ => rfl
          | ⟨1, _⟩ => rfl
          | ⟨2, _⟩ => rfl
          | ⟨3, _⟩ => exact absurd rfl he
        · show 9 + 0 = c.val
          have := c.isLt
          omega
        · rw [ReadP.val_main_v10_apply, idx_v10]

/-! ### The convolution -/

theorem v16_apply' (b : Fin 4) (d : Fin 16) (n : Fin 16384) (k : Fin 16) :
    ReadP.val_main_v16 (F := Ideal) x0 x2 x3 x4 x5 (ix4 b d n k) = X x0 (nbrR x0 x2) x3 x4 x5 b d n k := by
  rw [ReadP.val_main_v16_apply, ReadP.val_main_v13_apply, ReadP.val_main_v12_apply, ReadP.val_main_v15_apply,
    ReadP.val_main_v14_apply, idx_v14_v15]
  unfold X conv
  refine congrArg₂ (· + ·) (Finset.sum_congr rfl fun c _ => ?_) rfl
  rw [lidx_v12, ridx_v12, v11_apply']

/-! ### The sum over batches, points and neighbours of one channel -/

section GenericSum
variable {n0 n1 n2 n3 : Nat}

/-- A rank-4 index set is the product of its four coordinate ranges … -/
def idxEquiv4 : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] (f : (⟨4, ![n0, n1, n2, n3]⟩ : Shape).Idx → M) :
    ∑ i, f i = ∑ a : Fin n0, ∑ b : Fin n1, ∑ c : Fin n2, ∑ e : Fin n3, f (ix4 a b c e) := by
  rw [← Equiv.sum_comp (idxEquiv4 (n0 := n0) (n1 := n1) (n2 := n2) (n3 := n3)).symm f]
  simp only [Fintype.sum_prod_type]
  rfl

/-- A sum over the indices a predicate keeps, when the predicate only fixes the second coordinate at `d`: the triple sum
    over the other three coordinates. -/
theorem sum_filter_coord1 {M : Type*} [AddCommMonoid M] (f : (⟨4, ![n0, n1, n2, n3]⟩ : Shape).Idx → M)
    (P : (⟨4, ![n0, n1, n2, n3]⟩ : Shape).Idx → Prop) {inst : DecidablePred P} (d : Fin n1)
    (hP : ∀ a b c e, P (ix4 a b c e) ↔ b = d) :
    ∑ i ∈ Finset.univ.filter P, f i = ∑ a : Fin n0, ∑ c : Fin n2, ∑ e : Fin n3, f (ix4 a d c e) := by
  rw [Finset.sum_filter, sum_idx4]
  refine Finset.sum_congr rfl fun a _ => ?_
  simp only [hP]
  rw [Finset.sum_eq_single d]
  · simp only [if_true]
  · intro b _ hb
    simp only [if_neg hb, Finset.sum_const_zero]
  · intro h
    exact absurd (Finset.mem_univ d) h

end GenericSum

/-- Dropping the batch, point and neighbour coordinates leaves the channel. -/
theorem drop_eq_iff (i : S4x16x16384x16.Idx) (d : Fin 16) :
    reducesTo_S4x16x16384x16_S16_d0_2_3.drop i = ix1 d ↔ (i 1).val = d.val := by
  constructor
  · intro h
    have h0 := congrArg (fun j : S16.Idx => (j 0).val) h
    exact (Shape.ReducesTo.drop_apply_val_of_eq reducesTo_S4x16x16384x16_S16_d0_2_3 i 0 1).symm.trans h0
  · intro h
    funext e
    match e with
    | ⟨0, _⟩ => exact Fin.ext ((Shape.ReducesTo.drop_apply_val_of_eq reducesTo_S4x16x16384x16_S16_d0_2_3 i 0 1).trans h)

/-- The host's sum over axes 0, 2, 3 of a [4,16,16384,16] array, at channel `d`: the initial value plus the triple sum. -/
theorem reduce_d023 (x : S4x16x16384x16.Idx → EReal) (init : EReal) (d : Fin 16) :
    Ideal.hostReduceAdd reducesTo_S4x16x16384x16_S16_d0_2_3 x init (ix1 d)
      = init + ∑ b : Fin 4, ∑ n : Fin 16384, ∑ k : Fin 16, x (ix4 b d n k) := by
  unfold Ideal.hostReduceAdd
  refine congrArg (init + ·) ?_
  exact sum_filter_coord1 (n0 := 4) (n1 := 16) (n2 := 16384) (n3 := 16) x _ d
    (fun a b c e => (drop_eq_iff (ix4 a b c e) d).trans ⟨fun h => Fin.ext h, fun h => congrArg Fin.val h⟩)

/-! ### The index maps of the broadcasts between [16], [1,16,1,1] and [4,16,16384,16] -/

theorem idx_v18 (z0 : Fin 1) (d : Fin 16) (z2 z3 : Fin 1) :
    ReadP.idx_main_v18 (ix4 z0 d z2 z3) = ix1 d := by
  funext e; match e with | ⟨0, _⟩ => rfl

theorem idx_v25 (z0 : Fin 1) (d : Fin 16) (z2 z3 : Fin 1) :
    ReadP.idx_main_v25 (ix4 z0 d z2 z3) = ix1 d := by
  funext e; match e with | ⟨0, _⟩ => rfl

theorem idx_v35 (z0 : Fin 1) (d : Fin 16) (z2 z3 : Fin 1) :
    ReadP.idx_main_v35 (ix4 z0 d z2 z3) = ix1 d := by
  funext e; match e with | ⟨0, _⟩ => rfl

theorem idx_v38 (z0 : Fin 1) (d : Fin 16) (z2 z3 : Fin 1) :
    ReadP.idx_main_v38 (ix4 z0 d z2 z3) = ix1 d := by
  funext e; match e with | ⟨0, _⟩ => rfl

theorem idx_v21 (b : Fin 4) (d : Fin 16) (n : Fin 16384) (k : Fin 16) :
    ReadP.idx_main_v21 (ix4 b d n k) = ix4 (0 : Fin 1) d (0 : Fin 1) (0 : Fin 1) := by
  funext e; match e with | ⟨0, _⟩ => rfl | ⟨1, _⟩ => rfl | ⟨2, _⟩ => rfl | ⟨3, _⟩ => rfl

theorem idx_v28 (b : Fin 4) (d : Fin 16) (n : Fin 16384) (k : Fin 16) :
    ReadP.idx_main_v28 (ix4 b d n k) = ix4 (0 : Fin 1) d (0 : Fin 1) (0 : Fin 1) := by
  funext e; match e with | ⟨0, _⟩ => rfl | ⟨1, _⟩ => rfl | ⟨2, _⟩ => rfl | ⟨3, _⟩ => rfl

theorem idx_v33 (b : Fin 4) (d : Fin 16) (n : Fin 16384) (k : Fin 16) :
    ReadP.idx_main_v33 (ix4 b d n k) = ix4 (0 : Fin 1) d (0 : Fin 1) (0 : Fin 1) := by
  funext e; match e with | ⟨0, _⟩ => rfl | ⟨1, _⟩ => rfl | ⟨2, _⟩ => rfl | ⟨3, _⟩ => rfl

theorem idx_v36 (b : Fin 4) (d : Fin 16) (n : Fin 16384) (k : Fin 16) :
    ReadP.idx_main_v36 (ix4 b d n k) = ix4 (0 : Fin 1) d (0 : Fin 1) (0 : Fin 1) := by
  funext e; match e with | ⟨0, _⟩ => rfl | ⟨1, _⟩ => rfl | ⟨2, _⟩ => rfl | ⟨3, _⟩ => rfl

theorem idx_v39 (b : Fin 4) (d : Fin 16) (n : Fin 16384) (k : Fin 16) :
    ReadP.idx_main_v39 (ix4 b d n k) = ix4 (0 : Fin 1) d (0 : Fin 1) (0 : Fin 1) := by
  funext e; match e with | ⟨0, _⟩ => rfl | ⟨1, _⟩ => rfl | ⟨2, _⟩ => rfl | ⟨3, _⟩ => rfl

theorem idx_v42 (b : Fin 4) (d : Fin 16) (n : Fin 16384) (k : Fin 16) :
    ReadP.idx_main_v42 (ix4 b d n k) = ix4 b d n (0 : Fin 1) := by
  funext e; match e with | ⟨0, _⟩ => rfl | ⟨1, _⟩ => rfl | ⟨2, _⟩ => rfl | ⟨3, _⟩ => rfl

/-! ### Totals, mean, variance -/

theorem v17_apply' (d : Fin 16) :
    ReadP.val_main_v17 (F := Ideal) x0 x2 x3 x4 x5 (ix1 d) = tot (X x0 (nbrR x0 x2) x3 x4 x5) d := by
  refine (reduce_d023 (ReadP.val_main_v16 (F := Ideal) x0 x2 x3 x4 x5) (Ideal.ofBits .f32 0x00000000#32) d).trans ?_
  rw [Ideal.ofBits_zero_f32, zero_add]
  unfold tot
  exact Finset.sum_congr rfl fun b _ => Finset.sum_congr rfl fun n _ => Finset.sum_congr rfl fun k _ =>
    v16_apply' x0 x2 x3 x4 x5 b d n k

theorem v20_apply' (z0 : Fin 1) (d : Fin 16) (z2 z3 : Fin 1) :
    ReadP.val_main_v20 (F := Ideal) x0 x2 x3 x4 x5 (ix4 z0 d z2 z3) = mean (X x0 (nbrR x0 x2) x3 x4 x5) d := by
  rw [ReadP.val_main_v20_apply, ReadP.val_main_v18_apply, ReadP.val_main_v19_apply, ReadP.val_main_cst_1_apply, idx_v18,
    v17_apply']
  rfl

theorem v22_apply' (b : Fin 4) (d : Fin 16) (n : Fin 16384) (k : Fin 16) :
    ReadP.val_main_v22 (F := Ideal) x0 x2 x3 x4 x5 (ix4 b d n k) = (X x0 (nbrR x0 x2) x3 x4 x5) b d n k - mean (X x0 (nbrR x0 x2) x3 x4 x5) d := by
  rw [ReadP.val_main_v22_apply, ReadP.val_main_v21_apply, idx_v21, v20_apply', v16_apply']
  rfl

theorem v29_apply' (b : Fin 4) (d : Fin 16) (n : Fin 16384) (k : Fin 16) :
    ReadP.val_main_v29 (F := Ideal) x0 x2 x3 x4 x5 (ix4 b d n k) = (X x0 (nbrR x0 x2) x3 x4 x5) b d n k - mean (X x0 (nbrR x0 x2) x3 x4 x5) d := by
  rw [ReadP.val_main_v29_apply, ReadP.val_main_v28_apply, idx_v28, v20_apply', v16_apply']
  rfl

theorem v23_apply' (b : Fin 4) (d : Fin 16) (n : Fin 16384) (k : Fin 16) :
    ReadP.val_main_v23 (F := Ideal) x0 x2 x3 x4 x5 (ix4 b d n k)
      = ((X x0 (nbrR x0 x2) x3 x4 x5) b d n k - mean (X x0 (nbrR x0 x2) x3 x4 x5) d) * ((X x0 (nbrR x0 x2) x3 x4 x5) b d n k - mean (X x0 (nbrR x0 x2) x3 x4 x5) d) := by
  rw [ReadP.val_main_v23_apply, v22_apply']
  rfl

theorem v24_apply' (d : Fin 16) :
    ReadP.val_main_v24 (F := Ideal) x0 x2 x3 x4 x5 (ix1 d)
      = tot (fun b d n k => ((X x0 (nbrR x0 x2) x3 x4 x5) b d n k - mean (X x0 (nbrR x0 x2) x3 x4 x5) d) * ((X x0 (nbrR x0 x2) x3 x4 x5) b d n k - mean (X x0 (nbrR x0 x2) x3 x4 x5) d)) d := by
  refine (reduce_d023 (ReadP.val_main_v23 (F := Ideal) x0 x2 x3 x4 x5) (Ideal.ofBits .f32 0x00000000#32) d).trans ?_
  rw [Ideal.ofBits_zero_f32, zero_add]
  unfold tot
  exact Finset.sum_congr rfl fun b _ => Finset.sum_congr rfl fun n _ => Finset.sum_congr rfl fun k _ =>
    v23_apply' x0 x2 x3 x4 x5 b d n k

theorem v27_apply' (z0 : Fin 1) (d : Fin 16) (z2 z3 : Fin 1) :
    ReadP.val_main_v27 (F := Ideal) x0 x2 x3 x4 x5 (ix4 z0 d z2 z3) = varC (X x0 (nbrR x0 x2) x3 x4 x5) d := by
  rw [ReadP.val_main_v27_apply, ReadP.val_main_v25_apply, ReadP.val_main_v26_apply, ReadP.val_main_cst_3_apply, idx_v25,
    v24_apply']
  rfl

/-! ### Normalise, scale, shift, clamp -/

theorem v34_apply' (b : Fin 4) (d : Fin 16) (n : Fin 16384) (k : Fin 16) :
    ReadP.val_main_v34 (F := Ideal) x0 x2 x3 x4 x5 (ix4 b d n k)
      = ((X x0 (nbrR x0 x2) x3 x4 x5) b d n k - mean (X x0 (nbrR x0 x2) x3 x4 x5) d) * Ideal.rsqrt (varC (X x0 (nbrR x0 x2) x3 x4 x5) d + eps) := by
  rw [ReadP.val_main_v34_apply, v29_apply', ReadP.val_main_v33_apply, idx_v33, ReadP.val_main_v32_apply,
    ReadP.val_main_v31_apply, v27_apply', ReadP.val_main_v30_apply, ReadP.val_main_cst_4_apply]
  rfl

theorem v41_apply' (b : Fin 4) (d : Fin 16) (n : Fin 16384) (k : Fin 16) :
    ReadP.val_main_v41 (F := Ideal) x0 x2 x3 x4 x5 x6 x7 (ix4 b d n k)
      = norm ((X x0 (nbrR x0 x2) x3 x4 x5) b d n k) (mean (X x0 (nbrR x0 x2) x3 x4 x5) d) (varC (X x0 (nbrR x0 x2) x3 x4 x5) d) (x6 (ix1 d)) (x7 (ix1 d)) := by
  rw [ReadP.val_main_v41_apply, ReadP.val_main_v40_apply, ReadP.val_main_v37_apply, v34_apply', ReadP.val_main_v36_apply, idx_v36,
    ReadP.val_main_v35_apply, idx_v35, ReadP.val_main_v39_apply, idx_v39, ReadP.val_main_v38_apply, idx_v38,
    ReadP.val_main_call0_v0_apply, ReadP.val_main_call0_cst_apply]
  rfl

/-! ### The result: the two-piece concatenation at an index -/

theorem v43_apply' (b : Fin 4) (ch : Fin 32) (n : Fin 16384) (k : Fin 16) :
    ReadP.val_main_v43 (F := Ideal) x0 x1 x2 x3 x4 x5 x6 x7 (ix4 b ch n k)
      = Out (X x0 (nbrR x0 x2) x3 x4 x5) (mean (X x0 (nbrR x0 x2) x3 x4 x5)) (varC (X x0 (nbrR x0 x2) x3 x4 x5)) x6 x7 x1 b ch n k := by
  unfold ReadP.val_main_v43 Out
  by_cases h : ch.val < 16
  · rw [dif_pos h]
    refine (concatenate_pair_apply_left (s₁ := S4x16x16384x16) (s₂ := S4x16x16384x16) (1 : Fin S4x32x16384x16.rank) _ _ _ (ix4 b ch n k) rfl (ix4 b ⟨ch.val, h⟩ n k) ?_).trans
      (v41_apply' x0 x2 x3 x4 x5 x6 x7 b ⟨ch.val, h⟩ n k)
    intro e
    match e with
    | ⟨0, _⟩ => rfl
    | ⟨1, _⟩ => rfl
    | ⟨2, _⟩ => rfl
    | ⟨3, _⟩ => rfl
  · rw [dif_neg h]
    refine (concatenate_pair_apply_right (s₁ := S4x16x16384x16) (s₂ := S4x16x16384x16) (1 : Fin S4x32x16384x16.rank) _ _ _ (ix4 b ch n k) rfl rfl
      (ix4 b ⟨ch.val - 16, by have := ch.isLt; omega⟩ n k) ?_ ?_).trans ?_
    · intro e he
      match e with
      | ⟨0, _⟩ => rfl
      | ⟨1, _⟩ => exact absurd rfl he
      | ⟨2, _⟩ => rfl
      | ⟨3, _⟩ => rfl
    · show (ch.val - 16) + 16 = ch.val
      omega
    · rw [ReadP.val_main_v42_apply, idx_v42]

end Read

/-! ## The reference's result, entry by entry -/

section
variable (m : (ℓ : Loc nD τ sig) → Buf (Elt Ideal) ℓ) (c : Dev nD)
/-- the reference's result, entry by entry -/
theorem ref_value (b : Fin 4) (ch : Fin 32) (n : Fin 16384) (k : Fin 16) :
    StableHlo.after (ValueP.ops (F := Ideal)) (StableHlo.launchContents m c) (Proc.devRef .tc main_v43) (ix4 b ch n k)
      = Out (X (m ((c.tc : Thread nD τ).loc main_arg0)) (nbrR (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5)))
          (mean (X (m ((c.tc : Thread nD τ).loc main_arg0)) (nbrR (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5))))
          (varC (X (m ((c.tc : Thread nD τ).loc main_arg0)) (nbrR (m ((c.tc : Thread nD τ).loc main_arg0)) (m ((c.tc : Thread nD τ).loc main_arg2))) (m ((c.tc : Thread nD τ).loc main_arg3)) (m ((c.tc : Thread nD τ).loc main_arg4)) (m ((c.tc : Thread nD τ).loc main_arg5))))
          (m ((c.tc : Thread nD τ).loc main_arg6)) (m ((c.tc : Thread nD τ).loc main_arg7)) (m ((c.tc : Thread nD τ).loc main_arg1)) b ch n k :=
  (congrFun (fold_eq m c) (ix4 b ch n k)).trans
    (v43_apply' (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) b ch n k)
end

end Cert.ReferenceIdeal.RefValue

end
-- ==== Proof.Finite.lean ====
/-
  Finiteness of the inputs.  The precondition of the idealized kernel says that a printed predicate — for each of
  the seven float arrays, "every entry x has |x| < +∞", all seven conjoined — evaluates to the one-bit word 1.
  Read back: every entry of each float array is a real number (neither infinity nor the junk value ⊥).
  Second: a gather only copies entries of its operand, so it keeps "every entry is a real".
-/
import proofs.«107703_j12592844112371_2_alg».proof.Defs
import Idealize.ShloMosaic.Lib.ReduceAll
import Idealize.ShloMosaic.Lib.ValueIdx

set_option maxRecDepth 16384

noncomputable section

namespace Cert.KernelIdeal.Finite

open Idealize.ShloMosaic Idealize.ShloMosaic.TcCoe Idealize.ShloMosaic.ValueIdx Idealize.SL.Sem

/-- The rank-0 shape has one index. -/
instance : Subsingleton Cert.Pre_finite_inputs.S_.Idx := ⟨fun a b => funext fun d => d.elim0⟩

/-- The word 0x7F800000 denotes +∞. -/
theorem inf_eq_top : Ideal.ofBits .f32 0x7F800000#32 = (⊤ : EReal) := by
  simp [Ideal.ofBits, Ideal.ieee]

/-- An extended real whose absolute value max x (−x) is below +∞ is a real. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- One conjunct of the printed predicate — the conjunction over all entries of |x| < +∞ is the word 1 — read back at every entry. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := fun i =>
  real_of_abs_lt (x i) (Host.reduce_andi_all _ _ hr hu ix0 e i)

/-- THE PRECONDITION DECODED: on every device, every entry of each of the seven float arrays is a real. -/
theorem pre_real [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have e := congrFun (h c) ix0
  unfold Cert.Pre_finite_inputs.fn Cert.Pre_finite_inputs.fn_part1 at e
  dsimp only [andi] at e
  simp only [IntOp.andi_eq_one] at e
  obtain ⟨⟨⟨⟨⟨⟨h0, h1⟩, h3⟩, h4⟩, h5⟩, h6⟩, h7⟩ := e
  exact ⟨all_real _ _ _ _ h0, all_real _ _ _ _ h1, all_real _ _ _ _ h3, all_real _ _ _ _ h4,
    all_real _ _ _ _ h5, all_real _ _ _ _ h6, all_real _ _ _ _ h7⟩

/-- A gather's entry IS an entry of its operand (at the clamped index the record computes). -/
theorem gather_mem [hKernelIdeal : Cert.KernelIdeal.Facts] (co : Vec Ideal Cert.KernelIdeal.S4x16384x3 .f32)
    (ix : Vec Ideal Cert.KernelIdeal.S4x16384x16x1 .i32) (j : Cert.KernelIdeal.S4x16384x16x3.Idx) :
    ∃ i, Host.gather Cert.KernelIdeal.gather_S4x16384x3_S4x16384x16x1_S4x16384x16x3_3_1_0_0_1_3_113 co ix j = co i :=
  ⟨_, rfl⟩

/-- The gathered neighbour coordinates are real when the coordinates are. -/
theorem gather_real [hKernelIdeal : Cert.KernelIdeal.Facts] (co : Vec Ideal Cert.KernelIdeal.S4x16384x3 .f32)
    (hco : ∀ i, ∃ r : ℝ, co i = (r : EReal)) (ix : Vec Ideal Cert.KernelIdeal.S4x16384x16x1 .i32) :
    ∀ j, ∃ r : ℝ, Host.gather Cert.KernelIdeal.gather_S4x16384x3_S4x16384x16x1_S4x16384x16x3_3_1_0_0_1_3_113 co ix j = (r : EReal) :=
  fun j => hco _

/-- The same for any gather record: every entry of a gather is an entry of its operand, so a gather of reals is real. -/
theorem gather_real_gen {s si t : Shape} {w : Nat} (d : GatherDims s si t) (x : s.Idx → EReal)
    (hx : ∀ i, ∃ r : ℝ, x i = (r : EReal)) (idx : IVec si w) :
    ∀ j, ∃ r : ℝ, Host.gather d x idx j = (r : EReal) :=
  fun j => hx _

end Cert.KernelIdeal.Finite

end
-- ==== Proof.lean ====
/-
  Two programs for one layer of a point-cloud network, equal at the ideal values.

  Input: 4 batches of 16384 points in ℝ³, for every point the indices of 16 neighbours and the distances to them, 16 input
  feature channels per point, and the parameters of a 1×1 convolution (16 × 10 weights, 16 biases) and of a batch
  normalisation (16 scales, 16 shifts). For every (point, neighbour) pair ten features are formed — the point's
  coordinates, the neighbour's (gathered through the index array, an index below zero wrapped once and then clamped, by
  the same host operations in both programs), their difference and the distance —, the convolution maps them to 16
  channels, each channel is normalised by its mean and variance over all 4·16384·16 pairs, scaled, shifted and clamped
  below at zero, and the point's 16 input channels are appended: 32 channels for every pair (`Cert.Spec.Out`).

  The reference does this on whole arrays and takes the variance as the mean of the squared deviations. The kernel
  program runs two kernels over tiles of 1024 points: the first accumulates, per batch and channel, the sum and the sum of
  squares of the convolution over the tiles; between them the host divides by the count 2²⁰ and takes the variance as
  E[x²] − mean²; the second recomputes the convolution tile by tile, normalises it and lays the result out with the
  neighbour index innermost. At the ideal values sums regroup freely (addition of extended reals is commutative and
  associative), so both means are one number; the two variance formulas agree because every input is finite (the
  precondition), hence every convolution value is a real number, and over ℝ  Σ(x − μ)² = Σx² − Nμ²  when Σx = Nμ.
  Everything else is the same operation on equal operands.

  The pieces: Spec (the mathematics), StatsPay / StatsBody / StatsArr (the first kernel: one tile's sums, one grid
  point, the whole grid), ConvChunk / MainBody / MainArr (the second kernel likewise), HostSide (the host operations of
  the kernel program), KernelRun (its run with the result named), Bridge (its result is `Out` with the moment-form
  variance), RefRun / RefRead / RefValue (the reference's run and its result as `Out` with the centred variance),
  Algebra (regrouping the sums; the two variances), Finite (the inputs are real numbers).
-/
import proofs.«107703_j12592844112371_2_alg».proof.Defs
import proofs.«107703_j12592844112371_2_alg».proof.Proof.Gen.Kernel
import proofs.«107703_j12592844112371_2_alg».proof.Proof.Gen.Kernel.Frame
import proofs.«107703_j12592844112371_2_alg».proof.Proof.Gen.KernelIdeal
import proofs.«107703_j12592844112371_2_alg».proof.Proof.Gen.KernelIdeal.Frame
import proofs.«107703_j12592844112371_2_alg».proof.Proof.Gen.ReferenceIdeal
import proofs.«107703_j12592844112371_2_alg».proof.Proof.Gen.Pre_finite_inputs
import proofs.«107703_j12592844112371_2_alg».proof.Proof.KernelRun
import proofs.«107703_j12592844112371_2_alg».proof.Proof.Bridge
import proofs.«107703_j12592844112371_2_alg».proof.Proof.RefValue
import proofs.«107703_j12592844112371_2_alg».proof.Proof.Finite
import proofs.«107703_j12592844112371_2_alg».proof.Proof.Algebra

set_option maxRecDepth 16384

noncomputable section

open Idealize.ShloMosaic Idealize.ShloMosaic.TcCoe Idealize.ShloMosaic.ValueIdx Idealize.SL.Sem Idealize.ShloMosaic.StableHlo

namespace Cert.Proof.Claims

open Cert.Spec

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the ideal values. -/
theorem preserves : Cert.preserves_Kernel_KernelIdeal := trivial

/-- The two programs gather the neighbours' coordinates by the same host operations. -/
theorem nbr_eq (x : Vec Ideal Cert.KernelIdeal.S4x16384x3 .f32) (i : Vec Ideal Cert.KernelIdeal.S4x16384x16 .i32) :
    Cert.ReferenceIdeal.RefValue.nbrR x i = Cert.KernelIdeal.HostSide.nbrK x i := rfl

/-- Both runs end; entry by entry both results are `Out` of the same convolution values and the same mean, with the
    centred variance on the reference's side and the moment form on the kernel's — equal because the convolution values
    are real numbers under the precondition. -/
theorem algebraic : Cert.algebraic_KernelIdeal_ReferenceIdeal := by
  intro m ρ m' ρ' hpre hagree
  refine ⟨fun c => Cert.KernelIdeal.Gen.W5 m ρ c (Proc.devRef .tc Cert.KernelIdeal.main_v24), Cert.KernelIdeal.RunOut.run_out m ρ, ?_⟩
  refine (θ_run Cert.ReferenceIdeal.defs _ _).mono (fun _ h c => ⟨(h c).1.trans ?_, (h c).2⟩)
    (Cert.ReferenceIdeal.ValueP.run (F := Ideal) m' ρ')
  funext j
  obtain ⟨b, ch, n, k, rfl⟩ : ∃ (b : Fin 4) (ch : Fin 32) (n : Fin 16384) (k : Fin 16), j = ix4 b ch n k := ⟨j 0, j 1, j 2, j 3, eq_ix4 j⟩
  have hfin := Cert.KernelIdeal.Finite.pre_real m hpre c
  have hnb : ∀ j, ∃ r : ℝ, Cert.KernelIdeal.HostSide.nbrK (m ((c.tc : Thread _ _).loc Cert.KernelIdeal.main_arg0)) (m ((c.tc : Thread _ _).loc Cert.KernelIdeal.main_arg2)) j = (r : EReal) := by
    intro j; unfold Cert.KernelIdeal.HostSide.nbrK; exact Cert.KernelIdeal.Finite.gather_real _ hfin.1 _ j
  have hX := Cert.Algebra.X_real (m ((c.tc : Thread _ _).loc Cert.KernelIdeal.main_arg0))
    (Cert.KernelIdeal.HostSide.nbrK (m ((c.tc : Thread _ _).loc Cert.KernelIdeal.main_arg0)) (m ((c.tc : Thread _ _).loc Cert.KernelIdeal.main_arg2)))
    (m ((c.tc : Thread _ _).loc Cert.KernelIdeal.main_arg3)) (m ((c.tc : Thread _ _).loc Cert.KernelIdeal.main_arg4)) (m ((c.tc : Thread _ _).loc Cert.KernelIdeal.main_arg5))
    hfin.1 hnb hfin.2.2.1 hfin.2.2.2.1 hfin.2.2.2.2.1
  refine (Cert.ReferenceIdeal.RefValue.ref_value m' c b ch n k).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2, nbr_eq]
  refine Eq.trans ?_ (Cert.Bridge.kernel_value m ρ c b ch n k).symm
  rw [show varC (X _ _ _ _ _) = varM (X _ _ _ _ _) from funext fun d => (Cert.Algebra.varM_eq_varC _ hX d).symm]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
